-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x768 : Shape := ⟨3, ![16, 2048, 768]⟩
abbrev S16x2047 : Shape := ⟨2, ![16, 2047]⟩
abbrev S16x2048 : Shape := ⟨2, ![16, 2048]⟩
abbrev S512x128 : Shape := ⟨2, ![512, 128]⟩
abbrev S50000x768 : Shape := ⟨2, ![50000, 768]⟩
abbrev S128x256 : Shape := ⟨2, ![128, 256]⟩
abbrev S768x1536 : Shape := ⟨2, ![768, 1536]⟩
abbrev S768x896 : Shape := ⟨2, ![768, 896]⟩
abbrev S_ : Shape := ⟨0, ![]⟩

class Facts : Prop where
  bcast_S_S16x2048x768 : S_.BroadcastsInDim S16x2048x768 (![] : Fin 0 → Fin S16x2048x768.rank)
  reducesTo_S16x2048x768_S_d0_1_2 : S16x2048x768.ReducesTo [0, 1, 2] S_
  h_S_ : 0 < S_.numel
  bcast_S_S512x128 : S_.BroadcastsInDim S512x128 (![] : Fin 0 → Fin S512x128.rank)
  reducesTo_S512x128_S_d0_1 : S512x128.ReducesTo [0, 1] S_
  bcast_S_S50000x768 : S_.BroadcastsInDim S50000x768 (![] : Fin 0 → Fin S50000x768.rank)
  reducesTo_S50000x768_S_d0_1 : S50000x768.ReducesTo [0, 1] S_
  bcast_S_S128x256 : S_.BroadcastsInDim S128x256 (![] : Fin 0 → Fin S128x256.rank)
  reducesTo_S128x256_S_d0_1 : S128x256.ReducesTo [0, 1] S_
  bcast_S_S768x1536 : S_.BroadcastsInDim S768x1536 (![] : Fin 0 → Fin S768x1536.rank)
  reducesTo_S768x1536_S_d0_1 : S768x1536.ReducesTo [0, 1] S_
  bcast_S_S768x896 : S_.BroadcastsInDim S768x896 (![] : Fin 0 → Fin S768x896.rank)
  reducesTo_S768x896_S_d0_1 : S768x896.ReducesTo [0, 1] S_

variable [Facts]

def fn_part1 {F : FTy → Type} [FloatOps F] (main_arg7 : FVec F S128x256 .f32) (main_arg8 : FVec F S768x1536 .f32) (main_arg9 : FVec F S768x896 .f32) (main_v13 : IVec S_ 1) (main_v16 : IVec S50000x768 1) : IVec S_ 1 :=
  let main_c_5 : IVec S_ 1 := constantI S_ 1 1#1
  let main_v17 : IVec S_ 1 := (fun x v => Host.reduce IntOp.andi x v reducesTo_S50000x768_S_d0_1 h_S_) main_v16 main_c_5
  let main_v18 : IVec S_ 1 := andi main_v13 main_v17
  let main_v19 : FVec F S128x256 .f32 := Host.absf main_arg7
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S768x1536 .f32 := Host.absf main_arg8
  let main_cst_8 : FVec F S_ .f32 := constant S_ .f32 0x7F800000#32
  let main_v25 : FVec F S768x1536 .f32 := broadcastInDim S768x1536 ![] bcast_S_S768x1536 main_cst_8
  let main_v26 : IVec S768x1536 1 := cmpf .olt main_v24 main_v25
  let main_c_9 : IVec S_ 1 := constantI S_ 1 1#1
  let main_v27 : IVec S_ 1 := (fun x v => Host.reduce IntOp.andi x v reducesTo_S768x1536_S_d0_1 h_S_) main_v26 main_c_9
  let main_v28 : IVec S_ 1 := andi main_v23 main_v27
  let main_v29 : FVec F S768x896 .f32 := Host.absf main_arg9
  let main_cst_10 : FVec F S_ .f32 := constant S_ .f32 0x7F800000#32
  let main_v30 : FVec F S768x896 .f32 := broadcastInDim S768x896 ![] bcast_S_S768x896 main_cst_10
  let main_v31 : IVec S768x896 1 := cmpf .olt main_v29 main_v30
  let main_c_11 : IVec S_ 1 := constantI S_ 1 1#1
  let main_v32 : IVec S_ 1 := (fun x v => Host.reduce IntOp.andi x v reducesTo_S768x896_S_d0_1 h_S_) main_v31 main_c_11
  let main_v33 : IVec S_ 1 := andi main_v28 main_v32
  main_v33

def fn {F : FTy → Type} [FloatOps F] (main_arg0 : FVec F S16x2048x768 .f32) (main_arg1 : IVec S16x2047 32) (main_arg2 : IVec S16x2047 32) (main_arg3 : IVec S16x2048 32) (main_arg4 : FVec F S512x128 .f32) (main_arg5 : FVec F S512x128 .f32) (main_arg6 : FVec F S50000x768 .f32) (main_arg7 : FVec F S128x256 .f32) (main_arg8 : FVec F S768x1536 .f32) (main_arg9 : FVec F S768x896 .f32) : IVec S_ 1 :=
  let main_v0 : FVec F S16x2048x768 .f32 := Host.absf main_arg0
  let main_cst : FVec F S_ .f32 := constant S_ .f32 0x7F800000#32
  let main_v1 : FVec F S16x2048x768 .f32 := broadcastInDim S16x2048x768 ![] bcast_S_S16x2048x768 main_cst
  let main_v2 : IVec S16x2048x768 1 := cmpf .olt main_v0 main_v1
  let main_c : IVec S_ 1 := constantI S_ 1 1#1
  let main_v3 : IVec S_ 1 := (fun x v => Host.reduce IntOp.andi x v reducesTo_S16x2048x768_S_d0_1_2 h_S_) main_v2 main_c
  let main_v4 : FVec F S512x128 .f32 := Host.absf main_arg4
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S512x128 .f32 := Host.absf main_arg5
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S50000x768 .f32 := Host.absf main_arg6
  let main_cst_4 : FVec F S_ .f32 := constant S_ .f32 0x7F800000#32
  let main_v15 : FVec F S50000x768 .f32 := broadcastInDim S50000x768 ![] bcast_S_S50000x768 main_cst_4
  let main_v16 : IVec S50000x768 1 := cmpf .olt main_v14 main_v15
  fn_part1 (F := F) main_arg7 main_arg8 main_arg9 main_v13 main_v16
-- ==== Kernel.lean ====
abbrev S16x2048x768 : Shape := ⟨3, ![16, 2048, 768]⟩
abbrev S16x2047 : Shape := ⟨2, ![16, 2047]⟩
abbrev S16x2048 : Shape := ⟨2, ![16, 2048]⟩
abbrev S512x128 : Shape := ⟨2, ![512, 128]⟩
abbrev S50000x768 : Shape := ⟨2, ![50000, 768]⟩
abbrev S128x256 : Shape := ⟨2, ![128, 256]⟩
abbrev S768x1536 : Shape := ⟨2, ![768, 1536]⟩
abbrev S768x896 : Shape := ⟨2, ![768, 896]⟩
abbrev S_ : Shape := ⟨0, ![]⟩
abbrev S16x2048x1 : Shape := ⟨3, ![16, 2048, 1]⟩
abbrev S16x2048x128 : Shape := ⟨3, ![16, 2048, 128]⟩
abbrev S128x128 : Shape := ⟨2, ![128, 128]⟩
abbrev S768x768 : Shape := ⟨2, ![768, 768]⟩
abbrev S768x128 : Shape := ⟨2, ![768, 128]⟩
abbrev S1x256x768 : Shape := ⟨3, ![1, 256, 768]⟩
abbrev S1x8x768 : Shape := ⟨3, ![1, 8, 768]⟩
abbrev S1x256x128 : Shape := ⟨3, ![1, 256, 128]⟩
abbrev S1x8x128 : Shape := ⟨3, ![1, 8, 128]⟩
abbrev S256x768 : Shape := ⟨2, ![256, 768]⟩
abbrev S1x1x768 : Shape := ⟨3, ![1, 1, 768]⟩
abbrev S768 : Shape := ⟨1, ![768]⟩
abbrev S1x768 : Shape := ⟨2, ![1, 768]⟩
abbrev S258x768 : Shape := ⟨2, ![258, 768]⟩
abbrev S257x768 : Shape := ⟨2, ![257, 768]⟩
abbrev S256x128 : Shape := ⟨2, ![256, 128]⟩
abbrev S1x1x128 : Shape := ⟨3, ![1, 1, 128]⟩
abbrev S128 : Shape := ⟨1, ![128]⟩
abbrev S1x128 : Shape := ⟨2, ![1, 128]⟩
abbrev S257x128 : Shape := ⟨2, ![257, 128]⟩
abbrev S128x768 : Shape := ⟨2, ![128, 768]⟩
abbrev S256x1 : Shape := ⟨2, ![256, 1]⟩

abbrev nBuf : Space → Nat
  | .hbm => 56
  | .vmem => 28
  | .smem => 0
  | _ => 0

abbrev bufTy : (tb : Table) → Fin (tcTables nBuf tb) → BufTy
  | .hbm, ⟨0, _⟩ => ⟨S16x2048x768, .f32⟩
  | .hbm, ⟨1, _⟩ => ⟨S16x2047, .i32⟩
  | .hbm, ⟨2, _⟩ => ⟨S16x2047, .i32⟩
  | .hbm, ⟨3, _⟩ => ⟨S16x2048, .i32⟩
  | .hbm, ⟨4, _⟩ => ⟨S512x128, .f32⟩
  | .hbm, ⟨5, _⟩ => ⟨S512x128, .f32⟩
  | .hbm, ⟨6, _⟩ => ⟨S50000x768, .f32⟩
  | .hbm, ⟨7, _⟩ => ⟨S128x256, .f32⟩
  | .hbm, ⟨8, _⟩ => ⟨S768x1536, .f32⟩
  | .hbm, ⟨9, _⟩ => ⟨S768x896, .f32⟩
  | .hbm, ⟨10, _⟩ => ⟨S_, .i32⟩
  | .hbm, ⟨11, _⟩ => ⟨S_, .i32⟩
  | .hbm, ⟨12, _⟩ => ⟨S16x2048, .i32⟩
  | .hbm, ⟨13, _⟩ => ⟨S_, .i32⟩
  | .hbm, ⟨14, _⟩ => ⟨S_, .i32⟩
  | .hbm, ⟨15, _⟩ => ⟨S16x2048, .i32⟩
  | .hbm, ⟨16, _⟩ => ⟨S_, .i32⟩
  | .hbm, ⟨17, _⟩ => ⟨S16x2048, .i32⟩
  | .hbm, ⟨18, _⟩ => ⟨S16x2048, .i1⟩
  | .hbm, ⟨19, _⟩ => ⟨S_, .i32⟩
  | .hbm, ⟨20, _⟩ => ⟨S16x2048, .i32⟩
  | .hbm, ⟨21, _⟩ => ⟨S16x2048, .i32⟩
  | .hbm, ⟨22, _⟩ => ⟨S16x2048, .i32⟩
  | .hbm, ⟨23, _⟩ => ⟨S16x2048x1, .i32⟩
  | .hbm, ⟨24, _⟩ => ⟨S16x2048x128, .f32⟩
  | .hbm, ⟨25, _⟩ => ⟨S_, .i32⟩
  | .hbm, ⟨26, _⟩ => ⟨S16x2048, .i32⟩
  | .hbm, ⟨27, _⟩ => ⟨S16x2048, .i1⟩
  | .hbm, ⟨28, _⟩ => ⟨S_, .i32⟩
  | .hbm, ⟨29, _⟩ => ⟨S16x2048, .i32⟩
  | .hbm, ⟨30, _⟩ => ⟨S16x2048, .i32⟩
  | .hbm, ⟨31, _⟩ => ⟨S16x2048, .i32⟩
  | .hbm, ⟨32, _⟩ => ⟨S16x2048x1, .i32⟩
  | .hbm, ⟨33, _⟩ => ⟨S16x2048x128, .f32⟩
  | .hbm, ⟨34, _⟩ => ⟨S_, .i32⟩
  | .hbm, ⟨35, _⟩ => ⟨S16x2048, .i32⟩
  | .hbm, ⟨36, _⟩ => ⟨S16x2048, .i1⟩
  | .hbm, ⟨37, _⟩ => ⟨S_, .i32⟩
  | .hbm, ⟨38, _⟩ => ⟨S16x2048, .i32⟩
  | .hbm, ⟨39, _⟩ => ⟨S16x2048, .i32⟩
  | .hbm, ⟨40, _⟩ => ⟨S16x2048, .i32⟩
  | .hbm, ⟨41, _⟩ => ⟨S16x2048x1, .i32⟩
  | .hbm, ⟨42, _⟩ => ⟨S16x2048x768, .f32⟩
  | .hbm, ⟨43, _⟩ => ⟨S128x128, .f32⟩
  | .hbm, ⟨44, _⟩ => ⟨S128x128, .bf16⟩
  | .hbm, ⟨45, _⟩ => ⟨S128x128, .f32⟩
  | .hbm, ⟨46, _⟩ => ⟨S128x128, .bf16⟩
  | .hbm, ⟨47, _⟩ => ⟨S768x768, .f32⟩
  | .hbm, ⟨48, _⟩ => ⟨S768x768, .bf16⟩
  | .hbm, ⟨49, _⟩ => ⟨S768x768, .f32⟩
  | .hbm, ⟨50, _⟩ => ⟨S768x768, .bf16⟩
  | .hbm, ⟨51, _⟩ => ⟨S768x768, .f32⟩
  | .hbm, ⟨52, _⟩ => ⟨S768x768, .bf16⟩
  | .hbm, ⟨53, _⟩ => ⟨S768x128, .f32⟩
  | .hbm, ⟨54, _⟩ => ⟨S768x128, .bf16⟩
  | .hbm, ⟨55, _⟩ => ⟨S16x2048x768, .f32⟩
  | .local _ .vmem, ⟨0, _⟩ => ⟨S1x256x768, .f32⟩
  | .local _ .vmem, ⟨1, _⟩ => ⟨S1x256x768, .f32⟩
  | .local _ .vmem, ⟨2, _⟩ => ⟨S1x8x768, .f32⟩
  | .local _ .vmem, ⟨3, _⟩ => ⟨S1x8x768, .f32⟩
  | .local _ .vmem, ⟨4, _⟩ => ⟨S1x8x768, .f32⟩
  | .local _ .vmem, ⟨5, _⟩ => ⟨S1x8x768, .f32⟩
  | .local _ .vmem, ⟨6, _⟩ => ⟨S1x256x768, .f32⟩
  | .local _ .vmem, ⟨7, _⟩ => ⟨S1x256x768, .f32⟩
  | .local _ .vmem, ⟨8, _⟩ => ⟨S1x8x768, .f32⟩
  | .local _ .vmem, ⟨9, _⟩ => ⟨S1x8x768, .f32⟩
  | .local _ .vmem, ⟨10, _⟩ => ⟨S1x8x768, .f32⟩
  | .local _ .vmem, ⟨11, _⟩ => ⟨S1x8x768, .f32⟩
  | .local _ .vmem, ⟨12, _⟩ => ⟨S1x256x128, .f32⟩
  | .local _ .vmem, ⟨13, _⟩ => ⟨S1x256x128, .f32⟩
  | .local _ .vmem, ⟨14, _⟩ => ⟨S1x8x128, .f32⟩
  | .local _ .vmem, ⟨15, _⟩ => ⟨S1x8x128, .f32⟩
  | .local _ .vmem, ⟨16, _⟩ => ⟨S1x256x128, .f32⟩
  | .local _ .vmem, ⟨17, _⟩ => ⟨S1x256x128, .f32⟩
  | .local _ .vmem, ⟨18, _⟩ => ⟨S1x8x128, .f32⟩
  | .local _ .vmem, ⟨19, _⟩ => ⟨S1x8x128, .f32⟩
  | .local _ .vmem, ⟨20, _⟩ => ⟨S128x128, .bf16⟩
  | .local _ .vmem, ⟨21, _⟩ => ⟨S128x128, .bf16⟩
  | .local _ .vmem, ⟨22, _⟩ => ⟨S768x768, .bf16⟩
  | .local _ .vmem, ⟨23, _⟩ => ⟨S768x768, .bf16⟩
  | .local _ .vmem, ⟨24, _⟩ => ⟨S768x768, .bf16⟩
  | .local _ .vmem, ⟨25, _⟩ => ⟨S768x128, .bf16⟩
  | .local _ .vmem, ⟨26, _⟩ => ⟨S1x256x768, .f32⟩
  | .local _ .vmem, ⟨27, _⟩ => ⟨S1x256x768, .f32⟩
  | _, _ => ⟨S16x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_c_0 : Ref sig .tc := ⟨.hbm, 13, rfl⟩
abbrev main_call1_v0 : Ref sig .tc := ⟨.hbm, 14, rfl⟩
abbrev main_v1 : Ref sig .tc := ⟨.hbm, 15, rfl⟩
abbrev main_c_1 : Ref sig .tc := ⟨.hbm, 16, rfl⟩
abbrev main_v2 : Ref sig .tc := ⟨.hbm, 17, rfl⟩
abbrev main_v3 : Ref sig .tc := ⟨.hbm, 18, rfl⟩
abbrev main_c_2 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c_3 : Ref sig .tc := ⟨.hbm, 25, rfl⟩
abbrev main_v9 : Ref sig .tc := ⟨.hbm, 26, rfl⟩
abbrev main_v10 : Ref sig .tc := ⟨.hbm, 27, rfl⟩
abbrev main_c_4 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c_5 : Ref sig .tc := ⟨.hbm, 34, rfl⟩
abbrev main_v16 : Ref sig .tc := ⟨.hbm, 35, rfl⟩
abbrev main_v17 : Ref sig .tc := ⟨.hbm, 36, rfl⟩
abbrev main_c_6 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c255_i32 : BitVec 32 := 255#32
  let v3 : BitVec 32 := Scalar.minsi v2 c255_i32
  let c0_i32_0 : BitVec 32 := 0#32
  let c0_i32_1 : BitVec 32 := 0#32
  ![arg0.toNat, v3.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c0_i32 : BitVec 32 := 0#32
  let v2 : BitVec 32 := Scalar.maxsi v1 c0_i32
  let c255_i32 : BitVec 32 := 255#32
  let v3 : BitVec 32 := Scalar.minsi v2 c255_i32
  let c0_i32_0 : BitVec 32 := 0#32
  let c0_i32_1 : BitVec 32 := 0#32
  ![arg0.toNat, v3.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c255_i32 : BitVec 32 := 255#32
  let v3 : BitVec 32 := Scalar.minsi v2 c255_i32
  let c0_i32_0 : BitVec 32 := 0#32
  let c0_i32_1 : BitVec 32 := 0#32
  ![arg0.toNat, v3.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c0_i32 : BitVec 32 := 0#32
  let v2 : BitVec 32 := Scalar.maxsi v1 c0_i32
  let c255_i32 : BitVec 32 := 255#32
  let v3 : BitVec 32 := Scalar.minsi v2 c255_i32
  let c0_i32_0 : BitVec 32 := 0#32
  let c0_i32_1 : BitVec 32 := 0#32
  ![arg0.toNat, v3.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c255_i32 : BitVec 32 := 255#32
  let v3 : BitVec 32 := Scalar.minsi v2 c255_i32
  let c0_i32_0 : BitVec 32 := 0#32
  let c0_i32_1 : BitVec 32 := 0#32
  ![arg0.toNat, v3.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c255_i32 : BitVec 32 := 255#32
  let v3 : BitVec 32 := Scalar.minsi v2 c255_i32
  let c0_i32_0 : BitVec 32 := 0#32
  let c0_i32_1 : BitVec 32 := 0#32
  ![arg0.toNat, v3.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S768x768 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S768x768 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S768x768 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S768x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x256x768 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

class Facts₀ : Prop where
  pads_S16x2047_S16x2048_000_010 : S16x2047.Pads (![0, 0] : Fin 2 → Nat) ![0, 1] ![0, 0] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  slices_S128x256_S128x128_0_0 : S128x256.Slices ![0, 0] S128x128
  bitsLt_bf16_f32 : FTy.bits .bf16 < FTy.bits .f32
  slices_S128x256_S128x128_0_128 : S128x256.Slices ![0, 128] S128x128
  slices_S768x1536_S768x768_0_0 : S768x1536.Slices ![0, 0] S768x768
  slices_S768x1536_S768x768_0_768 : S768x1536.Slices ![0, 768] S768x768
  slices_S768x896_S768x768_0_0 : S768x896.Slices ![0, 0] S768x768
  slices_S768x896_S768x128_0_768 : S768x896.Slices ![0, 768] S768x128
  inb_S1x256x768_S1x256x768_0_0_0 : ∀ a, (![0, 0, 0] : Fin 3 → Nat) a + S1x256x768.size a ≤ S1x256x768.size a
  h_S1x256x768 : 0 < S1x256x768.numel
  shapeCasts_S1x256x768_S256x768 : S1x256x768.ShapeCasts S256x768
  inb_S1x8x768_S1x1x768_0_7_0 : ∀ a, (![0, 7, 0] : Fin 3 → Nat) a + S1x1x768.size a ≤ S1x8x768.size a
  h_S1x1x768 : 0 < S1x1x768.numel
  shapeCasts_S1x1x768_S768 : S1x1x768.ShapeCasts S768
  inb_S1x8x768_S1x1x768_0_0_0 : ∀ a, (![0, 0, 0] : Fin 3 → Nat) a + S1x1x768.size a ≤ S1x8x768.size a
  shapeCasts_S768_S1x768 : S768.ShapeCasts S1x768
  concatenates_S1x768_S256x768_S1x768_S258x768_d0 : Shape.Concatenates [S1x768, S256x768, S1x768] S258x768 0
  slices_S258x768_o0_0_S257x768 : S258x768.Slices ![0, 0] S257x768
  slices_S258x768_o1_0_S257x768 : S258x768.Slices ![1, 0] S257x768
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  inb_S1x8x128_S1x1x128_0_7_0 : ∀ a, (![0, 7, 0] : Fin 3 → Nat) a + S1x1x128.size a ≤ S1x8x128.size a
  h_S1x1x128 : 0 < S1x1x128.numel
  shapeCasts_S1x1x128_S128 : S1x1x128.ShapeCasts S128
  shapeCasts_S128_S1x128 : S128.ShapeCasts S1x128
  concatenates_S1x128_S256x128_S257x128_d0 : Shape.Concatenates [S1x128, S256x128] S257x128 0
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S768x128_S768x128_0_0 : ∀ a, (![0, 0] : Fin 2 → Nat) a + S768x128.size a ≤ S768x128.size a
  h_S768x128 : 0 < S768x128.numel
  shapeCasts_S768x128_S768x128 : S768x128.ShapeCasts S768x128
  transposes_S128x128_p1_0_S128x128 : S128x128.Transposes [1, 0] S128x128
  transposes_S768x768_p1_0_S768x768 : S768x768.Transposes [1, 0] S768x768
  transposes_S768x128_p1_0_S128x768 : S768x128.Transposes [1, 0] S128x768
  slices_S257x768_o1_0_S256x768 : S257x768.Slices ![1, 0] S256x768
  slices_S257x768_o0_0_S256x768 : S257x768.Slices ![0, 0] S256x768
  iota_S256x1_d0_w32 : S256x1.Iotas .tc 32 [0]
  natLt_1_32 : 1 < 32
  broadcasts_S256x1_S256x768 : S256x1.Broadcasts S256x768
  shapeCasts_S256x768_S1x256x768 : S256x768.ShapeCasts S1x256x768
  gather_S512x128_S16x2048x1_S16x2048x128_2_0_n_n_0_2_1128_wf : GatherDims.WF S512x128 S16x2048x1 S16x2048x128 [2] [0] [] [0] [] 2 ![1, 128]
  gather_S50000x768_S16x2048x1_S16x2048x768_2_0_n_n_0_2_1768_wf : GatherDims.WF S50000x768 S16x2048x1 S16x2048x768 [2] [0] [] [0] [] 2 ![1, 768]
  dot_S257x128_S128x128_S257x128_1_0_0_1_n_n_wf : DotDims.WF S257x128 S128x128 S257x128 [1] [0] [0] [1] [] []
  dot_S257x768_S768x768_S257x768_1_0_0_1_n_n_wf : DotDims.WF S257x768 S768x768 S257x768 [1] [0] [0] [1] [] []
  dot_S257x128_S128x768_S257x768_1_0_0_1_n_n_wf : DotDims.WF S257x128 S128x768 S257x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x768.size a ≤ S16x2048x768.size a
  hwx0_0 : ∀ i : grid0.Coords, EltTy.bits .f32 = 32 ∨ (Rect.block (s := S16x2048x768) S1x256x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x768.size a ≤ S16x2048x768.size a
  hwx0_1 : ∀ i : grid0.Coords, EltTy.bits .f32 = 32 ∨ (Rect.block (s := S16x2048x768) S1x8x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x768.size a ≤ S16x2048x768.size a
  hwx0_2 : ∀ i : grid0.Coords, EltTy.bits .f32 = 32 ∨ (Rect.block (s := S16x2048x768) S1x8x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x768.size a ≤ S16x2048x768.size a
  hwx0_3 : ∀ i : grid0.Coords, EltTy.bits .f32 = 32 ∨ (Rect.block (s := S16x2048x768) S1x256x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x768.size a ≤ S16x2048x768.size a
  hwx0_4 : ∀ i : grid0.Coords, EltTy.bits .f32 = 32 ∨ (Rect.block (s := S16x2048x768) S1x8x768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x768.size a ≤ S16x2048x768.size a
  hwx0_5 : ∀ i : grid0.Coords, EltTy.bits .f32 = 32 ∨ (Rect.block (s := S16x2048x768) S1x8x768.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x128.size a ≤ S16x2048x128.size a
  hwx0_6 : ∀ i : grid0.Coords, EltTy.bits .f32 = 32 ∨ (Rect.block (s := S16x2048x128) S1x256x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x8x128.size a ≤ S16x2048x128.size a
  hwx0_7 : ∀ i : grid0.Coords, EltTy.bits .f32 = 32 ∨ (Rect.block (s := S16x2048x128) S1x8x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256x128.size a ≤ S16x2048x128.size a
  hwx0_8 : ∀ i : grid0.Coords, EltTy.bits .f32 = 32 ∨ (Rect.block (s := S16x2048x128) S1x256x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x8x128.size a ≤ S16x2048x128.size a
  hwx0_9 : ∀ i : grid0.Coords, EltTy.bits .f32 = 32 ∨ (Rect.block (s := S16x2048x128) S1x8x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .bf16 = 32 ∨ (Rect.block (s := S128x128) S128x128.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .bf16 = 32 ∨ (Rect.block (s := S128x128) S128x128.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S768x768.size a ≤ S768x768.size a
  hwx0_12 : ∀ i : grid0.Coords, EltTy.bits .bf16 = 32 ∨ (Rect.block (s := S768x768) S768x768.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S768x768.size a ≤ S768x768.size a
  hwx0_13 : ∀ i : grid0.Coords, EltTy.bits .bf16 = 32 ∨ (Rect.block (s := S768x768) S768x768.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S768x768.size a ≤ S768x768.size a
  hwx0_14 : ∀ i : grid0.Coords, EltTy.bits .bf16 = 32 ∨ (Rect.block (s := S768x768) S768x768.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S768x128.size a ≤ S768x128.size a
  hwx0_15 : ∀ i : grid0.Coords, EltTy.bits .bf16 = 32 ∨ (Rect.block (s := S768x128) S768x128.size (cc0_transform_15 i) (hinb0_15 i)).WholeWords (EltTy.packing .bf16)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1x256x768.size a ≤ S16x2048x768.size a
  hwx0_16 : ∀ i : grid0.Coords, EltTy.bits .f32 = 32 ∨ (Rect.block (s := S16x2048x768) S1x256x768.size (cc0_transform_16 i) (hinb0_16 i)).WholeWords (EltTy.packing .f32)

variable [Facts₀]

def gather_S512x128_S16x2048x1_S16x2048x128_2_0_n_n_0_2_1128 : GatherDims S512x128 S16x2048x1 S16x2048x128 where
  offsetDims := [2]
  collapsedSliceDims := [0]
  operandBatchingDims := []
  startIndicesBatchingDims := []
  startIndexMap := [0]
  indexVectorDim := 2
  sliceSizes := ![1, 128]
  wf := gather_S512x128_S16x2048x1_S16x2048x128_2_0_n_n_0_2_1128_wf
def gather_S50000x768_S16x2048x1_S16x2048x768_2_0_n_n_0_2_1768 : GatherDims S50000x768 S16x2048x1 S16x2048x768 where
  offsetDims := [2]
  collapsedSliceDims := [0]
  operandBatchingDims := []
  startIndicesBatchingDims := []
  startIndexMap := [0]
  indexVectorDim := 2
  sliceSizes := ![1, 768]
  wf := gather_S50000x768_S16x2048x1_S16x2048x768_2_0_n_n_0_2_1768_wf
def dot_S257x128_S128x128_S257x128_1_0_0_1_n_n : DotDims S257x128 S128x128 S257x128 where
  lhsContracting := [1]
  rhsContracting := [0]
  lhsNonContracting := [0]
  rhsNonContracting := [1]
  lhsBatch := []
  rhsBatch := []
  wf := dot_S257x128_S128x128_S257x128_1_0_0_1_n_n_wf
def dot_S257x768_S768x768_S257x768_1_0_0_1_n_n : DotDims S257x768 S768x768 S257x768 where
  lhsContracting := [1]
  rhsContracting := [0]
  lhsNonContracting := [0]
  rhsNonContracting := [1]
  lhsBatch := []
  rhsBatch := []
  wf := dot_S257x768_S768x768_S257x768_1_0_0_1_n_n_wf
def dot_S257x128_S128x768_S257x768_1_0_0_1_n_n : DotDims S257x128 S128x768 S257x768 where
  lhsContracting := [1]
  rhsContracting := [0]
  lhsNonContracting := [0]
  rhsNonContracting := [1]
  lhsBatch := []
  rhsBatch := []
  wf := dot_S257x128_S128x768_S257x768_1_0_0_1_n_n_wf

abbrev win0_0 : Pipeline.Window sig grid0 :=
  Pipeline.Window.ofSpec (Memref.whole main_arg0) S1x256x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x8x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x8x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x256x768.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x8x768.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v22) S1x8x768.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x256x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1x8x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v15) S1x256x128.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v15) S1x8x128.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v24) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v26) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v28) S768x768.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v30) S768x768.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v32) S768x768.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v34) S768x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v35) S1x256x768.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S16x2048x768 : Shape := ⟨3, ![16, 2048, 768]⟩
abbrev S16x2047 : Shape := ⟨2, ![16, 2047]⟩
abbrev S16x2048 : Shape := ⟨2, ![16, 2048]⟩
abbrev S512x128 : Shape := ⟨2, ![512, 128]⟩
abbrev S50000x768 : Shape := ⟨2, ![50000, 768]⟩
abbrev S128x256 : Shape := ⟨2, ![128, 256]⟩
abbrev S768x1536 : Shape := ⟨2, ![768, 1536]⟩
abbrev S768x896 : Shape := ⟨2, ![768, 896]⟩
abbrev S_ : Shape := ⟨0, ![]⟩
abbrev S16x2047x1 : Shape := ⟨3, ![16, 2047, 1]⟩
abbrev S16x2047x128 : Shape := ⟨3, ![16, 2047, 128]⟩
abbrev S16x2048x1 : Shape := ⟨3, ![16, 2048, 1]⟩
abbrev S16x2047x256 : Shape := ⟨3, ![16, 2047, 256]⟩
abbrev S16x2047x768 : Shape := ⟨3, ![16, 2047, 768]⟩
abbrev S16x2047x1536 : Shape := ⟨3, ![16, 2047, 1536]⟩
abbrev S16x2047x896 : Shape := ⟨3, ![16, 2047, 896]⟩
abbrev S1 : Shape := ⟨1, ![1]⟩
abbrev S16x2046x768 : Shape := ⟨3, ![16, 2046, 768]⟩

abbrev nBuf : Space → Nat
  | .hbm => 62
  | .vmem => 0
  | .smem => 0
  | _ => 0

abbrev bufTy : (tb : Table) → Fin (tcTables nBuf tb) → BufTy
  | .hbm, ⟨0, _⟩ => ⟨S16x2048x768, .f32⟩
  | .hbm, ⟨1, _⟩ => ⟨S16x2047, .i32⟩
  | .hbm, ⟨2, _⟩ => ⟨S16x2047, .i32⟩
  | .hbm, ⟨3, _⟩ => ⟨S16x2048, .i32⟩
  | .hbm, ⟨4, _⟩ => ⟨S512x128, .f32⟩
  | .hbm, ⟨5, _⟩ => ⟨S512x128, .f32⟩
  | .hbm, ⟨6, _⟩ => ⟨S50000x768, .f32⟩
  | .hbm, ⟨7, _⟩ => ⟨S128x256, .f32⟩
  | .hbm, ⟨8, _⟩ => ⟨S768x1536, .f32⟩
  | .hbm, ⟨9, _⟩ => ⟨S768x896, .f32⟩
  | .hbm, ⟨10, _⟩ => ⟨S_, .i32⟩
  | .hbm, ⟨11, _⟩ => ⟨S16x2047, .i32⟩
  | .hbm, ⟨12, _⟩ => ⟨S16x2047, .i1⟩
  | .hbm, ⟨13, _⟩ => ⟨S_, .i32⟩
  | .hbm, ⟨14, _⟩ => ⟨S16x2047, .i32⟩
  | .hbm, ⟨15, _⟩ => ⟨S16x2047, .i32⟩
  | .hbm, ⟨16, _⟩ => ⟨S16x2047, .i32⟩
  | .hbm, ⟨17, _⟩ => ⟨S16x2047x1, .i32⟩
  | .hbm, ⟨18, _⟩ => ⟨S16x2047x128, .f32⟩
  | .hbm, ⟨19, _⟩ => ⟨S_, .i32⟩
  | .hbm, ⟨20, _⟩ => ⟨S16x2047, .i32⟩
  | .hbm, ⟨21, _⟩ => ⟨S16x2047, .i1⟩
  | .hbm, ⟨22, _⟩ => ⟨S_, .i32⟩
  | .hbm, ⟨23, _⟩ => ⟨S16x2047, .i32⟩
  | .hbm, ⟨24, _⟩ => ⟨S16x2047, .i32⟩
  | .hbm, ⟨25, _⟩ => ⟨S16x2047, .i32⟩
  | .hbm, ⟨26, _⟩ => ⟨S16x2047x1, .i32⟩
  | .hbm, ⟨27, _⟩ => ⟨S16x2047x128, .f32⟩
  | .hbm, ⟨28, _⟩ => ⟨S_, .i32⟩
  | .hbm, ⟨29, _⟩ => ⟨S16x2048, .i32⟩
  | .hbm, ⟨30, _⟩ => ⟨S16x2048, .i1⟩
  | .hbm, ⟨31, _⟩ => ⟨S_, .i32⟩
  | .hbm, ⟨32, _⟩ => ⟨S16x2048, .i32⟩
  | .hbm, ⟨33, _⟩ => ⟨S16x2048, .i32⟩
  | .hbm, ⟨34, _⟩ => ⟨S16x2048, .i32⟩
  | .hbm, ⟨35, _⟩ => ⟨S16x2048x1, .i32⟩
  | .hbm, ⟨36, _⟩ => ⟨S16x2048x768, .f32⟩
  | .hbm, ⟨37, _⟩ => ⟨S16x2048x768, .f32⟩
  | .hbm, ⟨38, _⟩ => ⟨S16x2047x256, .f32⟩
  | .hbm, ⟨39, _⟩ => ⟨S16x2047x128, .f32⟩
  | .hbm, ⟨40, _⟩ => ⟨S_, .f32⟩
  | .hbm, ⟨41, _⟩ => ⟨S16x2047x128, .f32⟩
  | .hbm, ⟨42, _⟩ => ⟨S16x2047x128, .f32⟩
  | .hbm, ⟨43, _⟩ => ⟨S16x2047x768, .f32⟩
  | .hbm, ⟨44, _⟩ => ⟨S16x2047x768, .f32⟩
  | .hbm, ⟨45, _⟩ => ⟨S16x2047x1536, .f32⟩
  | .hbm, ⟨46, _⟩ => ⟨S16x2047x768, .f32⟩
  | .hbm, ⟨47, _⟩ => ⟨S_, .f32⟩
  | .hbm, ⟨48, _⟩ => ⟨S16x2047x768, .f32⟩
  | .hbm, ⟨49, _⟩ => ⟨S16x2047x768, .f32⟩
  | .hbm, ⟨50, _⟩ => ⟨S16x2047x896, .f32⟩
  | .hbm, ⟨51, _⟩ => ⟨S16x2047x768, .f32⟩
  | .hbm, ⟨52, _⟩ => ⟨S_, .f32⟩
  | .hbm, ⟨53, _⟩ => ⟨S16x2047x768, .f32⟩
  | .hbm, ⟨54, _⟩ => ⟨S16x2047x768, .f32⟩
  | .hbm, ⟨55, _⟩ => ⟨S_, .i32⟩
  | .hbm, ⟨56, _⟩ => ⟨S1, .i32⟩
  | .hbm, ⟨57, _⟩ => ⟨S16x2048x768, .f32⟩
  | .hbm, ⟨58, _⟩ => ⟨S16x2046x768, .f32⟩
  | .hbm, ⟨59, _⟩ => ⟨S_, .i32⟩
  | .hbm, ⟨60, _⟩ => ⟨S1, .i32⟩
  | .hbm, ⟨61, _⟩ => ⟨S16x2048x768, .f32⟩
  | _, _ => ⟨S16x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_c_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call0_cst : Ref sig .tc := ⟨.hbm, 40, rfl⟩
abbrev main_call0_v0 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_call1_cst : Ref sig .tc := ⟨.hbm, 47, rfl⟩
abbrev main_call1_v0 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_call2_cst : Ref sig .tc := ⟨.hbm, 52, rfl⟩
abbrev main_call2_v0 : Ref sig .tc := ⟨.hbm, 53, rfl⟩
abbrev main_v32 : Ref sig .tc := ⟨.hbm, 54, rfl⟩
abbrev main_c_5 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_6 : Ref sig .tc := ⟨.hbm, 59, rfl⟩
abbrev main_v36 : Ref sig .tc := ⟨.hbm, 60, rfl⟩
abbrev main_v37 : Ref sig .tc := ⟨.hbm, 61, rfl⟩

abbrev nD : Nat := 1
abbrev τ : Topo := Topo.v7x

variable {F : FTy → Type} [FloatOps F]

class Facts₀ : Prop where
  bcast_S_S16x2047 : S_.BroadcastsInDim S16x2047 (![] : Fin 0 → Fin S16x2047.rank)
  bcast_S16x2047_S16x2047x1_0_1 : S16x2047.BroadcastsInDim S16x2047x1 (![0, 1] : Fin 2 → Fin S16x2047x1.rank)
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  concatenates_S16x2047x128_S16x2047x128_S16x2047x256_d2 : Shape.Concatenates [S16x2047x128, S16x2047x128] S16x2047x256 2
  bcast_S_S16x2047x128 : S_.BroadcastsInDim S16x2047x128 (![] : Fin 0 → Fin S16x2047x128.rank)
  slices_S16x2048x768_S16x2047x768_0_0_0 : S16x2048x768.Slices ![0, 0, 0] S16x2047x768
  slices_S16x2048x768_S16x2047x768_0_1_0 : S16x2048x768.Slices ![0, 1, 0] S16x2047x768
  concatenates_S16x2047x768_S16x2047x768_S16x2047x1536_d2 : Shape.Concatenates [S16x2047x768, S16x2047x768] S16x2047x1536 2
  bcast_S_S16x2047x768 : S_.BroadcastsInDim S16x2047x768 (![] : Fin 0 → Fin S16x2047x768.rank)
  concatenates_S16x2047x768_S16x2047x128_S16x2047x896_d2 : Shape.Concatenates [S16x2047x768, S16x2047x128] S16x2047x896 2
  bcast_S_S1 : S_.BroadcastsInDim S1 (![] : Fin 0 → Fin S1.rank)
  slices_S16x2047x768_S16x2046x768_0_1_0 : S16x2047x768.Slices ![0, 1, 0] S16x2046x768
  gather_S512x128_S16x2047x1_S16x2047x128_2_0_n_n_0_2_1128_wf : GatherDims.WF S512x128 S16x2047x1 S16x2047x128 [2] [0] [] [0] [] 2 ![1, 128]
  gather_S50000x768_S16x2048x1_S16x2048x768_2_0_n_n_0_2_1768_wf : GatherDims.WF S50000x768 S16x2048x1 S16x2048x768 [2] [0] [] [0] [] 2 ![1, 768]
  dot_S16x2047x256_S128x256_S16x2047x128_2_1_01_0_n_n_wf : DotDims.WF S16x2047x256 S128x256 S16x2047x128 [2] [1] [0, 1] [0] [] []
  dot_S16x2047x1536_S768x1536_S16x2047x768_2_1_01_0_n_n_wf : DotDims.WF S16x2047x1536 S768x1536 S16x2047x768 [2] [1] [0, 1] [0] [] []
  dot_S16x2047x896_S768x896_S16x2047x768_2_1_01_0_n_n_wf : DotDims.WF S16x2047x896 S768x896 S16x2047x768 [2] [1] [0, 1] [0] [] []
  scatter_S16x2048x768_S1_S16x2047x768_012_n_1_0_wf : ScatterDims.WF S16x2048x768 S1 S16x2047x768 [0, 1, 2] [] [1] 0
  scatter_S16x2048x768_S1_S16x2046x768_012_n_1_0_wf : ScatterDims.WF S16x2048x768 S1 S16x2046x768 [0, 1, 2] [] [1] 0

variable [Facts₀]

def gather_S512x128_S16x2047x1_S16x2047x128_2_0_n_n_0_2_1128 : GatherDims S512x128 S16x2047x1 S16x2047x128 where
  offsetDims := [2]
  collapsedSliceDims := [0]
  operandBatchingDims := []
  startIndicesBatchingDims := []
  startIndexMap := [0]
  indexVectorDim := 2
  sliceSizes := ![1, 128]
  wf := gather_S512x128_S16x2047x1_S16x2047x128_2_0_n_n_0_2_1128_wf
def gather_S50000x768_S16x2048x1_S16x2048x768_2_0_n_n_0_2_1768 : GatherDims S50000x768 S16x2048x1 S16x2048x768 where
  offsetDims := [2]
  collapsedSliceDims := [0]
  operandBatchingDims := []
  startIndicesBatchingDims := []
  startIndexMap := [0]
  indexVectorDim := 2
  sliceSizes := ![1, 768]
  wf := gather_S50000x768_S16x2048x1_S16x2048x768_2_0_n_n_0_2_1768_wf
def dot_S16x2047x256_S128x256_S16x2047x128_2_1_01_0_n_n : DotDims S16x2047x256 S128x256 S16x2047x128 where
  lhsContracting := [2]
  rhsContracting := [1]
  lhsNonContracting := [0, 1]
  rhsNonContracting := [0]
  lhsBatch := []
  rhsBatch := []
  wf := dot_S16x2047x256_S128x256_S16x2047x128_2_1_01_0_n_n_wf
def dot_S16x2047x1536_S768x1536_S16x2047x768_2_1_01_0_n_n : DotDims S16x2047x1536 S768x1536 S16x2047x768 where
  lhsContracting := [2]
  rhsContracting := [1]
  lhsNonContracting := [0, 1]
  rhsNonContracting := [0]
  lhsBatch := []
  rhsBatch := []
  wf := dot_S16x2047x1536_S768x1536_S16x2047x768_2_1_01_0_n_n_wf
def dot_S16x2047x896_S768x896_S16x2047x768_2_1_01_0_n_n : DotDims S16x2047x896 S768x896 S16x2047x768 where
  lhsContracting := [2]
  rhsContracting := [1]
  lhsNonContracting := [0, 1]
  rhsNonContracting := [0]
  lhsBatch := []
  rhsBatch := []
  wf := dot_S16x2047x896_S768x896_S16x2047x768_2_1_01_0_n_n_wf
def scatter_S16x2048x768_S1_S16x2047x768_012_n_1_0 : ScatterDims S16x2048x768 S1 S16x2047x768 where
  updateWindowDims := [0, 1, 2]
  insertedWindowDims := []
  scatterDimsToOperandDims := [1]
  indexVectorDim := 0
  wf := scatter_S16x2048x768_S1_S16x2047x768_012_n_1_0_wf
def scatter_S16x2048x768_S1_S16x2046x768_012_n_1_0 : ScatterDims S16x2048x768 S1 S16x2046x768 where
  updateWindowDims := [0, 1, 2]
  insertedWindowDims := []
  scatterDimsToOperandDims := [1]
  indexVectorDim := 0
  wf := scatter_S16x2048x768_S1_S16x2046x768_012_n_1_0_wf

class Facts : Prop extends Facts₀ where

variable [Facts]
-- ==== Proof.FrameK.lean ====
/-
  The frame run of the program: @main is host operations (two paddings, three gathers of embedding rows, six slices of
  the weight matrices) and then one region over a 16 × 8 grid of (batch, sequence tile) points.  The region's 17
  windows: a 256-row tile of seqs with the 8-row slabs holding the row before and the row after it (three windows on
  ONE array), the same three of the gathered token embeddings, a tile and its slab before for each of the two small
  gathered embeddings, six whole weight blocks, and the output tile.  The body loads its 16 input windows through
  literal rectangles, computes, and stores the output tile whole; so after the body an input's buffer holds the block
  it held, and the output's holds the stored value.  An array read through several windows is dealt among them in
  shares.  From this, the library's launch for shared input arrays gives the run: it terminates, faults nowhere, every
  argument array ends as launched, and the result array ends at the tiles the body stored.
-/
import proofs.«124179_j78331613544613_1_alg».proof.Proof.Gen.Kernel.Launch
import proofs.«124179_j78331613544613_1_alg».proof.Proof.Gen.Kernel.Skeleton
import proofs.«124179_j78331613544613_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.HFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The TensorCore's buffers when the region is entered: after the five stretches of host operations. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

/-- @main is those stretches and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's buffer holds its block at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's buffer holds its block at every point, fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's buffer holds its block at every point, fetched there or not. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's buffer holds its block at every point, fetched there or not. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's buffer holds its block at every point, fetched there or not. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's buffer holds its block at every point, fetched there or not. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's buffer holds its block at every point, fetched there or not. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's buffer holds its block at every point, fetched there or not. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's buffer holds its block at every point, fetched there or not. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's buffer holds its block at every point, fetched there or not. -/
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's buffer holds its block at every point, fetched there or not. -/
theorem before11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's buffer holds its block at every point, fetched there or not. -/
theorem before12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's buffer holds its block at every point, fetched there or not. -/
theorem before13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's buffer holds its block at every point, fetched there or not. -/
theorem before14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's buffer holds its block at every point, fetched there or not. -/
theorem before15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) h

/-! ## The body's accesses -/

abbrev rMain768 : Rect S1x256x768 := Rect.unit (s := S1x256x768) ![0, 0, 0] S1x256x768.size inb_S1x256x768_S1x256x768_0_0_0
abbrev rB768 : Rect S1x8x768 := Rect.unit (s := S1x8x768) ![0, 7, 0] S1x1x768.size inb_S1x8x768_S1x1x768_0_7_0
abbrev rA768 : Rect S1x8x768 := Rect.unit (s := S1x8x768) ![0, 0, 0] S1x1x768.size inb_S1x8x768_S1x1x768_0_0_0
abbrev rMain128 : Rect S1x256x128 := Rect.unit (s := S1x256x128) ![0, 0, 0] S1x256x128.size inb_S1x256x128_S1x256x128_0_0_0
abbrev rB128 : Rect S1x8x128 := Rect.unit (s := S1x8x128) ![0, 7, 0] S1x1x128.size inb_S1x8x128_S1x1x128_0_7_0
abbrev rW128 : Rect S128x128 := Rect.unit (s := S128x128) ![0, 0] S128x128.size inb_S128x128_S128x128_0_0
abbrev rW768 : Rect S768x768 := Rect.unit (s := S768x768) ![0, 0] S768x768.size inb_S768x768_S768x768_0_0
abbrev rW768x128 : Rect S768x128 := Rect.unit (s := S768x128) ![0, 0] S768x128.size inb_S768x128_S768x128_0_0

/-! ## What the body leaves in the output window's buffer -/

/-- The output window's buffer after the body at grid coordinates `i`, from the input windows' blocks: its one store. -/
def out16 (i : grid0.Coords) (x0 : Vec F S1x256x768 .f32) (x1 : Vec F S1x8x768 .f32) (x2 : Vec F S1x8x768 .f32) (x3 : Vec F S1x256x768 .f32) (x4 : Vec F S1x8x768 .f32) (x5 : Vec F S1x8x768 .f32) (x6 : Vec F S1x256x128 .f32) (x7 : Vec F S1x8x128 .f32) (x8 : Vec F S1x256x128 .f32) (x9 : Vec F S1x8x128 .f32) (x10 : Vec F S128x128 .bf16) (x11 : Vec F S128x128 .bf16) (x12 : Vec F S768x768 .bf16) (x13 : Vec F S768x768 .bf16) (x14 : Vec F S768x768 .bf16) (x15 : Vec F S768x128 .bf16) : Vec F S1x256x768 .f32 :=
  View.canon [⟨rMain768, k0_pay1 (BitVec.ofNat 32 (i 1).val) (k0_pay2 (View.ld x0 rMain768) (View.ld x3 rMain768))
      (k0_pay8 (k0_pay4 (View.ld x0 rMain768) (View.ld x3 rMain768) (View.ld x1 rB768) (View.ld x4 rB768) (View.ld x2 rA768) (View.ld x5 rA768))
        (k0_pay5 (View.ld x0 rMain768) (View.ld x3 rMain768) (View.ld x1 rB768) (View.ld x4 rB768) (View.ld x2 rA768) (View.ld x5 rA768))
        (View.ld x12 rW768) (View.ld x13 rW768) (View.ld x14 rW768))
      (k0_pay9 (k0_pay6 (View.ld x6 rMain128) (View.ld x7 rB128)) (k0_pay7 (View.ld x8 rMain128)) (View.ld x9 rB128)
        (View.ld x10 rW128) (View.ld x11 rW128) (View.ld x15 rW768x128))⟩]

/-- The one store covers the buffer. -/
theorem cover16 (p0 : Vec F S1x256x768 .f32) (y : S1x256x768.Idx) :
    ∃ pc ∈ ([⟨rMain768, p0⟩] : List (View.Piece (Elt F) S1x256x768 .f32)), y ∈ pc.1.set :=
  View.cover_of_tiled [⟨rMain768, p0⟩] S1x256x768.size (by rfl) y

/-! ## The body's triple -/

set_option maxHeartbeats 4000000 in
/-- The kernel body on whole staging memrefs, the inputs' at read contents and the output's at anything, runs to the
    continuation holding the inputs' as they were and the output's at `out16` of the inputs'. -/
theorem sound_kernel (c : Dev nD) (E : Set ℕ) (i : grid0.Coords) (arg2 : Memref sig .tc .vmem S1x256x768 .f32) (harg2 : arg2.IsWhole) (arg3 : Memref sig .tc .vmem S1x8x768 .f32) (harg3 : arg3.IsWhole) (arg4 : Memref sig .tc .vmem S1x8x768 .f32) (harg4 : arg4.IsWhole) (arg5 : Memref sig .tc .vmem S1x256x768 .f32) (harg5 : arg5.IsWhole) (arg6 : Memref sig .tc .vmem S1x8x768 .f32) (harg6 : arg6.IsWhole) (arg7 : Memref sig .tc .vmem S1x8x768 .f32) (harg7 : arg7.IsWhole) (arg8 : Memref sig .tc .vmem S1x256x128 .f32) (harg8 : arg8.IsWhole) (arg9 : Memref sig .tc .vmem S1x8x128 .f32) (harg9 : arg9.IsWhole) (arg10 : Memref sig .tc .vmem S1x256x128 .f32) (harg10 : arg10.IsWhole) (arg11 : Memref sig .tc .vmem S1x8x128 .f32) (harg11 : arg11.IsWhole) (arg12 : Memref sig .tc .vmem S128x128 .bf16) (harg12 : arg12.IsWhole) (arg13 : Memref sig .tc .vmem S128x128 .bf16) (harg13 : arg13.IsWhole) (arg14 : Memref sig .tc .vmem S768x768 .bf16) (harg14 : arg14.IsWhole) (arg15 : Memref sig .tc .vmem S768x768 .bf16) (harg15 : arg15.IsWhole) (arg16 : Memref sig .tc .vmem S768x768 .bf16) (harg16 : arg16.IsWhole) (arg17 : Memref sig .tc .vmem S768x128 .bf16) (harg17 : arg17.IsWhole) (arg18 : Memref sig .tc .vmem S1x256x768 .f32) (harg18 : arg18.IsWhole)
    (x0 : Vec F S1x256x768 .f32) (x1 : Vec F S1x8x768 .f32) (x2 : Vec F S1x8x768 .f32) (x3 : Vec F S1x256x768 .f32) (x4 : Vec F S1x8x768 .f32) (x5 : Vec F S1x8x768 .f32) (x6 : Vec F S1x256x128 .f32) (x7 : Vec F S1x8x128 .f32) (x8 : Vec F S1x256x128 .f32) (x9 : Vec F S1x8x128 .f32) (x10 : Vec F S128x128 .bf16) (x11 : Vec F S128x128 .bf16) (x12 : Vec F S768x768 .bf16) (x13 : Vec F S768x768 .bf16) (x14 : Vec F S768x768 .bf16) (x15 : Vec F S768x128 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg18 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare (out16 i x0 x1 x2 x3 x4 x5 x6 x7 x8 x9 x10 x11 x12 x13 x14 x15)) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__kernel_eq_skeleton]; unfold cc0__kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, Hk⟩
  subst hf0 hf1 hf2 hf3 hf4 hf5 hf6 hf7 hf8 hf9 hf10 hf11 hf12 hf13 hf14 hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  iexists _; isplitr
  swap; · iexact H16
  ipureintro
  try dsimp only
  exact View.read_writes_eq_canon _ _ _ (cover16 _)

/-! ## The pipeline's proof data -/

/-- The proof data of the pipeline: the arrays as the region finds them; after the body at point `t` each input's
    buffer at its block and the output's at `out16` of the input blocks; nothing carried between points but the core's
    other scoped buffers; nothing owed; the array of seqs and that of the gathered token embeddings dealt among their
    three windows, each small gathered embedding's between its two. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => out16 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨_ + 17, h⟩ => absurd h (Nat.not_lt.2 (Nat.le_add_left _ _))
  Φ _ := Pipeline.scopedRest (Ix := Unit) (Name := ℕ) (U := UR sig nD τ) (Lvl := ℕ) (Val := Elt F) spec0 c
  q w := match w with
    | ⟨0, _⟩ => fullShare.left
    | ⟨1, _⟩ => fullShare.right.left
    | ⟨2, _⟩ => fullShare.right.right
    | ⟨3, _⟩ => fullShare.left
    | ⟨4, _⟩ => fullShare.right.left
    | ⟨5, _⟩ => fullShare.right.right
    | ⟨6, _⟩ => fullShare.left
    | ⟨7, _⟩ => fullShare.right
    | ⟨8, _⟩ => fullShare.left
    | ⟨9, _⟩ => fullShare.right
    | ⟨10, _⟩ => fullShare
    | ⟨11, _⟩ => fullShare
    | ⟨12, _⟩ => fullShare
    | ⟨13, _⟩ => fullShare
    | ⟨14, _⟩ => fullShare
    | ⟨15, _⟩ => fullShare
    | ⟨16, _⟩ => fullShare
    | ⟨_ + 17, h⟩ => absurd h (Nat.not_lt.2 (Nat.le_add_left _ _))
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem after16 (c : Dev nD) (t : Fin cfg0.N) : (dats m 0 c).after 16 t = out16 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d
theorem before11 (c : Dev nD) (t : Fin cfg0.N) (d) : (dats m 0 c).before 11 t d = iblk m c 11 t :=
  before11_of m (dats m 0 c) (A_eq m c 11) (after11 m c) t d
theorem before12 (c : Dev nD) (t : Fin cfg0.N) (d) : (dats m 0 c).before 12 t d = iblk m c 12 t :=
  before12_of m (dats m 0 c) (A_eq m c 12) (after12 m c) t d
theorem before13 (c : Dev nD) (t : Fin cfg0.N) (d) : (dats m 0 c).before 13 t d = iblk m c 13 t :=
  before13_of m (dats m 0 c) (A_eq m c 13) (after13 m c) t d
theorem before14 (c : Dev nD) (t : Fin cfg0.N) (d) : (dats m 0 c).before 14 t d = iblk m c 14 t :=
  before14_of m (dats m 0 c) (A_eq m c 14) (after14 m c) t d
theorem before15 (c : Dev nD) (t : Fin cfg0.N) (d) : (dats m 0 c).before 15 t d = iblk m c 15 t :=
  before15_of m (dats m 0 c) (A_eq m c 15) (after15 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t))

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15, after16]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (sound_kernel c Set.univ (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  iintro ⟨H0, H1, H2, H3, H4, H5, H6, H7, H8, H9, H10, H11, H12, H13, H14, H15, H16⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

theorem body_obligation (c : Dev nD) : BodyObligation (dats (F := F) m 0 c) (defs₀ (F := F)) Variants.none () Set.univ := fun t => by
  rw [bigSep_W0, bigSep_W0]
  exact sound_body m c t

end Cert.Kernel.HFrame

end
-- ==== Proof.LibSharedFrame.lean ====
/-
  The frame run of a pipeline kernel whose input windows may SHARE an array.

  One region on a static grid; the kernel has no semaphore, transfer or scratch of its own; every unscoped buffer of
  the TensorCore is an array of the pipeline or is written before the region by host operations.  Several input
  windows may read one array (a tile and its two border slabs): the array's full share is then dealt among those
  windows, which the certificate states as one entailment — the distinct buffers behind the arrays, each whole at the
  full share at the region-entry contents, yield the proof data's arrays at entry.  Under that entailment, the body
  obligation and the shape of @main up to the region, every weakly fair execution terminates without fault, every
  array of the pipeline ends at what the proof data compute (an input's its entry contents, the output's those
  overwritten by each write-back), and every other unscoped buffer ends as the region found it.
-/
import Idealize.ShloMosaic.Lib.Pipeline.Frame

noncomputable section

namespace Idealize.ShloMosaic.Pipeline

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe
open Idealize.ShloMosaic.Rounds

set_option Elab.async false

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- THE FRAME RUN WITH SHARED INPUT ARRAYS.  `hw`: the windows' layout, the arrays' distinctness apart; `hsplit`: how the
    buffers behind the arrays make the proof data's arrays at entry; `hΦ`: the proof data carry nothing between
    points but the core's scoped buffers that are no staging buffer.  Concludes `FramePost`. -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (Ix := Unit) (Name := ℕ) (U := UR sig nD τ) (Lvl := ℕ) (cfgs p).spec c (V c) : sProp 𝕄)
      ⊢ (dats p c).arrays ((dats p c).arrAt · 0))
    (hΦ : ∀ c t, (dats p c).Φ t = scopedRest (Ix := Unit) (Name := ℕ) (U := UR sig nD τ) (Lvl := ℕ) (Val := Val) (cfgs p).spec c) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro HU
      isplitr; · iempintro
      iexact HU)
    (hin := fun c => by
      rw [hΦ]
      iintro ⟨-, Hr⟩
      iexact Hr)
    (hout := fun c => by
      rw [hΦ]
      iintro Hr
      isplitr; · iempintro
      iexact Hr)
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

/-- info: 'Idealize.ShloMosaic.Pipeline.θ_run_frame_shared' depends on axioms: [propext, Classical.choice, Quot.sound] -/
#guard_msgs in #print axioms θ_run_frame_shared

end Idealize.ShloMosaic.Pipeline

end
-- ==== Proof.RunK.lean ====
/-
  The run of the region over its shared input arrays: how the buffers behind the windows' arrays are dealt among the
  windows (the array of seqs and that of the gathered token embeddings in three shares each, the two small gathered
  embeddings in two), and from it the frame run and the frame.
-/
import proofs.«124179_j78331613544613_1_alg».proof.Proof.FrameK
import proofs.«124179_j78331613544613_1_alg».proof.Proof.LibSharedFrame

set_option maxRecDepth 16384

noncomputable section

namespace Cert.Kernel.HFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct arrays behind the 17 windows, listed. -/
abbrev arrList : List (Ref sig .tc) :=
  [main_arg0, main_v22, main_v8, main_v15, main_v24, main_v26, main_v28, main_v30, main_v32, main_v34, main_v35]

theorem image_arrRef : Finset.univ.image (Pipeline.arrRef spec0) = arrList.toFinset := by decide

theorem arrList_nodup : arrList.Nodup := by decide

/-- The share of its array each window holds. -/
def shareOf : Fin cfg0.W → PosShare TreeShare := fun w => match w with
  | ⟨0, _⟩ => fullShare.left
  | ⟨1, _⟩ => fullShare.right.left
  | ⟨2, _⟩ => fullShare.right.right
  | ⟨3, _⟩ => fullShare.left
  | ⟨4, _⟩ => fullShare.right.left
  | ⟨5, _⟩ => fullShare.right.right
  | ⟨6, _⟩ => fullShare.left
  | ⟨7, _⟩ => fullShare.right
  | ⟨8, _⟩ => fullShare.left
  | ⟨9, _⟩ => fullShare.right
  | ⟨10, _⟩ => fullShare
  | ⟨11, _⟩ => fullShare
  | ⟨12, _⟩ => fullShare
  | ⟨13, _⟩ => fullShare
  | ⟨14, _⟩ => fullShare
  | ⟨15, _⟩ => fullShare
  | ⟨16, _⟩ => fullShare
  | ⟨_ + 17, h⟩ => absurd h (Nat.not_lt.2 (Nat.le_add_left _ _))

/-- A whole buffer at the full share is three shares of it. -/
theorem split3 {ℓ : Loc nD τ sig} (f : Buf (Elt F) ℓ) :
    (ℓ ↦{fullShare} f : sProp 𝕄) ⊢ iprop((ℓ ↦{fullShare.left} f) ∗ (ℓ ↦{fullShare.right.left} f) ∗ (ℓ ↦{fullShare.right.right} f)) := by
  iintro H
  ihave Hs := (pointsTo_share (PosShare.mem_left_op_right fullShare)).1 $$ H
  icases Hs with ⟨Hl, Hr⟩
  ihave Hs2 := (pointsTo_share (PosShare.mem_left_op_right fullShare.right)).1 $$ Hr
  icases Hs2 with ⟨Hrl, Hrr⟩
  isplitl [Hl]; · iexact Hl
  isplitl [Hrl]; · iexact Hrl
  iexact Hrr

/-- A whole buffer at the full share is two shares of it. -/
theorem split2 {ℓ : Loc nD τ sig} (f : Buf (Elt F) ℓ) :
    (ℓ ↦{fullShare} f : sProp 𝕄) ⊢ iprop((ℓ ↦{fullShare.left} f) ∗ (ℓ ↦{fullShare.right} f)) :=
  (pointsTo_share (PosShare.mem_left_op_right fullShare)).1

/-- The buffers behind the arrays, whole at any contents `W`, are the windows' arrays at those contents, each at its
    window's share. -/
theorem split_arrays (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      ⊢ bigSep Finset.univ fun w : Fin cfg0.W =>
          (((c.tc : Thread nD τ).loc (Pipeline.arrRef spec0 w)) ↦{shareOf w} W (Pipeline.arrRef spec0 w) : sProp 𝕄) := by
  rw [bigSep_W0]
  unfold Pipeline.arrBufs
  rw [bigSep_eq_bigSepL_of_eq arrList image_arrRef arrList_nodup]
  show iprop((((c.tc : Thread nD τ).loc main_arg0) ↦{fullShare} W main_arg0)
      ∗ (((c.tc : Thread nD τ).loc main_v22) ↦{fullShare} W main_v22)
      ∗ (((c.tc : Thread nD τ).loc main_v8) ↦{fullShare} W main_v8)
      ∗ (((c.tc : Thread nD τ).loc main_v15) ↦{fullShare} W main_v15)
      ∗ (((c.tc : Thread nD τ).loc main_v24) ↦{fullShare} W main_v24)
      ∗ (((c.tc : Thread nD τ).loc main_v26) ↦{fullShare} W main_v26)
      ∗ (((c.tc : Thread nD τ).loc main_v28) ↦{fullShare} W main_v28)
      ∗ (((c.tc : Thread nD τ).loc main_v30) ↦{fullShare} W main_v30)
      ∗ (((c.tc : Thread nD τ).loc main_v32) ↦{fullShare} W main_v32)
      ∗ (((c.tc : Thread nD τ).loc main_v34) ↦{fullShare} W main_v34)
      ∗ (((c.tc : Thread nD τ).loc main_v35) ↦{fullShare} W main_v35))
    ⊢ iprop((((c.tc : Thread nD τ).loc main_arg0) ↦{fullShare.left} W main_arg0)
      ∗ (((c.tc : Thread nD τ).loc main_arg0) ↦{fullShare.right.left} W main_arg0)
      ∗ (((c.tc : Thread nD τ).loc main_arg0) ↦{fullShare.right.right} W main_arg0)
      ∗ (((c.tc : Thread nD τ).loc main_v22) ↦{fullShare.left} W main_v22)
      ∗ (((c.tc : Thread nD τ).loc main_v22) ↦{fullShare.right.left} W main_v22)
      ∗ (((c.tc : Thread nD τ).loc main_v22) ↦{fullShare.right.right} W main_v22)
      ∗ (((c.tc : Thread nD τ).loc main_v8) ↦{fullShare.left} W main_v8)
      ∗ (((c.tc : Thread nD τ).loc main_v8) ↦{fullShare.right} W main_v8)
      ∗ (((c.tc : Thread nD τ).loc main_v15) ↦{fullShare.left} W main_v15)
      ∗ (((c.tc : Thread nD τ).loc main_v15) ↦{fullShare.right} W main_v15)
      ∗ (((c.tc : Thread nD τ).loc main_v24) ↦{fullShare} W main_v24)
      ∗ (((c.tc : Thread nD τ).loc main_v26) ↦{fullShare} W main_v26)
      ∗ (((c.tc : Thread nD τ).loc main_v28) ↦{fullShare} W main_v28)
      ∗ (((c.tc : Thread nD τ).loc main_v30) ↦{fullShare} W main_v30)
      ∗ (((c.tc : Thread nD τ).loc main_v32) ↦{fullShare} W main_v32)
      ∗ (((c.tc : Thread nD τ).loc main_v34) ↦{fullShare} W main_v34)
      ∗ (((c.tc : Thread nD τ).loc main_v35) ↦{fullShare} W main_v35))
  iintro ⟨H0, H22, H8, H15, H24, H26, H28, H30, H32, H34, H35⟩
  ihave Ha := (split3 (F := F) (ℓ := (c.tc : Thread nD τ).loc main_arg0) (W main_arg0)) $$ H0
  icases Ha with ⟨Ha0, Ha1, Ha2⟩
  ihave Hb := (split3 (F := F) (ℓ := (c.tc : Thread nD τ).loc main_v22) (W main_v22)) $$ H22
  icases Hb with ⟨Hb0, Hb1, Hb2⟩
  ihave Hc := (split2 (F := F) (ℓ := (c.tc : Thread nD τ).loc main_v8) (W main_v8)) $$ H8
  icases Hc with ⟨Hc0, Hc1⟩
  ihave Hd := (split2 (F := F) (ℓ := (c.tc : Thread nD τ).loc main_v15) (W main_v15)) $$ H15
  icases Hd with ⟨Hd0, Hd1⟩
  isplitl [Ha0]; · iexact Ha0
  isplitl [Ha1]; · iexact Ha1
  isplitl [Ha2]; · iexact Ha2
  isplitl [Hb0]; · iexact Hb0
  isplitl [Hb1]; · iexact Hb1
  isplitl [Hb2]; · iexact Hb2
  isplitl [Hc0]; · iexact Hc0
  isplitl [Hc1]; · iexact Hc1
  isplitl [Hd0]; · iexact Hd0
  isplitl [Hd1]; · iexact Hd1
  isplitl [H24]; · iexact H24
  isplitl [H26]; · iexact H26
  isplitl [H28]; · iexact H28
  isplitl [H30]; · iexact H30
  isplitl [H32]; · iexact H32
  isplitl [H34]; · iexact H34
  iexact H35

/-- Each window's share in the proof data. -/
theorem share_eq (c : Dev nD) (w : Fin cfg0.W) : (dats m 0 c).share w = shareOf w := by
  match w with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl
  | ⟨10, _⟩ => rfl
  | ⟨11, _⟩ => rfl
  | ⟨12, _⟩ => rfl
  | ⟨13, _⟩ => rfl
  | ⟨14, _⟩ => rfl
  | ⟨15, _⟩ => rfl
  | ⟨16, _⟩ => rfl
  | ⟨_ + 17, h⟩ => exact absurd h (Nat.not_lt.2 (Nat.le_add_left _ _))

/-- The proof data's arrays at entry, each a whole buffer at its window's share at the region-entry contents. -/
theorem arrays_entry (c : Dev nD) :
    (dats m 0 c).arrays ((dats m 0 c).arrAt · 0) = bigSep Finset.univ fun w : Fin cfg0.W =>
      (((c.tc : Thread nD τ).loc (Pipeline.arrRef spec0 w)) ↦{shareOf w} V m c (Pipeline.arrRef spec0 w) : sProp 𝕄) := by
  unfold Dat.arrays
  exact bigSep_congr fun w _ => by
    rw [(arr_whole0 w).set_eq_univ, share_eq]
    show _ = ((c.tc : Thread nD τ).loc (Pipeline.arrRef spec0 w) ↦{shareOf w} (dats m 0 c).A w : sProp 𝕄)
    rfl

/-- The buffers behind the arrays, whole at the region-entry contents, make the proof data's arrays at entry. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrays_entry]
  exact split_arrays c (V m c)

set_option backward.isDefEq.respectTransparency.types false in
/-- Every weakly fair execution of @main terminates, and every final state has every array of the pipeline at what the
    proof data compute and every other unscoped buffer as the region found it. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := hsplit m) (hΦ := fun _ _ => rfl)

/-- The frame: the run terminates, faults nowhere, and the ten argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.Kernel.HFrame

end
-- ==== Proof.FrameKI.lean ====
/-
  The frame run of the program: @main is host operations (two paddings, three gathers of embedding rows, six slices of
  the weight matrices) and then one region over a 16 × 8 grid of (batch, sequence tile) points.  The region's 17
  windows: a 256-row tile of seqs with the 8-row slabs holding the row before and the row after it (three windows on
  ONE array), the same three of the gathered token embeddings, a tile and its slab before for each of the two small
  gathered embeddings, six whole weight blocks, and the output tile.  The body loads its 16 input windows through
  literal rectangles, computes, and stores the output tile whole; so after the body an input's buffer holds the block
  it held, and the output's holds the stored value.  An array read through several windows is dealt among them in
  shares.  From this, the library's launch for shared input arrays gives the run: it terminates, faults nowhere, every
  argument array ends as launched, and the result array ends at the tiles the body stored.
-/
import proofs.«124179_j78331613544613_1_alg».proof.Proof.Gen.KernelIdeal.Launch
import proofs.«124179_j78331613544613_1_alg».proof.Proof.Gen.KernelIdeal.Skeleton
import proofs.«124179_j78331613544613_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.HFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The TensorCore's buffers when the region is entered: after the five stretches of host operations. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

/-- @main is those stretches and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's buffer holds its block at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's buffer holds its block at every point, fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's buffer holds its block at every point, fetched there or not. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's buffer holds its block at every point, fetched there or not. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's buffer holds its block at every point, fetched there or not. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's buffer holds its block at every point, fetched there or not. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's buffer holds its block at every point, fetched there or not. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's buffer holds its block at every point, fetched there or not. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's buffer holds its block at every point, fetched there or not. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's buffer holds its block at every point, fetched there or not. -/
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's buffer holds its block at every point, fetched there or not. -/
theorem before11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's buffer holds its block at every point, fetched there or not. -/
theorem before12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's buffer holds its block at every point, fetched there or not. -/
theorem before13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's buffer holds its block at every point, fetched there or not. -/
theorem before14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's buffer holds its block at every point, fetched there or not. -/
theorem before15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) h

/-! ## The body's accesses -/

abbrev rMain768 : Rect S1x256x768 := Rect.unit (s := S1x256x768) ![0, 0, 0] S1x256x768.size inb_S1x256x768_S1x256x768_0_0_0
abbrev rB768 : Rect S1x8x768 := Rect.unit (s := S1x8x768) ![0, 7, 0] S1x1x768.size inb_S1x8x768_S1x1x768_0_7_0
abbrev rA768 : Rect S1x8x768 := Rect.unit (s := S1x8x768) ![0, 0, 0] S1x1x768.size inb_S1x8x768_S1x1x768_0_0_0
abbrev rMain128 : Rect S1x256x128 := Rect.unit (s := S1x256x128) ![0, 0, 0] S1x256x128.size inb_S1x256x128_S1x256x128_0_0_0
abbrev rB128 : Rect S1x8x128 := Rect.unit (s := S1x8x128) ![0, 7, 0] S1x1x128.size inb_S1x8x128_S1x1x128_0_7_0
abbrev rW128 : Rect S128x128 := Rect.unit (s := S128x128) ![0, 0] S128x128.size inb_S128x128_S128x128_0_0
abbrev rW768 : Rect S768x768 := Rect.unit (s := S768x768) ![0, 0] S768x768.size inb_S768x768_S768x768_0_0
abbrev rW768x128 : Rect S768x128 := Rect.unit (s := S768x128) ![0, 0] S768x128.size inb_S768x128_S768x128_0_0

/-! ## What the body leaves in the output window's buffer -/

/-- The output window's buffer after the body at grid coordinates `i`, from the input windows' blocks: its one store. -/
def out16 (i : grid0.Coords) (x0 : Vec F S1x256x768 .f32) (x1 : Vec F S1x8x768 .f32) (x2 : Vec F S1x8x768 .f32) (x3 : Vec F S1x256x768 .f32) (x4 : Vec F S1x8x768 .f32) (x5 : Vec F S1x8x768 .f32) (x6 : Vec F S1x256x128 .f32) (x7 : Vec F S1x8x128 .f32) (x8 : Vec F S1x256x128 .f32) (x9 : Vec F S1x8x128 .f32) (x10 : Vec F S128x128 .bf16) (x11 : Vec F S128x128 .bf16) (x12 : Vec F S768x768 .bf16) (x13 : Vec F S768x768 .bf16) (x14 : Vec F S768x768 .bf16) (x15 : Vec F S768x128 .bf16) : Vec F S1x256x768 .f32 :=
  View.canon [⟨rMain768, k0_pay1 (BitVec.ofNat 32 (i 1).val) (k0_pay2 (View.ld x0 rMain768) (View.ld x3 rMain768))
      (k0_pay8 (k0_pay4 (View.ld x0 rMain768) (View.ld x3 rMain768) (View.ld x1 rB768) (View.ld x4 rB768) (View.ld x2 rA768) (View.ld x5 rA768))
        (k0_pay5 (View.ld x0 rMain768) (View.ld x3 rMain768) (View.ld x1 rB768) (View.ld x4 rB768) (View.ld x2 rA768) (View.ld x5 rA768))
        (View.ld x12 rW768) (View.ld x13 rW768) (View.ld x14 rW768))
      (k0_pay9 (k0_pay6 (View.ld x6 rMain128) (View.ld x7 rB128)) (k0_pay7 (View.ld x8 rMain128)) (View.ld x9 rB128)
        (View.ld x10 rW128) (View.ld x11 rW128) (View.ld x15 rW768x128))⟩]

/-- The one store covers the buffer. -/
theorem cover16 (p0 : Vec F S1x256x768 .f32) (y : S1x256x768.Idx) :
    ∃ pc ∈ ([⟨rMain768, p0⟩] : List (View.Piece (Elt F) S1x256x768 .f32)), y ∈ pc.1.set :=
  View.cover_of_tiled [⟨rMain768, p0⟩] S1x256x768.size (by rfl) y

/-! ## The body's triple -/

set_option maxHeartbeats 4000000 in
/-- The kernel body on whole staging memrefs, the inputs' at read contents and the output's at anything, runs to the
    continuation holding the inputs' as they were and the output's at `out16` of the inputs'. -/
theorem sound_kernel (c : Dev nD) (E : Set ℕ) (i : grid0.Coords) (arg2 : Memref sig .tc .vmem S1x256x768 .f32) (harg2 : arg2.IsWhole) (arg3 : Memref sig .tc .vmem S1x8x768 .f32) (harg3 : arg3.IsWhole) (arg4 : Memref sig .tc .vmem S1x8x768 .f32) (harg4 : arg4.IsWhole) (arg5 : Memref sig .tc .vmem S1x256x768 .f32) (harg5 : arg5.IsWhole) (arg6 : Memref sig .tc .vmem S1x8x768 .f32) (harg6 : arg6.IsWhole) (arg7 : Memref sig .tc .vmem S1x8x768 .f32) (harg7 : arg7.IsWhole) (arg8 : Memref sig .tc .vmem S1x256x128 .f32) (harg8 : arg8.IsWhole) (arg9 : Memref sig .tc .vmem S1x8x128 .f32) (harg9 : arg9.IsWhole) (arg10 : Memref sig .tc .vmem S1x256x128 .f32) (harg10 : arg10.IsWhole) (arg11 : Memref sig .tc .vmem S1x8x128 .f32) (harg11 : arg11.IsWhole) (arg12 : Memref sig .tc .vmem S128x128 .bf16) (harg12 : arg12.IsWhole) (arg13 : Memref sig .tc .vmem S128x128 .bf16) (harg13 : arg13.IsWhole) (arg14 : Memref sig .tc .vmem S768x768 .bf16) (harg14 : arg14.IsWhole) (arg15 : Memref sig .tc .vmem S768x768 .bf16) (harg15 : arg15.IsWhole) (arg16 : Memref sig .tc .vmem S768x768 .bf16) (harg16 : arg16.IsWhole) (arg17 : Memref sig .tc .vmem S768x128 .bf16) (harg17 : arg17.IsWhole) (arg18 : Memref sig .tc .vmem S1x256x768 .f32) (harg18 : arg18.IsWhole)
    (x0 : Vec F S1x256x768 .f32) (x1 : Vec F S1x8x768 .f32) (x2 : Vec F S1x8x768 .f32) (x3 : Vec F S1x256x768 .f32) (x4 : Vec F S1x8x768 .f32) (x5 : Vec F S1x8x768 .f32) (x6 : Vec F S1x256x128 .f32) (x7 : Vec F S1x8x128 .f32) (x8 : Vec F S1x256x128 .f32) (x9 : Vec F S1x8x128 .f32) (x10 : Vec F S128x128 .bf16) (x11 : Vec F S128x128 .bf16) (x12 : Vec F S768x768 .bf16) (x13 : Vec F S768x768 .bf16) (x14 : Vec F S768x768 .bf16) (x15 : Vec F S768x128 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg18 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare (out16 i x0 x1 x2 x3 x4 x5 x6 x7 x8 x9 x10 x11 x12 x13 x14 x15)) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__kernel_eq_skeleton]; unfold cc0__kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, Hk⟩
  subst hf0 hf1 hf2 hf3 hf4 hf5 hf6 hf7 hf8 hf9 hf10 hf11 hf12 hf13 hf14 hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  iexists _; isplitr
  swap; · iexact H16
  ipureintro
  try dsimp only
  exact View.read_writes_eq_canon _ _ _ (cover16 _)

/-! ## The pipeline's proof data -/

/-- The proof data of the pipeline: the arrays as the region finds them; after the body at point `t` each input's
    buffer at its block and the output's at `out16` of the input blocks; nothing carried between points but the core's
    other scoped buffers; nothing owed; the array of seqs and that of the gathered token embeddings dealt among their
    three windows, each small gathered embedding's between its two. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => out16 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨_ + 17, h⟩ => absurd h (Nat.not_lt.2 (Nat.le_add_left _ _))
  Φ _ := Pipeline.scopedRest (Ix := Unit) (Name := ℕ) (U := UR sig nD τ) (Lvl := ℕ) (Val := Elt F) spec0 c
  q w := match w with
    | ⟨0, _⟩ => fullShare.left
    | ⟨1, _⟩ => fullShare.right.left
    | ⟨2, _⟩ => fullShare.right.right
    | ⟨3, _⟩ => fullShare.left
    | ⟨4, _⟩ => fullShare.right.left
    | ⟨5, _⟩ => fullShare.right.right
    | ⟨6, _⟩ => fullShare.left
    | ⟨7, _⟩ => fullShare.right
    | ⟨8, _⟩ => fullShare.left
    | ⟨9, _⟩ => fullShare.right
    | ⟨10, _⟩ => fullShare
    | ⟨11, _⟩ => fullShare
    | ⟨12, _⟩ => fullShare
    | ⟨13, _⟩ => fullShare
    | ⟨14, _⟩ => fullShare
    | ⟨15, _⟩ => fullShare
    | ⟨16, _⟩ => fullShare
    | ⟨_ + 17, h⟩ => absurd h (Nat.not_lt.2 (Nat.le_add_left _ _))
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem after16 (c : Dev nD) (t : Fin cfg0.N) : (dats m 0 c).after 16 t = out16 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d
theorem before11 (c : Dev nD) (t : Fin cfg0.N) (d) : (dats m 0 c).before 11 t d = iblk m c 11 t :=
  before11_of m (dats m 0 c) (A_eq m c 11) (after11 m c) t d
theorem before12 (c : Dev nD) (t : Fin cfg0.N) (d) : (dats m 0 c).before 12 t d = iblk m c 12 t :=
  before12_of m (dats m 0 c) (A_eq m c 12) (after12 m c) t d
theorem before13 (c : Dev nD) (t : Fin cfg0.N) (d) : (dats m 0 c).before 13 t d = iblk m c 13 t :=
  before13_of m (dats m 0 c) (A_eq m c 13) (after13 m c) t d
theorem before14 (c : Dev nD) (t : Fin cfg0.N) (d) : (dats m 0 c).before 14 t d = iblk m c 14 t :=
  before14_of m (dats m 0 c) (A_eq m c 14) (after14 m c) t d
theorem before15 (c : Dev nD) (t : Fin cfg0.N) (d) : (dats m 0 c).before 15 t d = iblk m c 15 t :=
  before15_of m (dats m 0 c) (A_eq m c 15) (after15 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t))

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15, after16]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (sound_kernel c Set.univ (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  iintro ⟨H0, H1, H2, H3, H4, H5, H6, H7, H8, H9, H10, H11, H12, H13, H14, H15, H16⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

theorem body_obligation (c : Dev nD) : BodyObligation (dats (F := F) m 0 c) (defs₀ (F := F)) Variants.none () Set.univ := fun t => by
  rw [bigSep_W0, bigSep_W0]
  exact sound_body m c t

end Cert.KernelIdeal.HFrame

end
-- ==== Proof.RunKI.lean ====
/-
  The run of the region over its shared input arrays: how the buffers behind the windows' arrays are dealt among the
  windows (the array of seqs and that of the gathered token embeddings in three shares each, the two small gathered
  embeddings in two), and from it the frame run and the frame.
-/
import proofs.«124179_j78331613544613_1_alg».proof.Proof.FrameKI
import proofs.«124179_j78331613544613_1_alg».proof.Proof.LibSharedFrame

set_option maxRecDepth 16384

noncomputable section

namespace Cert.KernelIdeal.HFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct arrays behind the 17 windows, listed. -/
abbrev arrList : List (Ref sig .tc) :=
  [main_arg0, main_v22, main_v8, main_v15, main_v24, main_v26, main_v28, main_v30, main_v32, main_v34, main_v35]

theorem image_arrRef : Finset.univ.image (Pipeline.arrRef spec0) = arrList.toFinset := by decide

theorem arrList_nodup : arrList.Nodup := by decide

/-- The share of its array each window holds. -/
def shareOf : Fin cfg0.W → PosShare TreeShare := fun w => match w with
  | ⟨0, _⟩ => fullShare.left
  | ⟨1, _⟩ => fullShare.right.left
  | ⟨2, _⟩ => fullShare.right.right
  | ⟨3, _⟩ => fullShare.left
  | ⟨4, _⟩ => fullShare.right.left
  | ⟨5, _⟩ => fullShare.right.right
  | ⟨6, _⟩ => fullShare.left
  | ⟨7, _⟩ => fullShare.right
  | ⟨8, _⟩ => fullShare.left
  | ⟨9, _⟩ => fullShare.right
  | ⟨10, _⟩ => fullShare
  | ⟨11, _⟩ => fullShare
  | ⟨12, _⟩ => fullShare
  | ⟨13, _⟩ => fullShare
  | ⟨14, _⟩ => fullShare
  | ⟨15, _⟩ => fullShare
  | ⟨16, _⟩ => fullShare
  | ⟨_ + 17, h⟩ => absurd h (Nat.not_lt.2 (Nat.le_add_left _ _))

/-- A whole buffer at the full share is three shares of it. -/
theorem split3 {ℓ : Loc nD τ sig} (f : Buf (Elt F) ℓ) :
    (ℓ ↦{fullShare} f : sProp 𝕄) ⊢ iprop((ℓ ↦{fullShare.left} f) ∗ (ℓ ↦{fullShare.right.left} f) ∗ (ℓ ↦{fullShare.right.right} f)) := by
  iintro H
  ihave Hs := (pointsTo_share (PosShare.mem_left_op_right fullShare)).1 $$ H
  icases Hs with ⟨Hl, Hr⟩
  ihave Hs2 := (pointsTo_share (PosShare.mem_left_op_right fullShare.right)).1 $$ Hr
  icases Hs2 with ⟨Hrl, Hrr⟩
  isplitl [Hl]; · iexact Hl
  isplitl [Hrl]; · iexact Hrl
  iexact Hrr

/-- A whole buffer at the full share is two shares of it. -/
theorem split2 {ℓ : Loc nD τ sig} (f : Buf (Elt F) ℓ) :
    (ℓ ↦{fullShare} f : sProp 𝕄) ⊢ iprop((ℓ ↦{fullShare.left} f) ∗ (ℓ ↦{fullShare.right} f)) :=
  (pointsTo_share (PosShare.mem_left_op_right fullShare)).1

/-- The buffers behind the arrays, whole at any contents `W`, are the windows' arrays at those contents, each at its
    window's share. -/
theorem split_arrays (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      ⊢ bigSep Finset.univ fun w : Fin cfg0.W =>
          (((c.tc : Thread nD τ).loc (Pipeline.arrRef spec0 w)) ↦{shareOf w} W (Pipeline.arrRef spec0 w) : sProp 𝕄) := by
  rw [bigSep_W0]
  unfold Pipeline.arrBufs
  rw [bigSep_eq_bigSepL_of_eq arrList image_arrRef arrList_nodup]
  show iprop((((c.tc : Thread nD τ).loc main_arg0) ↦{fullShare} W main_arg0)
      ∗ (((c.tc : Thread nD τ).loc main_v22) ↦{fullShare} W main_v22)
      ∗ (((c.tc : Thread nD τ).loc main_v8) ↦{fullShare} W main_v8)
      ∗ (((c.tc : Thread nD τ).loc main_v15) ↦{fullShare} W main_v15)
      ∗ (((c.tc : Thread nD τ).loc main_v24) ↦{fullShare} W main_v24)
      ∗ (((c.tc : Thread nD τ).loc main_v26) ↦{fullShare} W main_v26)
      ∗ (((c.tc : Thread nD τ).loc main_v28) ↦{fullShare} W main_v28)
      ∗ (((c.tc : Thread nD τ).loc main_v30) ↦{fullShare} W main_v30)
      ∗ (((c.tc : Thread nD τ).loc main_v32) ↦{fullShare} W main_v32)
      ∗ (((c.tc : Thread nD τ).loc main_v34) ↦{fullShare} W main_v34)
      ∗ (((c.tc : Thread nD τ).loc main_v35) ↦{fullShare} W main_v35))
    ⊢ iprop((((c.tc : Thread nD τ).loc main_arg0) ↦{fullShare.left} W main_arg0)
      ∗ (((c.tc : Thread nD τ).loc main_arg0) ↦{fullShare.right.left} W main_arg0)
      ∗ (((c.tc : Thread nD τ).loc main_arg0) ↦{fullShare.right.right} W main_arg0)
      ∗ (((c.tc : Thread nD τ).loc main_v22) ↦{fullShare.left} W main_v22)
      ∗ (((c.tc : Thread nD τ).loc main_v22) ↦{fullShare.right.left} W main_v22)
      ∗ (((c.tc : Thread nD τ).loc main_v22) ↦{fullShare.right.right} W main_v22)
      ∗ (((c.tc : Thread nD τ).loc main_v8) ↦{fullShare.left} W main_v8)
      ∗ (((c.tc : Thread nD τ).loc main_v8) ↦{fullShare.right} W main_v8)
      ∗ (((c.tc : Thread nD τ).loc main_v15) ↦{fullShare.left} W main_v15)
      ∗ (((c.tc : Thread nD τ).loc main_v15) ↦{fullShare.right} W main_v15)
      ∗ (((c.tc : Thread nD τ).loc main_v24) ↦{fullShare} W main_v24)
      ∗ (((c.tc : Thread nD τ).loc main_v26) ↦{fullShare} W main_v26)
      ∗ (((c.tc : Thread nD τ).loc main_v28) ↦{fullShare} W main_v28)
      ∗ (((c.tc : Thread nD τ).loc main_v30) ↦{fullShare} W main_v30)
      ∗ (((c.tc : Thread nD τ).loc main_v32) ↦{fullShare} W main_v32)
      ∗ (((c.tc : Thread nD τ).loc main_v34) ↦{fullShare} W main_v34)
      ∗ (((c.tc : Thread nD τ).loc main_v35) ↦{fullShare} W main_v35))
  iintro ⟨H0, H22, H8, H15, H24, H26, H28, H30, H32, H34, H35⟩
  ihave Ha := (split3 (F := F) (ℓ := (c.tc : Thread nD τ).loc main_arg0) (W main_arg0)) $$ H0
  icases Ha with ⟨Ha0, Ha1, Ha2⟩
  ihave Hb := (split3 (F := F) (ℓ := (c.tc : Thread nD τ).loc main_v22) (W main_v22)) $$ H22
  icases Hb with ⟨Hb0, Hb1, Hb2⟩
  ihave Hc := (split2 (F := F) (ℓ := (c.tc : Thread nD τ).loc main_v8) (W main_v8)) $$ H8
  icases Hc with ⟨Hc0, Hc1⟩
  ihave Hd := (split2 (F := F) (ℓ := (c.tc : Thread nD τ).loc main_v15) (W main_v15)) $$ H15
  icases Hd with ⟨Hd0, Hd1⟩
  isplitl [Ha0]; · iexact Ha0
  isplitl [Ha1]; · iexact Ha1
  isplitl [Ha2]; · iexact Ha2
  isplitl [Hb0]; · iexact Hb0
  isplitl [Hb1]; · iexact Hb1
  isplitl [Hb2]; · iexact Hb2
  isplitl [Hc0]; · iexact Hc0
  isplitl [Hc1]; · iexact Hc1
  isplitl [Hd0]; · iexact Hd0
  isplitl [Hd1]; · iexact Hd1
  isplitl [H24]; · iexact H24
  isplitl [H26]; · iexact H26
  isplitl [H28]; · iexact H28
  isplitl [H30]; · iexact H30
  isplitl [H32]; · iexact H32
  isplitl [H34]; · iexact H34
  iexact H35

/-- Each window's share in the proof data. -/
theorem share_eq (c : Dev nD) (w : Fin cfg0.W) : (dats m 0 c).share w = shareOf w := by
  match w with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl
  | ⟨10, _⟩ => rfl
  | ⟨11, _⟩ => rfl
  | ⟨12, _⟩ => rfl
  | ⟨13, _⟩ => rfl
  | ⟨14, _⟩ => rfl
  | ⟨15, _⟩ => rfl
  | ⟨16, _⟩ => rfl
  | ⟨_ + 17, h⟩ => exact absurd h (Nat.not_lt.2 (Nat.le_add_left _ _))

/-- The proof data's arrays at entry, each a whole buffer at its window's share at the region-entry contents. -/
theorem arrays_entry (c : Dev nD) :
    (dats m 0 c).arrays ((dats m 0 c).arrAt · 0) = bigSep Finset.univ fun w : Fin cfg0.W =>
      (((c.tc : Thread nD τ).loc (Pipeline.arrRef spec0 w)) ↦{shareOf w} V m c (Pipeline.arrRef spec0 w) : sProp 𝕄) := by
  unfold Dat.arrays
  exact bigSep_congr fun w _ => by
    rw [(arr_whole0 w).set_eq_univ, share_eq]
    show _ = ((c.tc : Thread nD τ).loc (Pipeline.arrRef spec0 w) ↦{shareOf w} (dats m 0 c).A w : sProp 𝕄)
    rfl

/-- The buffers behind the arrays, whole at the region-entry contents, make the proof data's arrays at entry. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrays_entry]
  exact split_arrays c (V m c)

set_option backward.isDefEq.respectTransparency.types false in
/-- Every weakly fair execution of @main terminates, and every final state has every array of the pipeline at what the
    proof data compute and every other unscoped buffer as the region found it. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := hsplit m) (hΦ := fun _ _ => rfl)

/-- The frame: the run terminates, faults nowhere, and the ten argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.KernelIdeal.HFrame

end
-- ==== Proof.Spec.lean ====
/-
  The function both programs compute, entry by entry, on the extended reals.

  With  su[b,s]   = seqs[b,s] + E_u[row(u[b,s])]                      (a row of 768 numbers, 0 ≤ s < 2048),
        de[b,s]   = E_d[row(d[b,s])],  ce[b,s] = E_c[row(c[b,s])]      (rows of 128 numbers, 0 ≤ s < 2047),
        dc[b,s]   = relu (W_cd[:, :128] de[b,s] + W_cd[:, 128:] ce[b,s]),
        ph[b,s]   = relu (W_hid[:, :768] su[b,s] + W_hid[:, 768:] su[b,s+1]),
        mm[b,s]   = relu (W_cdh[:, :768] ph[b,s] + W_cdh[:, 768:] dc[b,s]),
  the result row r is  su[b,r] + (mm[b,r] if r < 2047) + (mm[b,r-1] if r ≥ 2).  A table's row named by an index word w
  is w itself, or w + N when w is negative, then read as a signed integer and clamped into [0, N-1].
-/
import Idealize.ShloMosaic.PureOps.Ideal
import Idealize.ShloMosaic.Lib.ValueIdx

noncomputable section

namespace Cert.Spec

open Idealize.ShloMosaic Idealize.ShloMosaic.ValueIdx

/-- Indices of a rank-3 and of a rank-2 array of literal extents. -/
abbrev A3 (a b c : Nat) := (⟨3, ![a, b, c]⟩ : Shape).Idx
abbrev A2 (a b : Nat) := (⟨2, ![a, b]⟩ : Shape).Idx

/-- The row of an `N`-row table that the index word `w` names: a negative word counts from the end (`w + N`, with
    `nb` the word of `N`), and the outcome is read as a signed integer and clamped into `[0, N - 1]`. -/
def rowOf (N : Nat) (hN : 0 < N) (nb w : BitVec 32) : Fin N :=
  ⟨min (Scalar.select (IntOp.cmpi .slt w 0#32) (IntOp.addi w nb) w).toInt.toNat (N - 1), by omega⟩

/-- `max x 0`, the zero written as the float word both programs use. -/
def relu (x : EReal) : EReal := max x (Ideal.ofBits .f32 0x00000000#32)

section

variable (x0 : A3 16 2048 768 → EReal) (x1 x2 : A2 16 2047 → BitVec 32) (x3 : A2 16 2048 → BitVec 32)
  (x4 x5 : A2 512 128 → EReal) (x6 : A2 50000 768 → EReal) (x7 : A2 128 256 → EReal) (x8 : A2 768 1536 → EReal)
  (x9 : A2 768 896 → EReal)

/-- The sequence entry plus its token embedding. -/
def su (b : Fin 16) (s : Fin 2048) (h : Fin 768) : EReal :=
  x0 (ix3 b s h) + x6 (ix2 (rowOf 50000 (by decide) 50000#32 (x3 (ix2 b s))) h)

/-- The two small embeddings of position `s < 2047`. -/
def de (b : Fin 16) (s : Fin 2047) (i : Fin 128) : EReal := x4 (ix2 (rowOf 512 (by decide) 512#32 (x1 (ix2 b s))) i)
def ce (b : Fin 16) (s : Fin 2047) (i : Fin 128) : EReal := x5 (ix2 (rowOf 512 (by decide) 512#32 (x2 (ix2 b s))) i)

/-- The mixed small embeddings: the first 128 columns of `W_cd` meet `de`, the last 128 meet `ce`. -/
def dc (b : Fin 16) (s : Fin 2047) (o : Fin 128) : EReal :=
  relu ((∑ i : Fin 128, de x1 x4 b s i * x7 (ix2 o (⟨i.val, by omega⟩ : Fin 256)))
      + ∑ i : Fin 128, ce x2 x5 b s i * x7 (ix2 o (⟨128 + i.val, by omega⟩ : Fin 256)))

/-- The hidden mix of the adjacent pair `(s, s + 1)`. -/
def ph (b : Fin 16) (s : Fin 2047) (o : Fin 768) : EReal :=
  relu ((∑ i : Fin 768, su x0 x3 x6 b (⟨s.val, by omega⟩ : Fin 2048) i * x8 (ix2 o (⟨i.val, by omega⟩ : Fin 1536)))
      + ∑ i : Fin 768, su x0 x3 x6 b (⟨s.val + 1, by omega⟩ : Fin 2048) i * x8 (ix2 o (⟨768 + i.val, by omega⟩ : Fin 1536)))

/-- The pair's contribution: the first 768 columns of `W_cdh` meet `ph`, the last 128 meet `dc`. -/
def mm (b : Fin 16) (s : Fin 2047) (o : Fin 768) : EReal :=
  relu ((∑ i : Fin 768, ph x0 x3 x6 x8 b s i * x9 (ix2 o (⟨i.val, by omega⟩ : Fin 896)))
      + ∑ i : Fin 128, dc x1 x2 x4 x5 x7 b s i * x9 (ix2 o (⟨768 + i.val, by omega⟩ : Fin 896)))

/-- Row `r` of the result: the pair starting at `r` (when there is one) and the pair ending at `r` (from `r = 2` on). -/
def out (b : Fin 16) (r : Fin 2048) (h : Fin 768) : EReal :=
  (su x0 x3 x6 b r h + (if hr : r.val < 2047 then mm x0 x1 x2 x3 x4 x5 x6 x7 x8 x9 b ⟨r.val, hr⟩ h else 0))
    + (if hr : 2 ≤ r.val then mm x0 x1 x2 x3 x4 x5 x6 x7 x8 x9 b (⟨r.val - 1, by omega⟩ : Fin 2047) h else 0)

/-- The whole result array. -/
def G : A3 16 2048 768 → EReal := fun j => out x0 x1 x2 x3 x4 x5 x6 x7 x8 x9 (j 0) (j 1) (j 2)

end

end Cert.Spec

end
-- ==== Proof.LibGatherRows.lean ====
/-
  A gather of rows of a matrix, read at an index.

  `take(x, idx, axis = 0)` of a matrix `x : [N, D]` at an integer array `idx : [R, C]` is a gather whose start indices
  are `idx` viewed as `[R, C, 1]`, whose one collapsed operand axis is the row axis and whose one offset axis is the
  result's last: slices of sizes `[1, D]`.  Result entry `(r, c, d)` is the matrix at row `idx[r, c, 0]` — read as a
  signed integer and clamped into `[0, N − 1]`, as every start index of a gather is — and column `d`.
-/
import Idealize.ShloMosaic.PureOps.Ideal
import Idealize.ShloMosaic.Lib.ValueIdx

noncomputable section

namespace Cert.Lib.GatherRows

open Idealize.ShloMosaic Idealize.ShloMosaic.ValueIdx

variable {α : Type}

/-- The dimension numbers of a gather of rows: operand `[N, D]`, start indices `[R, C, 1]`, result `[R, C, D]`. -/
abbrev rowDims (N D R C : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- THE GATHER READ AT `(r, c, d)`: the matrix at the row the start index `idx[r, c, 0]` names, read signed and clamped
    into `[0, N − 1]`, and at column `d`. -/
theorem gather_rows_apply {N D R C w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (r : Fin R) (c : Fin C) (d : Fin D) :
    Host.gather (rowDims N D R C wf) x idx (ix3 r c d)
      = x (ix2 (⟨min (idx (ix3 r c (0 : Fin 1))).toInt.toNat (N - 1), by omega⟩ : Fin N) d) := by
  unfold Host.gather
  refine congrArg x (funext fun a => Fin.ext ?_)
  match a with
  | ⟨0, _⟩ =>
    show (rowDims N D R C wf).start (ix3 r c d) idx 0 + (rowDims N D R C wf).batchCoord (ix3 r c d) 0
        + (rowDims N D R C wf).offCoord (ix3 r c d) 0 = min (idx (ix3 r c (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D R C wf).startIndexMap from List.mem_singleton.mpr rfl)]
    have hsi : (rowDims N D R C wf).siIdx (ix3 r c d) ⟨List.idxOf (0 : Fin 2) (rowDims N D R C wf).startIndexMap,
        List.idxOf_lt_length_iff.2 (List.mem_singleton.mpr rfl)⟩ = ix3 r c (0 : Fin 1) := by
      funext b; refine Fin.ext ?_
      match b with
      | ⟨0, _⟩ => rfl
      | ⟨1, _⟩ => rfl
      | ⟨2, _⟩ => rfl
    rw [hsi]
    rfl
  | ⟨1, _⟩ =>
    show (rowDims N D R C wf).start (ix3 r c d) idx 1 + (rowDims N D R C wf).batchCoord (ix3 r c d) 1
        + (rowDims N D R C wf).offCoord (ix3 r c d) 1 = d.val
    rw [GatherDims.batchCoord_eq_zero _ _ _ List.not_mem_nil]
    have hs : (rowDims N D R C wf).start (ix3 r c d) idx 1 = 0 := by
      unfold GatherDims.start
      rw [dif_neg (show ¬(1 : Fin 2) ∈ (rowDims N D R C wf).startIndexMap from (by decide : ¬(1 : Fin 2) ∈ [(0 : Fin 2)]))]
    have hk : (1 : Fin 2) ∈ (rowDims N D R C wf).sKept :=
      (GatherDims.mem_sKept _ _).mpr ⟨(by decide : ¬(1 : Fin 2) ∈ [(0 : Fin 2)]), List.not_mem_nil⟩
    have ho : (rowDims N D R C wf).offCoord (ix3 r c d) 1 = d.val := by
      unfold GatherDims.offCoord
      rw [dif_pos hk]
      rfl
    rw [hs, ho]
    omega

end Cert.Lib.GatherRows

end
-- ==== Proof.VArr.lean ====
/-
  The arrays the region finds, read at an index as functions of the argument arrays.

  Before the region the host pads the two small index arrays with one zero column, replaces each negative index word
  by the word plus the table's row count, gathers the tables' rows, and cuts each weight matrix into its two column
  blocks (the change of float format that follows is the identity on the extended reals).  So the gathered token
  embeddings at (b, s) are the token table's row that u[b, s] names; the small gathered embeddings at (b, s), s < 2047,
  are the small tables' rows that d[b, s] and c[b, s] name (column 2047 reads the padding word, and is never used); and
  the six weight blocks are the matrices' columns from 0 and from 128 or 768 on.
-/
import proofs.«124179_j78331613544613_1_alg».proof.Proof.FrameKI
import proofs.«124179_j78331613544613_1_alg».proof.Proof.Spec
import proofs.«124179_j78331613544613_1_alg».proof.Proof.LibGatherRows
import Idealize.ShloMosaic.Lib.StableHlo.Run
import Idealize.ShloMosaic.Lib.KernelVsHost
import Idealize.ShloMosaic.Lib.Pipeline.Value
import Idealize.ShloMosaic.Lib.ValueIdx

set_option maxRecDepth 16384

noncomputable section

namespace Cert.KernelIdeal.HValue

open Cert.KernelIdeal Cert.KernelIdeal.Gen Cert.KernelIdeal.HFrame
open Idealize.ShloMosaic Idealize.ShloMosaic.TcCoe Idealize.SL.Sem Idealize.ShloMosaic.StableHlo Idealize.ShloMosaic.ValueIdx
open Cert.Lib.GatherRows Cert.Spec

variable (m : (ℓ : Loc nD τ sig) → Buf (Elt Ideal) ℓ)

/-! ## The argument arrays -/

abbrev X0 (c : Dev nD) : S16x2048x768.Idx → EReal := m ((c.tc : Thread nD τ).loc main_arg0)
abbrev X1 (c : Dev nD) : S16x2047.Idx → BitVec 32 := m ((c.tc : Thread nD τ).loc main_arg1)
abbrev X2 (c : Dev nD) : S16x2047.Idx → BitVec 32 := m ((c.tc : Thread nD τ).loc main_arg2)
abbrev X3 (c : Dev nD) : S16x2048.Idx → BitVec 32 := m ((c.tc : Thread nD τ).loc main_arg3)
abbrev X4 (c : Dev nD) : S512x128.Idx → EReal := m ((c.tc : Thread nD τ).loc main_arg4)
abbrev X5 (c : Dev nD) : S512x128.Idx → EReal := m ((c.tc : Thread nD τ).loc main_arg5)
abbrev X6 (c : Dev nD) : S50000x768.Idx → EReal := m ((c.tc : Thread nD τ).loc main_arg6)
abbrev X7 (c : Dev nD) : S128x256.Idx → EReal := m ((c.tc : Thread nD τ).loc main_arg7)
abbrev X8 (c : Dev nD) : S768x1536.Idx → EReal := m ((c.tc : Thread nD τ).loc main_arg8)
abbrev X9 (c : Dev nD) : S768x896.Idx → EReal := m ((c.tc : Thread nD τ).loc main_arg9)

/-! ## The index words -/

/-- The wrapped index word at (b, s): the word, or the word plus `N` when it is negative. -/
theorem word_at (x : S16x2048.Idx → BitVec 32) (N : BitVec 32) (b : Fin 16) (s : Fin 2048) :
    broadcastInDim S16x2048x1 ![0, 1] bcast_S16x2048_S16x2048x1_0_1
        (select (cmpi .slt x (broadcastInDim S16x2048 ![] bcast_S_S16x2048 (constantI S_ 32 0#32)))
          (addi x (broadcastInDim S16x2048 ![] bcast_S_S16x2048 (constantI S_ 32 N))) x) (ix3 b s (0 : Fin 1))
      = Scalar.select (IntOp.cmpi .slt (x (ix2 b s)) 0#32) (IntOp.addi (x (ix2 b s)) N) (x (ix2 b s)) := by
  rw [broadcastInDim_apply _ bcast_S16x2048_S16x2048x1_0_1 _ (ix3 b s (0 : Fin 1)) (ix2 b s) (fun a => match a with
    | ⟨0, _⟩ => by show b.val = if (16 : Nat) = 1 then 0 else b.val; rw [if_neg (by decide)]
    | ⟨1, _⟩ => by show s.val = if (2048 : Nat) = 1 then 0 else s.val; rw [if_neg (by decide)])]
  show Scalar.select (IntOp.cmpi .slt (x (ix2 b s)) (broadcastInDim S16x2048 ![] bcast_S_S16x2048 (constantI S_ 32 0#32) (ix2 b s)))
      (IntOp.addi (x (ix2 b s)) (broadcastInDim S16x2048 ![] bcast_S_S16x2048 (constantI S_ 32 N) (ix2 b s))) (x (ix2 b s)) = _
  rw [broadcastInDim_apply _ bcast_S_S16x2048 (constantI S_ 32 0#32) (ix2 b s) ix0 (fun a => a.elim0),
    broadcastInDim_apply _ bcast_S_S16x2048 (constantI S_ 32 N) (ix2 b s) ix0 (fun a => a.elim0)]
  rfl

/-- A table read at the row an index word names depends on the word only. -/
theorem row_congr {N D : Nat} (hN : 0 < N) (x : (⟨2, ![N, D]⟩ : Shape).Idx → EReal) (w w' : BitVec 32) (h : w = w') (d : Fin D) :
    x (ix2 (⟨min w.toInt.toNat (N - 1), by omega⟩ : Fin N) d) = x (ix2 (⟨min w'.toInt.toNat (N - 1), by omega⟩ : Fin N) d) := by
  subst h; rfl

/-! ## The arrays as terms of the arguments -/

set_option maxHeartbeats 2000000 in
/-- The gathered token embeddings. -/
theorem term_v22 (c : Dev nD) : (V m c main_v22 : S16x2048x768.Idx → EReal)
    = Host.gather gather_S50000x768_S16x2048x1_S16x2048x768_2_0_n_n_0_2_1768 (X6 m c)
        (broadcastInDim S16x2048x1 ![0, 1] bcast_S16x2048_S16x2048x1_0_1
          (select (cmpi .slt (X3 m c) (broadcastInDim S16x2048 ![] bcast_S_S16x2048 (constantI S_ 32 0#32)))
            (addi (X3 m c) (broadcastInDim S16x2048 ![] bcast_S_S16x2048 (constantI S_ 32 50000#32))) (X3 m c))) := by
  dsimp only [V]
  simp only [hostOps0, hostOps0_1, hostOps0_2, hostOps0_3, hostOps0_4, List.flatten_cons, List.flatten_nil, List.append_nil, List.cons_append, List.nil_append]
  after_results_simp
  try rfl

set_option maxHeartbeats 2000000 in
/-- The first small index array, padded with one zero column. -/
theorem term_v0 (c : Dev nD) : (V m c main_v0 : S16x2048.Idx → BitVec 32)
    = pad S16x2048 ![0, 0] ![0, 1] ![0, 0] (X1 m c) (constantI S_ 32 0#32) pads_S16x2047_S16x2048_000_010 h_S_ := by
  dsimp only [V]
  simp only [hostOps0, hostOps0_1, hostOps0_2, hostOps0_3, hostOps0_4, List.flatten_cons, List.flatten_nil, List.append_nil, List.cons_append, List.nil_append]
  after_results_simp
  try rfl

set_option maxHeartbeats 2000000 in
/-- The second small index array, padded with one zero column. -/
theorem term_v1 (c : Dev nD) : (V m c main_v1 : S16x2048.Idx → BitVec 32)
    = pad S16x2048 ![0, 0] ![0, 1] ![0, 0] (X2 m c) (constantI S_ 32 0#32) pads_S16x2047_S16x2048_000_010 h_S_ := by
  dsimp only [V]
  simp only [hostOps0, hostOps0_1, hostOps0_2, hostOps0_3, hostOps0_4, List.flatten_cons, List.flatten_nil, List.append_nil, List.cons_append, List.nil_append]
  after_results_simp
  try rfl

set_option maxHeartbeats 2000000 in
/-- The first small gathered embeddings, over the padded index array. -/
theorem term_v8 (c : Dev nD) : (V m c main_v8 : S16x2048x128.Idx → EReal)
    = Host.gather gather_S512x128_S16x2048x1_S16x2048x128_2_0_n_n_0_2_1128 (X4 m c)
        (broadcastInDim S16x2048x1 ![0, 1] bcast_S16x2048_S16x2048x1_0_1
          (select (cmpi .slt (pad S16x2048 ![0, 0] ![0, 1] ![0, 0] (X1 m c) (constantI S_ 32 0#32) pads_S16x2047_S16x2048_000_010 h_S_) (broadcastInDim S16x2048 ![] bcast_S_S16x2048 (constantI S_ 32 0#32)))
            (addi (pad S16x2048 ![0, 0] ![0, 1] ![0, 0] (X1 m c) (constantI S_ 32 0#32) pads_S16x2047_S16x2048_000_010 h_S_) (broadcastInDim S16x2048 ![] bcast_S_S16x2048 (constantI S_ 32 512#32)))
            (pad S16x2048 ![0, 0] ![0, 1] ![0, 0] (X1 m c) (constantI S_ 32 0#32) pads_S16x2047_S16x2048_000_010 h_S_))) := by
  dsimp only [V]
  simp only [hostOps0, hostOps0_1, hostOps0_2, hostOps0_3, hostOps0_4, List.flatten_cons, List.flatten_nil, List.append_nil, List.cons_append, List.nil_append]
  after_results_simp
  try rfl

set_option maxHeartbeats 2000000 in
/-- The second small gathered embeddings, over the padded index array. -/
theorem term_v15 (c : Dev nD) : (V m c main_v15 : S16x2048x128.Idx → EReal)
    = Host.gather gather_S512x128_S16x2048x1_S16x2048x128_2_0_n_n_0_2_1128 (X5 m c)
        (broadcastInDim S16x2048x1 ![0, 1] bcast_S16x2048_S16x2048x1_0_1
          (select (cmpi .slt (pad S16x2048 ![0, 0] ![0, 1] ![0, 0] (X2 m c) (constantI S_ 32 0#32) pads_S16x2047_S16x2048_000_010 h_S_) (broadcastInDim S16x2048 ![] bcast_S_S16x2048 (constantI S_ 32 0#32)))
            (addi (pad S16x2048 ![0, 0] ![0, 1] ![0, 0] (X2 m c) (constantI S_ 32 0#32) pads_S16x2047_S16x2048_000_010 h_S_) (broadcastInDim S16x2048 ![] bcast_S_S16x2048 (constantI S_ 32 512#32)))
            (pad S16x2048 ![0, 0] ![0, 1] ![0, 0] (X2 m c) (constantI S_ 32 0#32) pads_S16x2047_S16x2048_000_010 h_S_))) := by
  dsimp only [V]
  simp only [hostOps0, hostOps0_1, hostOps0_2, hostOps0_3, hostOps0_4, List.flatten_cons, List.flatten_nil, List.append_nil, List.cons_append, List.nil_append]
  after_results_simp
  try rfl

set_option maxHeartbeats 2000000 in
theorem term_v24 (c : Dev nD) : (V m c main_v24 : S128x128.Idx → EReal) = truncf (F := Ideal) .bf16 (extractStridedSlice S128x128 ![0, 0] (X7 m c) slices_S128x256_S128x128_0_0) bitsLt_bf16_f32 := by
  dsimp only [V]
  simp only [hostOps0, hostOps0_1, hostOps0_2, hostOps0_3, hostOps0_4, List.flatten_cons, List.flatten_nil, List.append_nil, List.cons_append, List.nil_append]
  after_results_simp
  try rfl

set_option maxHeartbeats 2000000 in
theorem term_v26 (c : Dev nD) : (V m c main_v26 : S128x128.Idx → EReal) = truncf (F := Ideal) .bf16 (extractStridedSlice S128x128 ![0, 128] (X7 m c) slices_S128x256_S128x128_0_128) bitsLt_bf16_f32 := by
  dsimp only [V]
  simp only [hostOps0, hostOps0_1, hostOps0_2, hostOps0_3, hostOps0_4, List.flatten_cons, List.flatten_nil, List.append_nil, List.cons_append, List.nil_append]
  after_results_simp
  try rfl

set_option maxHeartbeats 2000000 in
theorem term_v28 (c : Dev nD) : (V m c main_v28 : S768x768.Idx → EReal) = truncf (F := Ideal) .bf16 (extractStridedSlice S768x768 ![0, 0] (X8 m c) slices_S768x1536_S768x768_0_0) bitsLt_bf16_f32 := by
  dsimp only [V]
  simp only [hostOps0, hostOps0_1, hostOps0_2, hostOps0_3, hostOps0_4, List.flatten_cons, List.flatten_nil, List.append_nil, List.cons_append, List.nil_append]
  after_results_simp
  try rfl

set_option maxHeartbeats 2000000 in
theorem term_v30 (c : Dev nD) : (V m c main_v30 : S768x768.Idx → EReal) = truncf (F := Ideal) .bf16 (extractStridedSlice S768x768 ![0, 768] (X8 m c) slices_S768x1536_S768x768_0_768) bitsLt_bf16_f32 := by
  dsimp only [V]
  simp only [hostOps0, hostOps0_1, hostOps0_2, hostOps0_3, hostOps0_4, List.flatten_cons, List.flatten_nil, List.append_nil, List.cons_append, List.nil_append]
  after_results_simp
  try rfl

set_option maxHeartbeats 2000000 in
theorem term_v32 (c : Dev nD) : (V m c main_v32 : S768x768.Idx → EReal) = truncf (F := Ideal) .bf16 (extractStridedSlice S768x768 ![0, 0] (X9 m c) slices_S768x896_S768x768_0_0) bitsLt_bf16_f32 := by
  dsimp only [V]
  simp only [hostOps0, hostOps0_1, hostOps0_2, hostOps0_3, hostOps0_4, List.flatten_cons, List.flatten_nil, List.append_nil, List.cons_append, List.nil_append]
  after_results_simp
  try rfl

set_option maxHeartbeats 2000000 in
theorem term_v34 (c : Dev nD) : (V m c main_v34 : S768x128.Idx → EReal) = truncf (F := Ideal) .bf16 (extractStridedSlice S768x128 ![0, 768] (X9 m c) slices_S768x896_S768x128_0_768) bitsLt_bf16_f32 := by
  dsimp only [V]
  simp only [hostOps0, hostOps0_1, hostOps0_2, hostOps0_3, hostOps0_4, List.flatten_cons, List.flatten_nil, List.append_nil, List.cons_append, List.nil_append]
  after_results_simp
  try rfl

/-! ## Read at an index -/

/-- The gathered token embeddings at (b, s, h): row `u[b, s]` of the token table. -/
theorem V_v22 (c : Dev nD) (b : Fin 16) (s : Fin 2048) (h : Fin 768) :
    (V m c main_v22 : S16x2048x768.Idx → EReal) (ix3 b s h)
      = X6 m c (ix2 (rowOf 50000 (by decide) 50000#32 (X3 m c (ix2 b s))) h) := by
  rw [term_v22]
  exact (gather_rows_apply (N := 50000) (D := 768) (R := 16) (C := 2048) (by decide)
      Facts₀.gather_S50000x768_S16x2048x1_S16x2048x768_2_0_n_n_0_2_1768_wf (X6 m c) _ b s h).trans
    (row_congr (by decide) (X6 m c) _ _ (word_at (X3 m c) 50000#32 b s) h)

/-- The padded index array inside the array is the array. -/
theorem pad_inside (x : S16x2047.Idx → BitVec 32) (b : Fin 16) (s : Fin 2047) :
    pad S16x2048 ![0, 0] ![0, 1] ![0, 0] x (constantI S_ 32 0#32) pads_S16x2047_S16x2048_000_010 h_S_ (ix2 b (⟨s.val, by omega⟩ : Fin 2048))
      = x (ix2 b s) :=
  pad_apply_of_inside _ _ _ x _ pads_S16x2047_S16x2048_000_010 h_S_ (ix2 b (⟨s.val, by omega⟩ : Fin 2048)) (ix2 b s) (fun a => match a with
    | ⟨0, _⟩ => by show b.val = 0 + b.val * (0 + 1); omega
    | ⟨1, _⟩ => by show s.val = 0 + s.val * (0 + 1); omega)

/-- The first small gathered embeddings at (b, s, i), s < 2047: row `d[b, s]` of the first small table. -/
theorem V_v8 (c : Dev nD) (b : Fin 16) (s : Fin 2047) (i : Fin 128) :
    (V m c main_v8 : S16x2048x128.Idx → EReal) (ix3 b (⟨s.val, by omega⟩ : Fin 2048) i) = de (X1 m c) (X4 m c) b s i := by
  rw [term_v8]
  refine (gather_rows_apply (N := 512) (D := 128) (R := 16) (C := 2048) (by decide)
      Facts₀.gather_S512x128_S16x2048x1_S16x2048x128_2_0_n_n_0_2_1128_wf (X4 m c) _ b (⟨s.val, by omega⟩ : Fin 2048) i).trans ?_
  refine (row_congr (by decide) (X4 m c) _ _ (word_at _ 512#32 b (⟨s.val, by omega⟩ : Fin 2048)) i).trans ?_
  rw [pad_inside]
  rfl

/-- The second small gathered embeddings at (b, s, i), s < 2047: row `c[b, s]` of the second small table. -/
theorem V_v15 (c : Dev nD) (b : Fin 16) (s : Fin 2047) (i : Fin 128) :
    (V m c main_v15 : S16x2048x128.Idx → EReal) (ix3 b (⟨s.val, by omega⟩ : Fin 2048) i) = ce (X2 m c) (X5 m c) b s i := by
  rw [term_v15]
  refine (gather_rows_apply (N := 512) (D := 128) (R := 16) (C := 2048) (by decide)
      Facts₀.gather_S512x128_S16x2048x1_S16x2048x128_2_0_n_n_0_2_1128_wf (X5 m c) _ b (⟨s.val, by omega⟩ : Fin 2048) i).trans ?_
  refine (row_congr (by decide) (X5 m c) _ _ (word_at _ 512#32 b (⟨s.val, by omega⟩ : Fin 2048)) i).trans ?_
  rw [pad_inside]
  rfl

/-- Weight block v24 at (o, i): the matrix at column 0 + i. -/
theorem V_v24 (c : Dev nD) (o : Fin 128) (i : Fin 128) :
    (V m c main_v24 : S128x128.Idx → EReal) (ix2 o i) = X7 m c (ix2 o (⟨i.val, by omega⟩ : Fin 256)) := by
  rw [term_v24]
  show extractStridedSlice S128x128 ![0, 0] (X7 m c) slices_S128x256_S128x128_0_0 (ix2 o i) = _
  exact extractStridedSlice_apply ![0, 0] (X7 m c) slices_S128x256_S128x128_0_0 (ix2 o i) (ix2 o (⟨i.val, by omega⟩ : Fin 256)) (fun a => match a with
    | ⟨0, _⟩ => by show o.val = 0 + o.val; omega
    | ⟨1, _⟩ => by show i.val = 0 + i.val; omega)

/-- Weight block v26 at (o, i): the matrix at column 128 + i. -/
theorem V_v26 (c : Dev nD) (o : Fin 128) (i : Fin 128) :
    (V m c main_v26 : S128x128.Idx → EReal) (ix2 o i) = X7 m c (ix2 o (⟨128 + i.val, by omega⟩ : Fin 256)) := by
  rw [term_v26]
  show extractStridedSlice S128x128 ![0, 128] (X7 m c) slices_S128x256_S128x128_0_128 (ix2 o i) = _
  exact extractStridedSlice_apply ![0, 128] (X7 m c) slices_S128x256_S128x128_0_128 (ix2 o i) (ix2 o (⟨128 + i.val, by omega⟩ : Fin 256)) (fun a => match a with
    | ⟨0, _⟩ => by show o.val = 0 + o.val; omega
    | ⟨1, _⟩ => by show 128 + i.val = 128 + i.val; omega)

/-- Weight block v28 at (o, i): the matrix at column 0 + i. -/
theorem V_v28 (c : Dev nD) (o : Fin 768) (i : Fin 768) :
    (V m c main_v28 : S768x768.Idx → EReal) (ix2 o i) = X8 m c (ix2 o (⟨i.val, by omega⟩ : Fin 1536)) := by
  rw [term_v28]
  show extractStridedSlice S768x768 ![0, 0] (X8 m c) slices_S768x1536_S768x768_0_0 (ix2 o i) = _
  exact extractStridedSlice_apply ![0, 0] (X8 m c) slices_S768x1536_S768x768_0_0 (ix2 o i) (ix2 o (⟨i.val, by omega⟩ : Fin 1536)) (fun a => match a with
    | ⟨0, _⟩ => by show o.val = 0 + o.val; omega
    | ⟨1, _⟩ => by show i.val = 0 + i.val; omega)

/-- Weight block v30 at (o, i): the matrix at column 768 + i. -/
theorem V_v30 (c : Dev nD) (o : Fin 768) (i : Fin 768) :
    (V m c main_v30 : S768x768.Idx → EReal) (ix2 o i) = X8 m c (ix2 o (⟨768 + i.val, by omega⟩ : Fin 1536)) := by
  rw [term_v30]
  show extractStridedSlice S768x768 ![0, 768] (X8 m c) slices_S768x1536_S768x768_0_768 (ix2 o i) = _
  exact extractStridedSlice_apply ![0, 768] (X8 m c) slices_S768x1536_S768x768_0_768 (ix2 o i) (ix2 o (⟨768 + i.val, by omega⟩ : Fin 1536)) (fun a => match a with
    | ⟨0, _⟩ => by show o.val = 0 + o.val; omega
    | ⟨1, _⟩ => by show 768 + i.val = 768 + i.val; omega)

/-- Weight block v32 at (o, i): the matrix at column 0 + i. -/
theorem V_v32 (c : Dev nD) (o : Fin 768) (i : Fin 768) :
    (V m c main_v32 : S768x768.Idx → EReal) (ix2 o i) = X9 m c (ix2 o (⟨i.val, by omega⟩ : Fin 896)) := by
  rw [term_v32]
  show extractStridedSlice S768x768 ![0, 0] (X9 m c) slices_S768x896_S768x768_0_0 (ix2 o i) = _
  exact extractStridedSlice_apply ![0, 0] (X9 m c) slices_S768x896_S768x768_0_0 (ix2 o i) (ix2 o (⟨i.val, by omega⟩ : Fin 896)) (fun a => match a with
    | ⟨0, _⟩ => by show o.val = 0 + o.val; omega
    | ⟨1, _⟩ => by show i.val = 0 + i.val; omega)

/-- Weight block v34 at (o, i): the matrix at column 768 + i. -/
theorem V_v34 (c : Dev nD) (o : Fin 768) (i : Fin 128) :
    (V m c main_v34 : S768x128.Idx → EReal) (ix2 o i) = X9 m c (ix2 o (⟨768 + i.val, by omega⟩ : Fin 896)) := by
  rw [term_v34]
  show extractStridedSlice S768x128 ![0, 768] (X9 m c) slices_S768x896_S768x128_0_768 (ix2 o i) = _
  exact extractStridedSlice_apply ![0, 768] (X9 m c) slices_S768x896_S768x128_0_768 (ix2 o i) (ix2 o (⟨768 + i.val, by omega⟩ : Fin 896)) (fun a => match a with
    | ⟨0, _⟩ => by show o.val = 0 + o.val; omega
    | ⟨1, _⟩ => by show 768 + i.val = 768 + i.val; omega)

end Cert.KernelIdeal.HValue

end
-- ==== Proof.BlocksKI.lean ====
/-
  What the region leaves in the result array: the specification, entry by entry.

  Point t = (b, s) of the 16 × 8 grid fetches, for batch b and sequence tile s, rows 256 s … 256 s + 255 of seqs and of
  the gathered token embeddings, the rows just before and just after them (row 7 of the 8-row slab ending at the tile,
  row 0 of the slab starting after it; at the two ends of the sequence a row of the nearest slab, which the masks
  discard), the tile's rows of the two small gathered embeddings with the row before, and the six whole weight blocks.
  So the tile's 258 rows of su are the global rows 256 s − 1 … 256 s + 256 wherever those exist, its 257 rows of the
  small embeddings the global rows 256 s − 1 … 256 s + 255, and what the body stores is rows 256 s … 256 s + 255 of
  the specification for batch b.  The 128 output tiles cover the result array, which therefore ends at the specification.
-/
import proofs.«124179_j78331613544613_1_alg».proof.Proof.RunKI
import proofs.«124179_j78331613544613_1_alg».proof.Proof.VArr

set_option maxRecDepth 16384

noncomputable section

namespace Cert.KernelIdeal.HValue

open Cert.KernelIdeal Cert.KernelIdeal.Gen Cert.KernelIdeal.HFrame
open Idealize.ShloMosaic Idealize.ShloMosaic.TcCoe Idealize.SL.Sem Idealize.ShloMosaic.ValueIdx
open Idealize.ShloMosaic.Pipeline (Dat Cfg Window)
open Cert.Spec

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-! ## The schedule, decided over the grid -/

/-- The block index of every window at every point, and the point's coordinates. -/
theorem idx_facts : ∀ t : Fin cfg0.N,
    win0_16.index t (0 : Fin 3) = t.val / 8 ∧ win0_16.index t (1 : Fin 3) = t.val % 8 ∧ win0_16.index t (2 : Fin 3) = 0
  ∧ win0_0.index t = win0_16.index t ∧ win0_3.index t = win0_16.index t ∧ win0_6.index t = win0_16.index t ∧ win0_8.index t = win0_16.index t
  ∧ win0_1.index t (0 : Fin 3) = t.val / 8 ∧ win0_1.index t (1 : Fin 3) = (if t.val % 8 = 0 then 0 else 32 * (t.val % 8) - 1) ∧ win0_1.index t (2 : Fin 3) = 0
  ∧ win0_4.index t = win0_1.index t ∧ win0_7.index t = win0_1.index t ∧ win0_9.index t = win0_1.index t
  ∧ win0_2.index t (0 : Fin 3) = t.val / 8 ∧ win0_2.index t (1 : Fin 3) = (if t.val % 8 = 7 then 255 else 32 * (t.val % 8 + 1)) ∧ win0_2.index t (2 : Fin 3) = 0
  ∧ win0_5.index t = win0_2.index t
  ∧ win0_10.index t = ![0, 0] ∧ win0_11.index t = ![0, 0] ∧ win0_12.index t = ![0, 0] ∧ win0_13.index t = ![0, 0] ∧ win0_14.index t = ![0, 0] ∧ win0_15.index t = ![0, 0]
  ∧ (grid0.coords t (1 : Fin 2)).val = t.val % 8 :=
  (by decide +kernel : ∀ t : Fin grid0.N, _)

theorem t_lt (t : Fin cfg0.N) : t.val < 128 := lt_of_lt_of_eq t.isLt N_0

/-- The batch and the sequence tile of point `t`. -/
def tb (t : Fin cfg0.N) : Fin 16 := ⟨t.val / 8, by have := t_lt t; omega⟩
def ts (t : Fin cfg0.N) : Fin 8 := ⟨t.val % 8, by omega⟩

/-- Global rows: row `p` of tile `s`; the row fetched as "before" the tile; the row fetched as "after" it. -/
def gRow (s : Fin 8) (p : Fin 256) : Fin 2048 := ⟨256 * s.val + p.val, by omega⟩
def gBefore (s : Fin 8) : Fin 2048 := ⟨if s.val = 0 then 7 else 256 * s.val - 1, by split <;> omega⟩
def gAfter (s : Fin 8) : Fin 2048 := ⟨if s.val = 7 then 2040 else 256 * (s.val + 1), by split <;> omega⟩

/-! ## The loads' rectangles -/

theorem ld_B768 (X : Vec Ideal S1x8x768 .f32) (h : Fin 768) : View.ld (Val := Elt Ideal) X rB768 (ix3 (0 : Fin 1) (0 : Fin 1) h) = X (ix3 (0 : Fin 1) (7 : Fin 8) h) :=
  congrArg X (funext fun a => Fin.ext (match a with
    | ⟨0, _⟩ => rfl
    | ⟨1, _⟩ => rfl
    | ⟨2, _⟩ => by show 0 + 1 * h.val = h.val; omega))
theorem ld_A768 (X : Vec Ideal S1x8x768 .f32) (h : Fin 768) : View.ld (Val := Elt Ideal) X rA768 (ix3 (0 : Fin 1) (0 : Fin 1) h) = X (ix3 (0 : Fin 1) (0 : Fin 8) h) :=
  congrArg X (funext fun a => Fin.ext (match a with
    | ⟨0, _⟩ => rfl
    | ⟨1, _⟩ => rfl
    | ⟨2, _⟩ => by show 0 + 1 * h.val = h.val; omega))
theorem ld_B128 (X : Vec Ideal S1x8x128 .f32) (h : Fin 128) : View.ld (Val := Elt Ideal) X rB128 (ix3 (0 : Fin 1) (0 : Fin 1) h) = X (ix3 (0 : Fin 1) (7 : Fin 8) h) :=
  congrArg X (funext fun a => Fin.ext (match a with
    | ⟨0, _⟩ => rfl
    | ⟨1, _⟩ => rfl
    | ⟨2, _⟩ => by show 0 + 1 * h.val = h.val; omega))

/-! ## The blocks, read at an index of the array -/

theorem blk0 (c : Dev nD) (t : Fin cfg0.N) (p : Fin 256) (h : Fin 768) :
    iblk m c 0 t (ix3 (0 : Fin 1) p h) = (V m c main_arg0 : S16x2048x768.Idx → EReal) (ix3 (tb t) (gRow (ts t) p) h) := by
  obtain ⟨e0, e1, e2, f0, f3, f6, f8, -⟩ := idx_facts t
  have g0 := congrFun f0 (0 : Fin 3); have g1 := congrFun f0 (1 : Fin 3); have g2 := congrFun f0 (2 : Fin 3)
  show (V m c main_arg0 : S16x2048x768.Idx → EReal) (((cfg0.win 0).blk t).view.emb (ix3 (0 : Fin 1) p h)) = _
  refine congrArg _ (funext fun a => Fin.ext ?_)
  match a with
  | ⟨0, _⟩ => show win0_0.index t (0 : Fin 3) * 1 + 1 * 0 = t.val / 8; omega
  | ⟨1, _⟩ => show win0_0.index t (1 : Fin 3) * 256 + 1 * p.val = 256 * (t.val % 8) + p.val; omega
  | ⟨2, _⟩ => show win0_0.index t (2 : Fin 3) * 768 + 1 * h.val = h.val; omega

theorem blk3 (c : Dev nD) (t : Fin cfg0.N) (p : Fin 256) (h : Fin 768) :
    iblk m c 3 t (ix3 (0 : Fin 1) p h) = (V m c main_v22 : S16x2048x768.Idx → EReal) (ix3 (tb t) (gRow (ts t) p) h) := by
  obtain ⟨e0, e1, e2, f0, f3, f6, f8, -⟩ := idx_facts t
  have g0 := congrFun f3 (0 : Fin 3); have g1 := congrFun f3 (1 : Fin 3); have g2 := congrFun f3 (2 : Fin 3)
  show (V m c main_v22 : S16x2048x768.Idx → EReal) (((cfg0.win 3).blk t).view.emb (ix3 (0 : Fin 1) p h)) = _
  refine congrArg _ (funext fun a => Fin.ext ?_)
  match a with
  | ⟨0, _⟩ => show win0_3.index t (0 : Fin 3) * 1 + 1 * 0 = t.val / 8; omega
  | ⟨1, _⟩ => show win0_3.index t (1 : Fin 3) * 256 + 1 * p.val = 256 * (t.val % 8) + p.val; omega
  | ⟨2, _⟩ => show win0_3.index t (2 : Fin 3) * 768 + 1 * h.val = h.val; omega

theorem blk6 (c : Dev nD) (t : Fin cfg0.N) (p : Fin 256) (h : Fin 128) :
    iblk m c 6 t (ix3 (0 : Fin 1) p h) = (V m c main_v8 : S16x2048x128.Idx → EReal) (ix3 (tb t) (gRow (ts t) p) h) := by
  obtain ⟨e0, e1, e2, f0, f3, f6, f8, -⟩ := idx_facts t
  have g0 := congrFun f6 (0 : Fin 3); have g1 := congrFun f6 (1 : Fin 3); have g2 := congrFun f6 (2 : Fin 3)
  show (V m c main_v8 : S16x2048x128.Idx → EReal) (((cfg0.win 6).blk t).view.emb (ix3 (0 : Fin 1) p h)) = _
  refine congrArg _ (funext fun a => Fin.ext ?_)
  match a with
  | ⟨0, _⟩ => show win0_6.index t (0 : Fin 3) * 1 + 1 * 0 = t.val / 8; omega
  | ⟨1, _⟩ => show win0_6.index t (1 : Fin 3) * 256 + 1 * p.val = 256 * (t.val % 8) + p.val; omega
  | ⟨2, _⟩ => show win0_6.index t (2 : Fin 3) * 128 + 1 * h.val = h.val; omega

theorem blk8 (c : Dev nD) (t : Fin cfg0.N) (p : Fin 256) (h : Fin 128) :
    iblk m c 8 t (ix3 (0 : Fin 1) p h) = (V m c main_v15 : S16x2048x128.Idx → EReal) (ix3 (tb t) (gRow (ts t) p) h) := by
  obtain ⟨e0, e1, e2, f0, f3, f6, f8, -⟩ := idx_facts t
  have g0 := congrFun f8 (0 : Fin 3); have g1 := congrFun f8 (1 : Fin 3); have g2 := congrFun f8 (2 : Fin 3)
  show (V m c main_v15 : S16x2048x128.Idx → EReal) (((cfg0.win 8).blk t).view.emb (ix3 (0 : Fin 1) p h)) = _
  refine congrArg _ (funext fun a => Fin.ext ?_)
  match a with
  | ⟨0, _⟩ => show win0_8.index t (0 : Fin 3) * 1 + 1 * 0 = t.val / 8; omega
  | ⟨1, _⟩ => show win0_8.index t (1 : Fin 3) * 256 + 1 * p.val = 256 * (t.val % 8) + p.val; omega
  | ⟨2, _⟩ => show win0_8.index t (2 : Fin 3) * 128 + 1 * h.val = h.val; omega

theorem blk1 (c : Dev nD) (t : Fin cfg0.N) (h : Fin 768) :
    iblk m c 1 t (ix3 (0 : Fin 1) (7 : Fin 8) h) = (V m c main_arg0 : S16x2048x768.Idx → EReal) (ix3 (tb t) (gBefore (ts t)) h) := by
  obtain ⟨-, -, -, -, -, -, -, e0, e1, e2, f4, f7, f9, -⟩ := idx_facts t
  have g0 := e0; have g1 := e1; have g2 := e2
  show (V m c main_arg0 : S16x2048x768.Idx → EReal) (((cfg0.win 1).blk t).view.emb (ix3 (0 : Fin 1) (7 : Fin 8) h)) = _
  refine congrArg _ (funext fun a => Fin.ext ?_)
  match a with
  | ⟨0, _⟩ => show win0_1.index t (0 : Fin 3) * 1 + 1 * 0 = t.val / 8; omega
  | ⟨1, _⟩ =>
    show win0_1.index t (1 : Fin 3) * 8 + 1 * 7 = (if t.val % 8 = 0 then 7 else 256 * (t.val % 8) - 1)
    rw [g1]; split <;> omega
  | ⟨2, _⟩ => show win0_1.index t (2 : Fin 3) * 768 + 1 * h.val = h.val; omega

theorem blk4 (c : Dev nD) (t : Fin cfg0.N) (h : Fin 768) :
    iblk m c 4 t (ix3 (0 : Fin 1) (7 : Fin 8) h) = (V m c main_v22 : S16x2048x768.Idx → EReal) (ix3 (tb t) (gBefore (ts t)) h) := by
  obtain ⟨-, -, -, -, -, -, -, e0, e1, e2, f4, f7, f9, -⟩ := idx_facts t
  have g0 := (congrFun f4 (0 : Fin 3)).trans e0; have g1 := (congrFun f4 (1 : Fin 3)).trans e1; have g2 := (congrFun f4 (2 : Fin 3)).trans e2
  show (V m c main_v22 : S16x2048x768.Idx → EReal) (((cfg0.win 4).blk t).view.emb (ix3 (0 : Fin 1) (7 : Fin 8) h)) = _
  refine congrArg _ (funext fun a => Fin.ext ?_)
  match a with
  | ⟨0, _⟩ => show win0_4.index t (0 : Fin 3) * 1 + 1 * 0 = t.val / 8; omega
  | ⟨1, _⟩ =>
    show win0_4.index t (1 : Fin 3) * 8 + 1 * 7 = (if t.val % 8 = 0 then 7 else 256 * (t.val % 8) - 1)
    rw [g1]; split <;> omega
  | ⟨2, _⟩ => show win0_4.index t (2 : Fin 3) * 768 + 1 * h.val = h.val; omega

theorem blk7 (c : Dev nD) (t : Fin cfg0.N) (h : Fin 128) :
    iblk m c 7 t (ix3 (0 : Fin 1) (7 : Fin 8) h) = (V m c main_v8 : S16x2048x128.Idx → EReal) (ix3 (tb t) (gBefore (ts t)) h) := by
  obtain ⟨-, -, -, -, -, -, -, e0, e1, e2, f4, f7, f9, -⟩ := idx_facts t
  have g0 := (congrFun f7 (0 : Fin 3)).trans e0; have g1 := (congrFun f7 (1 : Fin 3)).trans e1; have g2 := (congrFun f7 (2 : Fin 3)).trans e2
  show (V m c main_v8 : S16x2048x128.Idx → EReal) (((cfg0.win 7).blk t).view.emb (ix3 (0 : Fin 1) (7 : Fin 8) h)) = _
  refine congrArg _ (funext fun a => Fin.ext ?_)
  match a with
  | ⟨0, _⟩ => show win0_7.index t (0 : Fin 3) * 1 + 1 * 0 = t.val / 8; omega
  | ⟨1, _⟩ =>
    show win0_7.index t (1 : Fin 3) * 8 + 1 * 7 = (if t.val % 8 = 0 then 7 else 256 * (t.val % 8) - 1)
    rw [g1]; split <;> omega
  | ⟨2, _⟩ => show win0_7.index t (2 : Fin 3) * 128 + 1 * h.val = h.val; omega

theorem blk9 (c : Dev nD) (t : Fin cfg0.N) (h : Fin 128) :
    iblk m c 9 t (ix3 (0 : Fin 1) (7 : Fin 8) h) = (V m c main_v15 : S16x2048x128.Idx → EReal) (ix3 (tb t) (gBefore (ts t)) h) := by
  obtain ⟨-, -, -, -, -, -, -, e0, e1, e2, f4, f7, f9, -⟩ := idx_facts t
  have g0 := (congrFun f9 (0 : Fin 3)).trans e0; have g1 := (congrFun f9 (1 : Fin 3)).trans e1; have g2 := (congrFun f9 (2 : Fin 3)).trans e2
  show (V m c main_v15 : S16x2048x128.Idx → EReal) (((cfg0.win 9).blk t).view.emb (ix3 (0 : Fin 1) (7 : Fin 8) h)) = _
  refine congrArg _ (funext fun a => Fin.ext ?_)
  match a with
  | ⟨0, _⟩ => show win0_9.index t (0 : Fin 3) * 1 + 1 * 0 = t.val / 8; omega
  | ⟨1, _⟩ =>
    show win0_9.index t (1 : Fin 3) * 8 + 1 * 7 = (if t.val % 8 = 0 then 7 else 256 * (t.val % 8) - 1)
    rw [g1]; split <;> omega
  | ⟨2, _⟩ => show win0_9.index t (2 : Fin 3) * 128 + 1 * h.val = h.val; omega

theorem blk2 (c : Dev nD) (t : Fin cfg0.N) (h : Fin 768) :
    iblk m c 2 t (ix3 (0 : Fin 1) (0 : Fin 8) h) = (V m c main_arg0 : S16x2048x768.Idx → EReal) (ix3 (tb t) (gAfter (ts t)) h) := by
  obtain ⟨-, -, -, -, -, -, -, -, -, -, -, -, -, e0, e1, e2, f5, -⟩ := idx_facts t
  have g0 := e0; have g1 := e1; have g2 := e2
  show (V m c main_arg0 : S16x2048x768.Idx → EReal) (((cfg0.win 2).blk t).view.emb (ix3 (0 : Fin 1) (0 : Fin 8) h)) = _
  refine congrArg _ (funext fun a => Fin.ext ?_)
  match a with
  | ⟨0, _⟩ => show win0_2.index t (0 : Fin 3) * 1 + 1 * 0 = t.val / 8; omega
  | ⟨1, _⟩ =>
    show win0_2.index t (1 : Fin 3) * 8 + 1 * 0 = (if t.val % 8 = 7 then 2040 else 256 * (t.val % 8 + 1))
    rw [g1]; split <;> omega
  | ⟨2, _⟩ => show win0_2.index t (2 : Fin 3) * 768 + 1 * h.val = h.val; omega

theorem blk5 (c : Dev nD) (t : Fin cfg0.N) (h : Fin 768) :
    iblk m c 5 t (ix3 (0 : Fin 1) (0 : Fin 8) h) = (V m c main_v22 : S16x2048x768.Idx → EReal) (ix3 (tb t) (gAfter (ts t)) h) := by
  obtain ⟨-, -, -, -, -, -, -, -, -, -, -, -, -, e0, e1, e2, f5, -⟩ := idx_facts t
  have g0 := (congrFun f5 (0 : Fin 3)).trans e0; have g1 := (congrFun f5 (1 : Fin 3)).trans e1; have g2 := (congrFun f5 (2 : Fin 3)).trans e2
  show (V m c main_v22 : S16x2048x768.Idx → EReal) (((cfg0.win 5).blk t).view.emb (ix3 (0 : Fin 1) (0 : Fin 8) h)) = _
  refine congrArg _ (funext fun a => Fin.ext ?_)
  match a with
  | ⟨0, _⟩ => show win0_5.index t (0 : Fin 3) * 1 + 1 * 0 = t.val / 8; omega
  | ⟨1, _⟩ =>
    show win0_5.index t (1 : Fin 3) * 8 + 1 * 0 = (if t.val % 8 = 7 then 2040 else 256 * (t.val % 8 + 1))
    rw [g1]; split <;> omega
  | ⟨2, _⟩ => show win0_5.index t (2 : Fin 3) * 768 + 1 * h.val = h.val; omega

theorem blk10 (c : Dev nD) (t : Fin cfg0.N) (o : Fin 128) (i : Fin 128) :
    iblk m c 10 t (ix2 o i) = (V m c main_v24 : S128x128.Idx → EReal) (ix2 o i) := by
  have e := (idx_facts t).2.2.2.2.2.2.2.2.2.2.2.2.2.2.2.2.2.1
  have g0 := congrFun e (0 : Fin 2); have g1 := congrFun e (1 : Fin 2)
  show (V m c main_v24 : S128x128.Idx → EReal) (((cfg0.win 10).blk t).view.emb (ix2 o i)) = _
  refine congrArg _ (funext fun a => Fin.ext ?_)
  match a with
  | ⟨0, _⟩ => show win0_10.index t (0 : Fin 2) * 128 + 1 * o.val = o.val; rw [g0]; show 0 * 128 + 1 * o.val = o.val; omega
  | ⟨1, _⟩ => show win0_10.index t (1 : Fin 2) * 128 + 1 * i.val = i.val; rw [g1]; show 0 * 128 + 1 * i.val = i.val; omega

theorem blk11 (c : Dev nD) (t : Fin cfg0.N) (o : Fin 128) (i : Fin 128) :
    iblk m c 11 t (ix2 o i) = (V m c main_v26 : S128x128.Idx → EReal) (ix2 o i) := by
  have e := (idx_facts t).2.2.2.2.2.2.2.2.2.2.2.2.2.2.2.2.2.2.1
  have g0 := congrFun e (0 : Fin 2); have g1 := congrFun e (1 : Fin 2)
  show (V m c main_v26 : S128x128.Idx → EReal) (((cfg0.win 11).blk t).view.emb (ix2 o i)) = _
  refine congrArg _ (funext fun a => Fin.ext ?_)
  match a with
  | ⟨0, _⟩ => show win0_11.index t (0 : Fin 2) * 128 + 1 * o.val = o.val; rw [g0]; show 0 * 128 + 1 * o.val = o.val; omega
  | ⟨1, _⟩ => show win0_11.index t (1 : Fin 2) * 128 + 1 * i.val = i.val; rw [g1]; show 0 * 128 + 1 * i.val = i.val; omega

theorem blk12 (c : Dev nD) (t : Fin cfg0.N) (o : Fin 768) (i : Fin 768) :
    iblk m c 12 t (ix2 o i) = (V m c main_v28 : S768x768.Idx → EReal) (ix2 o i) := by
  have e := (idx_facts t).2.2.2.2.2.2.2.2.2.2.2.2.2.2.2.2.2.2.2.1
  have g0 := congrFun e (0 : Fin 2); have g1 := congrFun e (1 : Fin 2)
  show (V m c main_v28 : S768x768.Idx → EReal) (((cfg0.win 12).blk t).view.emb (ix2 o i)) = _
  refine congrArg _ (funext fun a => Fin.ext ?_)
  match a with
  | ⟨0, _⟩ => show win0_12.index t (0 : Fin 2) * 768 + 1 * o.val = o.val; rw [g0]; show 0 * 768 + 1 * o.val = o.val; omega
  | ⟨1, _⟩ => show win0_12.index t (1 : Fin 2) * 768 + 1 * i.val = i.val; rw [g1]; show 0 * 768 + 1 * i.val = i.val; omega

theorem blk13 (c : Dev nD) (t : Fin cfg0.N) (o : Fin 768) (i : Fin 768) :
    iblk m c 13 t (ix2 o i) = (V m c main_v30 : S768x768.Idx → EReal) (ix2 o i) := by
  have e := (idx_facts t).2.2.2.2.2.2.2.2.2.2.2.2.2.2.2.2.2.2.2.2.1
  have g0 := congrFun e (0 : Fin 2); have g1 := congrFun e (1 : Fin 2)
  show (V m c main_v30 : S768x768.Idx → EReal) (((cfg0.win 13).blk t).view.emb (ix2 o i)) = _
  refine congrArg _ (funext fun a => Fin.ext ?_)
  match a with
  | ⟨0, _⟩ => show win0_13.index t (0 : Fin 2) * 768 + 1 * o.val = o.val; rw [g0]; show 0 * 768 + 1 * o.val = o.val; omega
  | ⟨1, _⟩ => show win0_13.index t (1 : Fin 2) * 768 + 1 * i.val = i.val; rw [g1]; show 0 * 768 + 1 * i.val = i.val; omega

theorem blk14 (c : Dev nD) (t : Fin cfg0.N) (o : Fin 768) (i : Fin 768) :
    iblk m c 14 t (ix2 o i) = (V m c main_v32 : S768x768.Idx → EReal) (ix2 o i) := by
  have e := (idx_facts t).2.2.2.2.2.2.2.2.2.2.2.2.2.2.2.2.2.2.2.2.2.1
  have g0 := congrFun e (0 : Fin 2); have g1 := congrFun e (1 : Fin 2)
  show (V m c main_v32 : S768x768.Idx → EReal) (((cfg0.win 14).blk t).view.emb (ix2 o i)) = _
  refine congrArg _ (funext fun a => Fin.ext ?_)
  match a with
  | ⟨0, _⟩ => show win0_14.index t (0 : Fin 2) * 768 + 1 * o.val = o.val; rw [g0]; show 0 * 768 + 1 * o.val = o.val; omega
  | ⟨1, _⟩ => show win0_14.index t (1 : Fin 2) * 768 + 1 * i.val = i.val; rw [g1]; show 0 * 768 + 1 * i.val = i.val; omega

theorem blk15 (c : Dev nD) (t : Fin cfg0.N) (o : Fin 768) (i : Fin 128) :
    iblk m c 15 t (ix2 o i) = (V m c main_v34 : S768x128.Idx → EReal) (ix2 o i) := by
  have e := (idx_facts t).2.2.2.2.2.2.2.2.2.2.2.2.2.2.2.2.2.2.2.2.2.2.1
  have g0 := congrFun e (0 : Fin 2); have g1 := congrFun e (1 : Fin 2)
  show (V m c main_v34 : S768x128.Idx → EReal) (((cfg0.win 15).blk t).view.emb (ix2 o i)) = _
  refine congrArg _ (funext fun a => Fin.ext ?_)
  match a with
  | ⟨0, _⟩ => show win0_15.index t (0 : Fin 2) * 768 + 1 * o.val = o.val; rw [g0]; show 0 * 768 + 1 * o.val = o.val; omega
  | ⟨1, _⟩ => show win0_15.index t (1 : Fin 2) * 128 + 1 * i.val = i.val; rw [g1]; show 0 * 128 + 1 * i.val = i.val; omega

end Cert.KernelIdeal.HValue

end
-- ==== Proof.Tile.lean ====
/-
  One sequence tile of the kernel, entry by entry, on the extended reals.

  A tile sees 258 consecutive rows `a` of su (the row before the tile, its 256 rows, the row after it) and 257
  rows `d`, `c` of the two small embeddings (the row before the tile and its 256 rows). Pair `r` (0 ≤ r < 257)
  joins rows `r` and `r + 1` of `a` with row `r` of `d` and `c`:
      dcT r = relu (wd d[r] + wc c[r]),  phT r = relu (wl a[r] + wr a[r+1]),  mT r = relu (wp phT[r] + wq dcT[r]),
  and the tile's row `p` (0 ≤ p < 256) is  a[p+1] + lt[p] · mT[p+1] + ge[p] · mT[p],  with `lt`, `ge` the two row masks.
  The weights are given as functions of (output, input) coordinates.
-/
import Idealize.ShloMosaic.PureOps.Ideal
import Idealize.ShloMosaic.Lib.ValueIdx
import proofs.«124179_j78331613544613_1_alg».proof.Proof.Spec

noncomputable section

namespace Cert.Tile

open Cert.Spec

section

variable (a : Fin 258 → Fin 768 → EReal) (d c : Fin 257 → Fin 128 → EReal)
  (wd wc : Fin 128 → Fin 128 → EReal) (wl wr wp : Fin 768 → Fin 768 → EReal) (wq : Fin 768 → Fin 128 → EReal)

/-- The mixed small embeddings of pair `r`. -/
def dcT (r : Fin 257) (o : Fin 128) : EReal :=
  relu ((∑ i : Fin 128, d r i * wd o i) + ∑ i : Fin 128, c r i * wc o i)

/-- The hidden mix of pair `r`: rows `r` and `r + 1` of `a`. -/
def phT (r : Fin 257) (o : Fin 768) : EReal :=
  relu ((∑ i : Fin 768, a (⟨r.val, by omega⟩ : Fin 258) i * wl o i)
      + ∑ i : Fin 768, a (⟨r.val + 1, by omega⟩ : Fin 258) i * wr o i)

/-- Pair `r`'s contribution. -/
def mT (r : Fin 257) (o : Fin 768) : EReal :=
  relu ((∑ i : Fin 768, phT a wl wr r i * wp o i) + ∑ i : Fin 128, dcT d c wd wc r i * wq o i)

/-- Row `p` of the tile's result under the row masks `lt` (the pair starting at the row) and `ge` (the pair ending at it). -/
def outT (lt ge : Fin 256 → EReal) (p : Fin 256) (q : Fin 768) : EReal :=
  (a (⟨p.val + 1, by omega⟩ : Fin 258) q + lt p * mT a d c wd wc wl wr wp wq (⟨p.val + 1, by omega⟩ : Fin 257) q)
    + ge p * mT a d c wd wc wl wr wp wq (⟨p.val, by omega⟩ : Fin 257) q

end

/-- Pair `r` reads only rows `r`, `r + 1` of `a` and row `r` of `d`, `c`. -/
theorem mT_congr {a a' : Fin 258 → Fin 768 → EReal} {d d' c c' : Fin 257 → Fin 128 → EReal}
    (wd wc : Fin 128 → Fin 128 → EReal) (wl wr wp : Fin 768 → Fin 768 → EReal) (wq : Fin 768 → Fin 128 → EReal)
    (r : Fin 257) (ha : a ⟨r.val, by omega⟩ = a' ⟨r.val, by omega⟩) (ha' : a ⟨r.val + 1, by omega⟩ = a' ⟨r.val + 1, by omega⟩)
    (hd : d r = d' r) (hc : c r = c' r) (o : Fin 768) :
    mT a d c wd wc wl wr wp wq r o = mT a' d' c' wd wc wl wr wp wq r o := by
  unfold mT phT dcT
  rw [ha, ha', hd, hc]

/-! ## A tile's rows from what the body loads -/

open Idealize.ShloMosaic Idealize.ShloMosaic.ValueIdx

/-- The 258 rows of su a tile sees, from its six loads: the border rows are sums of one loaded row each, the middle
    256 rows the sum of the two main blocks. -/
def aOf (v0 v2 : A3 1 256 768 → EReal) (v5 v7 v10 v12 : A3 1 1 768 → EReal) (r : Fin 258) (h : Fin 768) : EReal :=
  if r.val = 0 then v5 (ix3 0 0 h) + v7 (ix3 0 0 h)
  else if hr : r.val ≤ 256 then v0 (ix3 0 (⟨r.val - 1, by omega⟩ : Fin 256) h) + v2 (ix3 0 (⟨r.val - 1, by omega⟩ : Fin 256) h)
  else v10 (ix3 0 0 h) + v12 (ix3 0 0 h)

/-- The 257 rows of a small embedding a tile sees: the loaded border row, then the main block's 256 rows. -/
def dOf (v20 : A3 1 256 128 → EReal) (v22 : A3 1 1 128 → EReal) (r : Fin 257) (i : Fin 128) : EReal :=
  if hr : r.val = 0 then v22 (ix3 0 0 i) else v20 (ix3 0 (⟨r.val - 1, by omega⟩ : Fin 256) i)

/-- The row masks of sequence tile `t`: global row `256 t + p` is below 2047; is at least 2. -/
def ltOf (t : Fin 8) (p : Fin 256) : EReal := if t.val * 256 + p.val < 2047 then 1 else 0
def geOf (t : Fin 8) (p : Fin 256) : EReal := if 2 ≤ t.val * 256 + p.val then 1 else 0

end Cert.Tile

end
-- ==== Proof.LibRowStack.lean ====
/-
  Two matrices stacked one above the other, read at an entry.

  Concatenating an [a, n] array and a [b, n] array along axis 0 gives a [c, n] array (c = a + b) whose first a rows
  are the first array's rows and whose remaining rows are the second array's, in order. Read at entry (r, q): for
  r < a it is the first array at (r, q); for r = a + p it is the second array at (p, q). The statements are general
  in the extents, so one file serves every such stacking in a program.
-/
import Idealize.ShloMosaic.Lib.Pipeline.Value
import Idealize.ShloMosaic.Lib.ValueIdx

noncomputable section

namespace Cert.RowStack

open Idealize.ShloMosaic Idealize.ShloMosaic.ValueIdx

variable {α : Type} {a b c n : ℕ}

/-- A row of the stack that lies in the upper part is that row of the first array. -/
theorem stack_top (x : (⟨2, ![a, n]⟩ : Shape).Idx → α) (y : (⟨2, ![b, n]⟩ : Shape).Idx → α)
    (h : Shape.Concatenates [⟨2, ![a, n]⟩, ⟨2, ![b, n]⟩] ⟨2, ![c, n]⟩ 0) (r : Fin c) (q : Fin n) (p : Fin a) (hp : p.val = r.val) :
    concatenate ⟨2, ![c, n]⟩ 0 [⟨⟨2, ![a, n]⟩, x⟩, ⟨⟨2, ![b, n]⟩, y⟩] h (ix2 r q) = x (ix2 p q) :=
  concatenate_pair_apply_left (t := ⟨2, ![c, n]⟩) (s₁ := ⟨2, ![a, n]⟩) (s₂ := ⟨2, ![b, n]⟩) (0 : Fin 2) x y h (ix2 r q) rfl (ix2 p q) (fun ax => by
    match ax with
    | ⟨0, _⟩ => exact hp
    | ⟨1, _⟩ => rfl)

/-- A row of the stack that lies in the lower part, the a-th row or later, is the row that many places earlier of
    the second array. -/
theorem stack_bot (x : (⟨2, ![a, n]⟩ : Shape).Idx → α) (y : (⟨2, ![b, n]⟩ : Shape).Idx → α)
    (h : Shape.Concatenates [⟨2, ![a, n]⟩, ⟨2, ![b, n]⟩] ⟨2, ![c, n]⟩ 0) (r : Fin c) (q : Fin n) (p : Fin b) (hp : p.val + a = r.val) :
    concatenate ⟨2, ![c, n]⟩ 0 [⟨⟨2, ![a, n]⟩, x⟩, ⟨⟨2, ![b, n]⟩, y⟩] h (ix2 r q) = y (ix2 p q) :=
  concatenate_pair_apply_right (t := ⟨2, ![c, n]⟩) (s₁ := ⟨2, ![a, n]⟩) (s₂ := ⟨2, ![b, n]⟩) (0 : Fin 2) x y h (ix2 r q) rfl rfl (ix2 p q)
    (fun ax hax => by
      match ax with
      | ⟨0, _⟩ => exact absurd rfl hax
      | ⟨1, _⟩ => rfl) (by exact hp)

end Cert.RowStack

end
-- ==== Proof.LibRowStack3.lean ====
/-
  Three matrices stacked one above the other, read at an entry.

  Concatenating an [a, n], a [b, n] and a [c, n] array along axis 0 gives a [d, n] array (d = a + b + c) whose first
  a rows are the first array's, whose next b rows are the second array's and whose last c rows are the third's, in
  order. Read at entry (r, q): for r < a it is the first array at (r, q); for r = a + p with p < b the second at
  (p, q); for r = a + b + p the third at (p, q). The statements are general in the extents.
-/
import Idealize.ShloMosaic.Lib.Pipeline.Value
import Idealize.ShloMosaic.Lib.ValueIdx

noncomputable section

namespace Cert.RowStack3

open Idealize.ShloMosaic Idealize.ShloMosaic.ValueIdx

variable {α : Type} {a b c d n : ℕ}

/-- A row of the stack that lies in the upper part is that row of the first array. -/
theorem stack3_top (x : (⟨2, ![a, n]⟩ : Shape).Idx → α) (y : (⟨2, ![b, n]⟩ : Shape).Idx → α) (z : (⟨2, ![c, n]⟩ : Shape).Idx → α)
    (h : Shape.Concatenates [⟨2, ![a, n]⟩, ⟨2, ![b, n]⟩, ⟨2, ![c, n]⟩] ⟨2, ![d, n]⟩ 0) (r : Fin d) (q : Fin n) (p : Fin a)
    (hp : p.val = r.val) :
    concatenate ⟨2, ![d, n]⟩ 0 [⟨⟨2, ![a, n]⟩, x⟩, ⟨⟨2, ![b, n]⟩, y⟩, ⟨⟨2, ![c, n]⟩, z⟩] h (ix2 r q) = x (ix2 p q) :=
  concatenate_apply_piece (t := ⟨2, ![d, n]⟩) (0 : Fin 2) [⟨⟨2, ![a, n]⟩, x⟩, ⟨⟨2, ![b, n]⟩, y⟩, ⟨⟨2, ![c, n]⟩, z⟩] h (ix2 r q)
    0 (by show (0 : ℕ) < 3; omega) ⟨2, ![a, n]⟩ x rfl rfl 0 rfl (ix2 p q)
    (fun ax hax => by
      match ax with
      | ⟨0, _⟩ => exact absurd rfl hax
      | ⟨1, _⟩ => rfl)
    (by show 0 + p.val = r.val; omega)

/-- A row of the stack that lies in the middle part is the row a places earlier of the second array. -/
theorem stack3_mid (x : (⟨2, ![a, n]⟩ : Shape).Idx → α) (y : (⟨2, ![b, n]⟩ : Shape).Idx → α) (z : (⟨2, ![c, n]⟩ : Shape).Idx → α)
    (h : Shape.Concatenates [⟨2, ![a, n]⟩, ⟨2, ![b, n]⟩, ⟨2, ![c, n]⟩] ⟨2, ![d, n]⟩ 0) (r : Fin d) (q : Fin n) (p : Fin b)
    (hp : a + p.val = r.val) :
    concatenate ⟨2, ![d, n]⟩ 0 [⟨⟨2, ![a, n]⟩, x⟩, ⟨⟨2, ![b, n]⟩, y⟩, ⟨⟨2, ![c, n]⟩, z⟩] h (ix2 r q) = y (ix2 p q) :=
  concatenate_apply_piece (t := ⟨2, ![d, n]⟩) (0 : Fin 2) [⟨⟨2, ![a, n]⟩, x⟩, ⟨⟨2, ![b, n]⟩, y⟩, ⟨⟨2, ![c, n]⟩, z⟩] h (ix2 r q)
    1 (by show (1 : ℕ) < 3; omega) ⟨2, ![b, n]⟩ y rfl rfl a (by simp) (ix2 p q)
    (fun ax hax => by
      match ax with
      | ⟨0, _⟩ => exact absurd rfl hax
      | ⟨1, _⟩ => rfl)
    (by show a + p.val = r.val; exact hp)

/-- A row of the stack that lies in the lower part is the row a + b places earlier of the third array. -/
theorem stack3_bot (x : (⟨2, ![a, n]⟩ : Shape).Idx → α) (y : (⟨2, ![b, n]⟩ : Shape).Idx → α) (z : (⟨2, ![c, n]⟩ : Shape).Idx → α)
    (h : Shape.Concatenates [⟨2, ![a, n]⟩, ⟨2, ![b, n]⟩, ⟨2, ![c, n]⟩] ⟨2, ![d, n]⟩ 0) (r : Fin d) (q : Fin n) (p : Fin c)
    (hp : a + b + p.val = r.val) :
    concatenate ⟨2, ![d, n]⟩ 0 [⟨⟨2, ![a, n]⟩, x⟩, ⟨⟨2, ![b, n]⟩, y⟩, ⟨⟨2, ![c, n]⟩, z⟩] h (ix2 r q) = z (ix2 p q) :=
  concatenate_apply_piece (t := ⟨2, ![d, n]⟩) (0 : Fin 2) [⟨⟨2, ![a, n]⟩, x⟩, ⟨⟨2, ![b, n]⟩, y⟩, ⟨⟨2, ![c, n]⟩, z⟩] h (ix2 r q)
    2 (by show (2 : ℕ) < 3; omega) ⟨2, ![c, n]⟩ z rfl rfl (a + b) (by simp) (ix2 p q)
    (fun ax hax => by
      match ax with
      | ⟨0, _⟩ => exact absurd rfl hax
      | ⟨1, _⟩ => rfl)
    (by show a + b + p.val = r.val; exact hp)

end Cert.RowStack3

end
-- ==== Proof.PayRows.lean ====
/-
  The rows a tile's body assembles, read entry by entry.

  The body adds the two main blocks (256 rows of 768), puts the sum of the two loaded border rows above and below it
  to get 258 rows, and takes rows 0..256 and rows 1..257 of that stack; for each small embedding it puts the loaded
  border row above the main block's 256 rows to get 257 rows. Entry by entry these are the row families of the
  tile's specification.
-/
import proofs.«124179_j78331613544613_1_alg».proof.Proof.Gen.KernelIdeal.Skeleton
import proofs.«124179_j78331613544613_1_alg».proof.Proof.Tile
import proofs.«124179_j78331613544613_1_alg».proof.Proof.LibRowStack
import proofs.«124179_j78331613544613_1_alg».proof.Proof.LibRowStack3
import Idealize.ShloMosaic.Lib.ValueLayout

noncomputable section

namespace Cert.PayRows

open Cert.KernelIdeal Cert.KernelIdeal.Gen Idealize.ShloMosaic Idealize.ShloMosaic.ValueIdx

/-- A `[1, 1, a]` array cast to `[a]` reads, at `i`, the operand at `(0, 0, i)`. -/
theorem shapeCast_11a_a_apply {α : Type} {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    omega)

/-- The sum of the two main blocks at row p. -/
theorem pay2_apply (v0 v2 : Vec Ideal S1x256x768 .f32) (p : Fin 256) (h : Fin 768) :
    k0_pay2 (F := Ideal) v0 v2 (ix2 p h) = v0 (ix3 0 p h) + v2 (ix3 0 p h) := by
  unfold k0_pay2
  rw [addf_apply, shapeCast_1ab_ab_apply, shapeCast_1ab_ab_apply]

/-- The second small embedding's main block at row p. -/
theorem pay7_apply (v26 : Vec Ideal S1x256x128 .f32) (p : Fin 256) (i : Fin 128) :
    k0_pay7 (F := Ideal) v26 (ix2 p i) = v26 (ix3 0 p i) := by
  unfold k0_pay7
  rw [shapeCast_1ab_ab_apply]

/-- Row 0 of the 258-row stack is the sum of the two loaded rows before the tile. -/
theorem pay3_top (v0 v2 : Vec Ideal S1x256x768 .f32) (v5 v7 v10 v12 : Vec Ideal S1x1x768 .f32) (r : Fin 258) (h : Fin 768)
    (hr : r.val = 0) :
    k0_pay3 (F := Ideal) v0 v2 v5 v7 v10 v12 (ix2 r h) = v5 (ix3 0 0 h) + v7 (ix3 0 0 h) := by
  unfold k0_pay3
  rw [Cert.RowStack3.stack3_top _ _ _ _ r h (0 : Fin 1) (by omega)]
  rw [shapeCast_a_1a_apply, addf_apply, shapeCast_11a_a_apply, shapeCast_11a_a_apply]

/-- Row 1 + p of the stack is row p of the summed main blocks. -/
theorem pay3_mid (v0 v2 : Vec Ideal S1x256x768 .f32) (v5 v7 v10 v12 : Vec Ideal S1x1x768 .f32) (r : Fin 258) (h : Fin 768)
    (p : Fin 256) (hr : 1 + p.val = r.val) :
    k0_pay3 (F := Ideal) v0 v2 v5 v7 v10 v12 (ix2 r h) = v0 (ix3 0 p h) + v2 (ix3 0 p h) := by
  unfold k0_pay3
  rw [Cert.RowStack3.stack3_mid _ _ _ _ r h p hr, pay2_apply]

/-- Row 257 of the stack is the sum of the two loaded rows after the tile. -/
theorem pay3_bot (v0 v2 : Vec Ideal S1x256x768 .f32) (v5 v7 v10 v12 : Vec Ideal S1x1x768 .f32) (r : Fin 258) (h : Fin 768)
    (hr : r.val = 257) :
    k0_pay3 (F := Ideal) v0 v2 v5 v7 v10 v12 (ix2 r h) = v10 (ix3 0 0 h) + v12 (ix3 0 0 h) := by
  unfold k0_pay3
  rw [Cert.RowStack3.stack3_bot _ _ _ _ r h (0 : Fin 1) (by omega)]
  rw [shapeCast_a_1a_apply, addf_apply, shapeCast_11a_a_apply, shapeCast_11a_a_apply]

/-- The 258-row stack is the tile's row family `aOf`. -/
theorem pay3_apply (v0 v2 : Vec Ideal S1x256x768 .f32) (v5 v7 v10 v12 : Vec Ideal S1x1x768 .f32) (r : Fin 258) (h : Fin 768) :
    k0_pay3 (F := Ideal) v0 v2 v5 v7 v10 v12 (ix2 r h) = Cert.Tile.aOf v0 v2 v5 v7 v10 v12 r h := by
  unfold Cert.Tile.aOf
  by_cases h0 : r.val = 0
  · rw [if_pos h0]
    exact pay3_top v0 v2 v5 v7 v10 v12 r h h0
  · rw [if_neg h0]
    by_cases h1 : r.val ≤ 256
    · rw [dif_pos h1]
      exact pay3_mid v0 v2 v5 v7 v10 v12 r h ⟨r.val - 1, by omega⟩ (by show 1 + (r.val - 1) = r.val; omega)
    · rw [dif_neg h1]
      exact pay3_bot v0 v2 v5 v7 v10 v12 r h (by have := r.isLt; omega)

/-- Rows 0..256 of the stack: pair r's first row. -/
theorem pay4_apply (v0 v2 : Vec Ideal S1x256x768 .f32) (v5 v7 v10 v12 : Vec Ideal S1x1x768 .f32) (r : Fin 257) (h : Fin 768) :
    k0_pay4 (F := Ideal) v0 v2 v5 v7 v10 v12 (ix2 r h)
      = Cert.Tile.aOf v0 v2 v5 v7 v10 v12 (⟨r.val, by omega⟩ : Fin 258) h := by
  unfold k0_pay4
  rw [slice2_axis0_apply 0 _ _ r h (⟨r.val, by omega⟩ : Fin 258) (by show r.val = 0 + r.val; omega)]
  exact pay3_apply v0 v2 v5 v7 v10 v12 _ h

/-- Rows 1..257 of the stack: pair r's second row. -/
theorem pay5_apply (v0 v2 : Vec Ideal S1x256x768 .f32) (v5 v7 v10 v12 : Vec Ideal S1x1x768 .f32) (r : Fin 257) (h : Fin 768) :
    k0_pay5 (F := Ideal) v0 v2 v5 v7 v10 v12 (ix2 r h)
      = Cert.Tile.aOf v0 v2 v5 v7 v10 v12 (⟨r.val + 1, by omega⟩ : Fin 258) h := by
  unfold k0_pay5
  rw [slice2_axis0_apply 1 _ _ r h (⟨r.val + 1, by omega⟩ : Fin 258) (by show r.val + 1 = 1 + r.val; omega)]
  exact pay3_apply v0 v2 v5 v7 v10 v12 _ h

/-- A loaded border row put above a 256-row block: row 0 is the border row, row r > 0 is row r - 1 of the block. -/
theorem border_stack (v22 : Vec Ideal S1x1x128 .f32) (y : FVec Ideal S256x128 .f32) (r : Fin 257) (i : Fin 128) :
    concatenate S257x128 0
        [⟨S1x128, shapeCast S1x128 (shapeCast S128 v22 shapeCasts_S1x1x128_S128) shapeCasts_S128_S1x128⟩, ⟨S256x128, y⟩]
        concatenates_S1x128_S256x128_S257x128_d0 (ix2 r i)
      = if hr : r.val = 0 then v22 (ix3 0 0 i) else y (ix2 (⟨r.val - 1, by omega⟩ : Fin 256) i) := by
  by_cases hr : r.val = 0
  · rw [dif_pos hr, Cert.RowStack.stack_top _ _ _ r i (0 : Fin 1) (by omega), shapeCast_a_1a_apply, shapeCast_11a_a_apply]
  · rw [dif_neg hr, Cert.RowStack.stack_bot _ _ _ r i (⟨r.val - 1, by omega⟩ : Fin 256) (by show r.val - 1 + 1 = r.val; omega)]

/-- The first small embedding's 257 rows are the tile's row family `dOf`. -/
theorem pay6_apply (v20 : Vec Ideal S1x256x128 .f32) (v22 : Vec Ideal S1x1x128 .f32) (r : Fin 257) (i : Fin 128) :
    k0_pay6 (F := Ideal) v20 v22 (ix2 r i) = Cert.Tile.dOf v20 v22 r i := by
  unfold k0_pay6 Cert.Tile.dOf
  rw [border_stack]
  by_cases hr : r.val = 0
  · rw [dif_pos hr, dif_pos hr]
  · rw [dif_neg hr, dif_neg hr, shapeCast_1ab_ab_apply]

end Cert.PayRows

end
-- ==== Proof.LibPlainDot.lean ====
/-
  A plain two-dimensional contraction read at an output index, over the extended reals.

  For the dimension numbers "contract the left operand's axis 1 with the right operand's axis 0, no batch axis"
  (an [M,K] array times a [K,N] array), entry (p, g) of the product is the sum over k < K of the left operand at
  (p, k) times the right operand at (k, g). This holds for the host's dot_general and for a matrix unit's product
  into a zero accumulator alike: at the ideal instance neither rounds, and the order of a finite sum is immaterial.
  The statements are general in the three extents, so one file serves every product of this form in a program.
-/
import Idealize.ShloMosaic.PureOps.Ideal.Laws
import Idealize.ShloMosaic.Lib.ValueIdx

noncomputable section

namespace Cert.PlainDot

open Idealize.ShloMosaic Idealize.ShloMosaic.ValueIdx

variable (M K N : ℕ)

/-- Axis 0 of the left operand's index is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- Axis 1 of the left operand's index is the contraction position. -/
theorem lhs_contr (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- Axis 0 of the right operand's index is the contraction position. -/
theorem rhs_contr (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- Axis 1 of the right operand's index is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum over its one-axis index shape is the sum over k < K of row entry times column entry. -/
theorem sum_eq (l : (⟨2, ![M, K]⟩ : Shape).Idx → EReal) (r : (⟨2, ![K, N]⟩ : Shape).Idx → EReal) (p : Fin M) (g : Fin N) :
    ∑ q : (DotDims.plain M K N).contr.Idx,
        l ((DotDims.plain M K N).lhsIdx (ix2 p g) q) * r ((DotDims.plain M K N).rhsIdx (ix2 p g) q)
      = ∑ k : Fin K, l (ix2 p k) * r (ix2 k g) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p g) ((contrEquiv1 (DotDims.plain M K N) K rfl rfl).symm k) = ix2 p k :=
    funext fun a => Fin.ext (by
      match a with
      | ⟨0, _⟩ => exact lhs_row M K N _ _
      | ⟨1, _⟩ => exact (lhs_contr M K N _ _).trans hk)
  have er : (DotDims.plain M K N).rhsIdx (ix2 p g) ((contrEquiv1 (DotDims.plain M K N) K rfl rfl).symm k) = ix2 k g :=
    funext fun a => Fin.ext (by
      match a with
      | ⟨0, _⟩ => exact (rhs_contr M K N _ _).trans hk
      | ⟨1, _⟩ => exact rhs_col M K N _ _)
  rw [el, er]

variable {M K N}

/-- The host's dot_general with these dimension numbers, at entry (p, g). -/
theorem hostDot_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    Host.dotGeneral (F := Ideal) d none l r (ix2 p g) = ∑ k : Fin K, l (ix2 p k) * r (ix2 k g) := by
  subst hd
  simp only [Host.dotGeneral]
  rw [Ideal.dotGeneral_apply]
  exact sum_eq M K N l r p g

/-- A matrix unit's product with these dimension numbers into the zero accumulator, at entry (p, g). -/
theorem matmul_zero_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    matmul (F := Ideal) d none l r (constant ⟨2, ![M, N]⟩ .f32 0x00000000#32) (ix2 p g)
      = ∑ k : Fin K, l (ix2 p k) * r (ix2 k g) := by
  subst hd
  simp only [matmul]
  rw [Ideal.matmul_constant_zero_apply]
  exact sum_eq M K N l r p g

end Cert.PlainDot

end
-- ==== Proof.LibDotTransposed.lean ====
/-
  A matrix times the transpose of a weight block, read at an output entry, over the extended reals.

  For l of shape [M, K] and a weight block w of shape [N, K], the product of l with the transpose of w into a zero
  accumulator has, at entry (p, g), the sum over k < K of l at (p, k) times w at (g, k): row p of l against row g of
  w. The statement is general in the three extents.
-/
import proofs.«124179_j78331613544613_1_alg».proof.Proof.LibPlainDot
import Idealize.ShloMosaic.Lib.ValueLayout

noncomputable section

namespace Cert.DotTransposed

open Idealize.ShloMosaic Idealize.ShloMosaic.ValueIdx

/-- A matrix unit's product of `l` with the transposed block `w` into the zero accumulator, at entry (p, g). -/
theorem matmulT_zero_apply {M K N : ℕ} {φ₁ φ₂ : FTy} (d : DotDims ⟨2, ![M, K]⟩ ⟨2, ![K, N]⟩ ⟨2, ![M, N]⟩)
    (hd : d = DotDims.plain M K N) (l : FVec Ideal ⟨2, ![M, K]⟩ φ₁) (w : FVec Ideal ⟨2, ![N, K]⟩ φ₂)
    (hT : (⟨2, ![N, K]⟩ : Shape).Transposes [1, 0] ⟨2, ![K, N]⟩) (p : Fin M) (g : Fin N) :
    matmul (F := Ideal) d none l (transpose ⟨2, ![K, N]⟩ [1, 0] w hT) (constant ⟨2, ![M, N]⟩ .f32 0x00000000#32) (ix2 p g)
      = ∑ k : Fin K, l (ix2 p k) * w (ix2 g k) := by
  rw [Cert.PlainDot.matmul_zero_apply d hd]
  exact Finset.sum_congr rfl fun k _ => by rw [transpose_ix2_apply]

end Cert.DotTransposed

end
-- ==== Proof.PayDot.lean ====
/-
  The two chains of products of a tile's body, read entry by entry.

  Each chain multiplies two 257-row arrays by the transposes of two weight blocks into zero accumulators, adds the
  two products, clamps at zero, and multiplies the outcome by the transpose of a third block. A change of float
  format is the identity on extended reals, so entry (r, o) of a chain is the sum over i of the clamped hidden entry
  (r, i) times the third block's entry (o, i), the hidden entry being the sum of the two row-by-row products.
-/
import proofs.«124179_j78331613544613_1_alg».proof.Proof.PayRows
import proofs.«124179_j78331613544613_1_alg».proof.Proof.LibDotTransposed

noncomputable section

namespace Cert.PayDot

open Cert.KernelIdeal Cert.KernelIdeal.Gen Idealize.ShloMosaic Idealize.ShloMosaic.ValueIdx

/-- The wide chain: rows of 768 against the three 768-by-768 blocks. -/
theorem pay8_apply (v18 v19 : FVec Ideal S257x768 .f32) (v40 v42 v44 : Vec Ideal S768x768 .bf16) (r : Fin 257) (o : Fin 768) :
    k0_pay8 (F := Ideal) v18 v19 v40 v42 v44 (ix2 r o)
      = ∑ i : Fin 768, Cert.Spec.relu ((∑ j : Fin 768, v18 (ix2 r j) * v40 (ix2 i j))
          + ∑ j : Fin 768, v19 (ix2 r j) * v42 (ix2 i j)) * v44 (ix2 o i) := by
  unfold k0_pay8
  rw [Cert.DotTransposed.matmulT_zero_apply dot_S257x768_S768x768_S257x768_1_0_0_1_n_n rfl]
  refine Finset.sum_congr rfl fun i _ => ?_
  rw [shapeCast_self, truncf_apply, maximumf_apply, addf_apply,
    Cert.DotTransposed.matmulT_zero_apply dot_S257x768_S768x768_S257x768_1_0_0_1_n_n rfl,
    Cert.DotTransposed.matmulT_zero_apply dot_S257x768_S768x768_S257x768_1_0_0_1_n_n rfl]
  simp only [shapeCast_self, truncf_apply, broadcast_apply]
  rfl

/-- The narrow chain: rows of 128 against the two 128-by-128 blocks, then the 768-by-128 block. The second array of
    rows is a loaded border row above a 256-row block. -/
theorem pay9_apply (v25 : FVec Ideal S257x128 .f32) (v27 : FVec Ideal S256x128 .f32) (v28 : Vec Ideal S1x1x128 .f32)
    (v36 v38 : Vec Ideal S128x128 .bf16) (v46 : Vec Ideal S768x128 .bf16) (r : Fin 257) (o : Fin 768) :
    k0_pay9 (F := Ideal) v25 v27 v28 v36 v38 v46 (ix2 r o)
      = ∑ i : Fin 128, Cert.Spec.relu ((∑ j : Fin 128, v25 (ix2 r j) * v36 (ix2 i j))
          + ∑ j : Fin 128, (if hr : r.val = 0 then v28 (ix3 0 0 j) else v27 (ix2 (⟨r.val - 1, by omega⟩ : Fin 256) j))
              * v38 (ix2 i j)) * v46 (ix2 o i) := by
  unfold k0_pay9
  rw [Cert.DotTransposed.matmulT_zero_apply dot_S257x128_S128x768_S257x768_1_0_0_1_n_n rfl]
  refine Finset.sum_congr rfl fun i _ => ?_
  rw [shapeCast_self, truncf_apply, maximumf_apply, addf_apply,
    Cert.DotTransposed.matmulT_zero_apply dot_S257x128_S128x128_S257x128_1_0_0_1_n_n rfl,
    Cert.DotTransposed.matmulT_zero_apply dot_S257x128_S128x128_S257x128_1_0_0_1_n_n rfl]
  simp only [shapeCast_self, truncf_apply, broadcast_apply]
  rw [Finset.sum_congr rfl (fun k _ => by rw [Cert.PayRows.border_stack v28 v27 r k] :
      ∀ k ∈ (Finset.univ : Finset (Fin 128)),
        concatenate S257x128 0
            [⟨S1x128, shapeCast S1x128 (shapeCast S128 v28 shapeCasts_S1x1x128_S128) shapeCasts_S128_S1x128⟩, ⟨S256x128, v27⟩]
            concatenates_S1x128_S256x128_S257x128_d0 (ix2 r k) * v38 (ix2 i k)
          = (if hr : r.val = 0 then v28 (ix3 0 0 k) else v27 (ix2 (⟨r.val - 1, by omega⟩ : Fin 256) k)) * v38 (ix2 i k))]
  rfl

end Cert.PayDot

end
-- ==== Proof.PayMask.lean ====
/-
  The two row masks of a sequence tile, as words and as extended reals.

  Tile t (t < 8) holds global rows 256 t + p (p < 256), all below 2048, so the 32-bit word 256 t + p never wraps and
  reads the same signed or unsigned. Comparing it as a signed word with 2047 (below) and with 2 (at least) therefore
  decides the two conditions on the natural number 256 t + p; widening the one-bit outcome to 32 bits and converting
  it to a float gives 1 where the condition holds and 0 where it fails.
-/
import Idealize.ShloMosaic.PureOps.Ideal
import Idealize.ShloMosaic.Lib.ValueIdx
import Idealize.ShloMosaic.Lib.Pipeline.Value

noncomputable section

namespace Cert.PayMask

open Idealize.ShloMosaic Idealize.ShloMosaic.ValueIdx

/-- The row word 256 t + p, computed in 32 bits, is the natural number 256 t + p. -/
theorem word_toNat (t : Fin 8) (p : Fin 256) :
    (IntOp.addi (Scalar.muli (BitVec.ofNat 32 t.val) 256#32) (BitVec.ofNat 32 p.val)).toNat = t.val * 256 + p.val := by
  have ht := t.isLt
  have hp := p.isLt
  simp only [IntOp.addi, Scalar.muli, IntOp.muli, BitVec.toNat_add, BitVec.toNat_mul, BitVec.toNat_ofNat]
  omega

/-- Read as a signed integer it is the same number: it is below 2^31. -/
theorem word_toInt (t : Fin 8) (p : Fin 256) :
    (IntOp.addi (Scalar.muli (BitVec.ofNat 32 t.val) 256#32) (BitVec.ofNat 32 p.val)).toInt
      = ((t.val * 256 + p.val : Nat) : Int) := by
  have ht := t.isLt
  have hp := p.isLt
  rw [BitVec.toInt_eq_toNat_cond, word_toNat]
  split
  · rfl
  · omega

/-- The signed comparison "below 2047" of the row word decides 256 t + p < 2047. -/
theorem lt_word (t : Fin 8) (p : Fin 256) :
    IntOp.cmpi .slt (IntOp.addi (Scalar.muli (BitVec.ofNat 32 t.val) 256#32) (BitVec.ofNat 32 p.val)) 2047#32
      = if t.val * 256 + p.val < 2047 then 1#1 else 0#1 := by
  unfold IntOp.cmpi
  have e : (2047#32 : BitVec 32).toInt = 2047 := by decide
  simp only [BitVec.slt, word_toInt, e]
  by_cases h : t.val * 256 + p.val < 2047
  · have h' : ((t.val * 256 + p.val : Nat) : Int) < 2047 := by omega
    rw [if_pos h, decide_eq_true h']; rfl
  · have h' : ¬((t.val * 256 + p.val : Nat) : Int) < 2047 := by omega
    rw [if_neg h, decide_eq_false h']; rfl

/-- The signed comparison "at least 2" of the row word decides 2 ≤ 256 t + p. -/
theorem ge_word (t : Fin 8) (p : Fin 256) :
    IntOp.cmpi .sge (IntOp.addi (Scalar.muli (BitVec.ofNat 32 t.val) 256#32) (BitVec.ofNat 32 p.val)) 2#32
      = if 2 ≤ t.val * 256 + p.val then 1#1 else 0#1 := by
  unfold IntOp.cmpi
  have e : (2#32 : BitVec 32).toInt = 2 := by decide
  simp only [BitVec.sle, word_toInt, e]
  by_cases h : 2 ≤ t.val * 256 + p.val
  · have h' : (2 : Int) ≤ ((t.val * 256 + p.val : Nat) : Int) := by omega
    rw [if_pos h, decide_eq_true h']; rfl
  · have h' : ¬(2 : Int) ≤ ((t.val * 256 + p.val : Nat) : Int) := by omega
    rw [if_neg h, decide_eq_false h']; rfl

/-- A decided bit, widened to 32 bits and converted to a float, is 1 or 0. -/
theorem bit_float (c : Prop) [Decidable c] :
    (FloatOps.sitofp (F := Ideal) .f32 ((if c then 1#1 else 0#1 : BitVec 1).setWidth 32) : EReal) = if c then 1 else 0 := by
  by_cases h : c
  · rw [if_pos h, if_pos h]
    show (FloatOps.sitofp (F := Ideal) .f32 (1#32) : EReal) = 1
    simp [FloatOps.sitofp]
  · rw [if_neg h, if_neg h]
    show (FloatOps.sitofp (F := Ideal) .f32 (0#32) : EReal) = 0
    simp [FloatOps.sitofp]

/-- The row word of tile t at row p of the [256, 1] column of row numbers. -/
theorem row_word (t : Fin 8) (hI : (⟨2, ![256, 1]⟩ : Shape).Iotas .tc 32 [0]) (p : Fin 256) (z : Fin 1) :
    addi (broadcast ⟨2, ![256, 1]⟩ (Scalar.muli (BitVec.ofNat 32 t.val) 256#32)) (iota .tc ⟨2, ![256, 1]⟩ 32 [0] hI) (ix2 p z)
      = IntOp.addi (Scalar.muli (BitVec.ofNat 32 t.val) 256#32) (BitVec.ofNat 32 p.val) := by
  show IntOp.addi _ (iota .tc ⟨2, ![256, 1]⟩ 32 [0] hI (ix2 p z)) = _
  rw [iota_single_apply]
  rfl

/-- The float mask "row below 2047" of tile t at row p. -/
theorem mask_lt (t : Fin 8) (hI : (⟨2, ![256, 1]⟩ : Shape).Iotas .tc 32 [0]) (h132 : 1 < 32) (p : Fin 256) (z : Fin 1) :
    (sitofp (F := Ideal) .f32 (extui 32 (cmpi .slt
        (addi (broadcast ⟨2, ![256, 1]⟩ (Scalar.muli (BitVec.ofNat 32 t.val) 256#32)) (iota .tc ⟨2, ![256, 1]⟩ 32 [0] hI))
        (broadcast ⟨2, ![256, 1]⟩ 2047#32)) h132) : FVec Ideal ⟨2, ![256, 1]⟩ .f32) (ix2 p z)
      = if t.val * 256 + p.val < 2047 then 1 else 0 := by
  rw [sitofp_apply, extui_apply]
  show FloatOps.sitofp (F := Ideal) .f32 ((IntOp.cmpi .slt
      (addi (broadcast ⟨2, ![256, 1]⟩ (Scalar.muli (BitVec.ofNat 32 t.val) 256#32)) (iota .tc ⟨2, ![256, 1]⟩ 32 [0] hI) (ix2 p z))
      2047#32).setWidth 32) = _
  rw [row_word, lt_word, bit_float]

/-- The float mask "row at least 2" of tile t at row p. -/
theorem mask_ge (t : Fin 8) (hI : (⟨2, ![256, 1]⟩ : Shape).Iotas .tc 32 [0]) (h132 : 1 < 32) (p : Fin 256) (z : Fin 1) :
    (sitofp (F := Ideal) .f32 (extui 32 (cmpi .sge
        (addi (broadcast ⟨2, ![256, 1]⟩ (Scalar.muli (BitVec.ofNat 32 t.val) 256#32)) (iota .tc ⟨2, ![256, 1]⟩ 32 [0] hI))
        (broadcast ⟨2, ![256, 1]⟩ 2#32)) h132) : FVec Ideal ⟨2, ![256, 1]⟩ .f32) (ix2 p z)
      = if 2 ≤ t.val * 256 + p.val then 1 else 0 := by
  rw [sitofp_apply, extui_apply]
  show FloatOps.sitofp (F := Ideal) .f32 ((IntOp.cmpi .sge
      (addi (broadcast ⟨2, ![256, 1]⟩ (Scalar.muli (BitVec.ofNat 32 t.val) 256#32)) (iota .tc ⟨2, ![256, 1]⟩ 32 [0] hI) (ix2 p z))
      2#32).setWidth 32) = _
  rw [row_word, ge_word, bit_float]

end Cert.PayMask

end
-- ==== Proof.LibColBroadcast.lean ====
/-
  One column broadcast over many, read at an entry.

  An [a, 1] array broadcast to [a, b] repeats its single column: entry (p, c) of the result is the operand's entry
  (p, 0), whatever the column c. The statement is general in the two extents.
-/
import Idealize.ShloMosaic.Lib.Pipeline.Value
import Idealize.ShloMosaic.Lib.ValueIdx

noncomputable section

namespace Cert.ColBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (z : Fin 1) : broadcastTo ⟨2, ![a, b]⟩ v h (ix2 p c) = v (ix2 p z) := by
  refine broadcastTo_apply v h (ix2 p c) (ix2 p z) fun ax => ?_
  match ax with
  | ⟨0, _⟩ =>
    show p.val = if a = 1 then 0 else p.val
    split
    · have := p.isLt; omega
    · rfl
  | ⟨1, _⟩ =>
    show z.val = if (1 : ℕ) = 1 then 0 else c.val
    rw [if_pos rfl]; omega

end Cert.ColBroadcast

end
-- ==== Proof.PayTile.lean ====
/-
  What a tile's body stores, entry by entry: the tile's specification.

  The body adds the two chains of products and clamps at zero — pair r's contribution, 257 rows —, takes rows 1..256
  and rows 0..255 of it, multiplies them by the two row masks broadcast along the row, and adds both to the summed
  main blocks. Entry (p, q) of what it stores is therefore row p + 1 of the tile's 258 rows plus the masked
  contributions of the pair starting at that row and of the pair ending at it.
-/
import proofs.«124179_j78331613544613_1_alg».proof.Proof.PayDot
import proofs.«124179_j78331613544613_1_alg».proof.Proof.PayMask
import proofs.«124179_j78331613544613_1_alg».proof.Proof.LibColBroadcast

noncomputable section

namespace Cert.PayTile

open Cert.KernelIdeal Cert.KernelIdeal.Gen Idealize.ShloMosaic Idealize.ShloMosaic.ValueIdx

/-- The stored value at (p, q), over any summed main block and any two 257-row chains. -/
theorem pay1_apply (t : Fin 8) (v4 : FVec Ideal S256x768 .f32) (v65 v67 : FVec Ideal S257x768 .f32) (p : Fin 256) (q : Fin 768) :
    k0_pay1 (F := Ideal) (BitVec.ofNat 32 t.val) v4 v65 v67 (ix3 (0 : Fin 1) p q)
      = (v4 (ix2 p q) + Cert.Tile.ltOf t p
            * Cert.Spec.relu (v65 (ix2 (⟨p.val + 1, by omega⟩ : Fin 257) q) + v67 (ix2 (⟨p.val + 1, by omega⟩ : Fin 257) q)))
          + Cert.Tile.geOf t p
            * Cert.Spec.relu (v65 (ix2 (⟨p.val, by omega⟩ : Fin 257) q) + v67 (ix2 (⟨p.val, by omega⟩ : Fin 257) q)) := by
  unfold k0_pay1
  dsimp only
  rw [shapeCast_ab_1ab_apply, addf_apply, addf_apply, mulf_apply, mulf_apply,
    Cert.ColBroadcast.broadcastTo_a1_ab_apply _ _ p q (0 : Fin 1),
    Cert.ColBroadcast.broadcastTo_a1_ab_apply _ _ p q (0 : Fin 1),
    Cert.PayMask.mask_lt t _ _ p 0, Cert.PayMask.mask_ge t _ _ p 0,
    slice2_axis0_apply 1 _ _ p q (⟨p.val + 1, by omega⟩ : Fin 257) (by show p.val + 1 = 1 + p.val; omega),
    slice2_axis0_apply 0 _ _ p q (⟨p.val, by omega⟩ : Fin 257) (by show p.val = 0 + p.val; omega)]
  rfl

/-- Pair r's contribution as the body computes it is the specification's. -/
theorem m_apply (v0 v2 : Vec Ideal S1x256x768 .f32) (v5 v7 v10 v12 : Vec Ideal S1x1x768 .f32) (v20 v26 : Vec Ideal S1x256x128 .f32)
    (v22 v28 : Vec Ideal S1x1x128 .f32) (v36 v38 : Vec Ideal S128x128 .bf16) (v40 v42 v44 : Vec Ideal S768x768 .bf16)
    (v46 : Vec Ideal S768x128 .bf16) (r : Fin 257) (q : Fin 768) :
    Cert.Spec.relu (k0_pay8 (F := Ideal) (k0_pay4 v0 v2 v5 v7 v10 v12) (k0_pay5 v0 v2 v5 v7 v10 v12) v40 v42 v44 (ix2 r q)
        + k0_pay9 (F := Ideal) (k0_pay6 v20 v22) (k0_pay7 v26) v28 v36 v38 v46 (ix2 r q))
      = Cert.Tile.mT (Cert.Tile.aOf v0 v2 v5 v7 v10 v12) (Cert.Tile.dOf v20 v22) (Cert.Tile.dOf v26 v28)
          (fun o i => v36 (ix2 o i)) (fun o i => v38 (ix2 o i)) (fun o i => v40 (ix2 o i)) (fun o i => v42 (ix2 o i))
          (fun o i => v44 (ix2 o i)) (fun o i => v46 (ix2 o i)) r q := by
  rw [Cert.PayDot.pay8_apply, Cert.PayDot.pay9_apply]
  simp only [Cert.PayRows.pay4_apply, Cert.PayRows.pay5_apply, Cert.PayRows.pay6_apply, Cert.PayRows.pay7_apply]
  rfl

/-- What the body stores at (p, q) is the tile's specification there. -/
theorem pay_eq (t : Fin 8) (v0 v2 : Vec Ideal S1x256x768 .f32) (v5 v7 v10 v12 : Vec Ideal S1x1x768 .f32)
    (v20 v26 : Vec Ideal S1x256x128 .f32) (v22 v28 : Vec Ideal S1x1x128 .f32) (v36 v38 : Vec Ideal S128x128 .bf16)
    (v40 v42 v44 : Vec Ideal S768x768 .bf16) (v46 : Vec Ideal S768x128 .bf16) (p : Fin 256) (q : Fin 768) :
    k0_pay1 (F := Ideal) (BitVec.ofNat 32 t.val) (k0_pay2 v0 v2)
        (k0_pay8 (k0_pay4 v0 v2 v5 v7 v10 v12) (k0_pay5 v0 v2 v5 v7 v10 v12) v40 v42 v44)
        (k0_pay9 (k0_pay6 v20 v22) (k0_pay7 v26) v28 v36 v38 v46) (ix3 (0 : Fin 1) p q)
      = Cert.Tile.outT (Cert.Tile.aOf v0 v2 v5 v7 v10 v12) (Cert.Tile.dOf v20 v22) (Cert.Tile.dOf v26 v28)
          (fun o i => v36 (ix2 o i)) (fun o i => v38 (ix2 o i)) (fun o i => v40 (ix2 o i)) (fun o i => v42 (ix2 o i))
          (fun o i => v44 (ix2 o i)) (fun o i => v46 (ix2 o i))
          (Cert.Tile.ltOf t) (Cert.Tile.geOf t) p q := by
  rw [pay1_apply, m_apply, m_apply, Cert.PayRows.pay2_apply]
  unfold Cert.Tile.outT
  have ha : Cert.Tile.aOf v0 v2 v5 v7 v10 v12 (⟨p.val + 1, by omega⟩ : Fin 258) q = v0 (ix3 0 p q) + v2 (ix3 0 p q) := by
    unfold Cert.Tile.aOf
    rw [if_neg (by show ¬(p.val + 1 = 0); omega), dif_pos (by show p.val + 1 ≤ 256; omega)]
    have e : (⟨p.val + 1 - 1, by omega⟩ : Fin 256) = p := Fin.ext (by show p.val + 1 - 1 = p.val; omega)
    rw [e]
  rw [ha]

end Cert.PayTile

end
-- ==== Proof.TileSpec.lean ====
/-
  A tile fed the global rows and weights computes the global specification's rows.

  Tile t sees global rows 256 t - 1 .. 256 t + 256 of su as its rows 0 .. 257 and global rows 256 t - 1 .. 256 t + 255
  of the two small embeddings as its rows 0 .. 256 (row r of the tile is global row g with g + 1 = 256 t + r); the
  weights are the column blocks of the three global weight matrices. Pair r of the tile is then the global pair g,
  and row p of the tile's result is global row 256 t + p of the specification: the mask "below 2047" multiplies
  the pair starting at that row and is 0 exactly where the specification has no such pair, the mask "at least 2"
  multiplies the pair ending at it and is 0 exactly where the specification omits it. The two rows of the whole
  sequence that no global row feeds (row 0 of tile 0, row 257 of tile 7) enter only pairs that a mask removes.
-/
import proofs.«124179_j78331613544613_1_alg».proof.Proof.Tile

noncomputable section

namespace Cert.TileSpec

open Cert.Spec Cert.Tile Idealize.ShloMosaic Idealize.ShloMosaic.ValueIdx

/-- Pair r of the tile is the global pair g, when tile row r is global row g. -/
theorem mT_eq_mm
    (x0 : A3 16 2048 768 → EReal) (x1 x2 : A2 16 2047 → BitVec 32) (x3 : A2 16 2048 → BitVec 32)
    (x4 x5 : A2 512 128 → EReal) (x6 : A2 50000 768 → EReal) (x7 : A2 128 256 → EReal)
    (x8 : A2 768 1536 → EReal) (x9 : A2 768 896 → EReal)
    (b : Fin 16) (t : Fin 8)
    (a : Fin 258 → Fin 768 → EReal) (d c : Fin 257 → Fin 128 → EReal)
    (wd wc : Fin 128 → Fin 128 → EReal) (wl wr wp : Fin 768 → Fin 768 → EReal) (wq : Fin 768 → Fin 128 → EReal)
    (ha : ∀ (r : Fin 258) (g : Fin 2048), g.val + 1 = 256 * t.val + r.val → a r = su x0 x3 x6 b g)
    (hd : ∀ (r : Fin 257) (g : Fin 2047), g.val + 1 = 256 * t.val + r.val → d r = de x1 x4 b g)
    (hc : ∀ (r : Fin 257) (g : Fin 2047), g.val + 1 = 256 * t.val + r.val → c r = ce x2 x5 b g)
    (hwd : ∀ (o i : Fin 128), wd o i = x7 (ix2 o (⟨i.val, by omega⟩ : Fin 256)))
    (hwc : ∀ (o i : Fin 128), wc o i = x7 (ix2 o (⟨128 + i.val, by omega⟩ : Fin 256)))
    (hwl : ∀ (o i : Fin 768), wl o i = x8 (ix2 o (⟨i.val, by omega⟩ : Fin 1536)))
    (hwr : ∀ (o i : Fin 768), wr o i = x8 (ix2 o (⟨768 + i.val, by omega⟩ : Fin 1536)))
    (hwp : ∀ (o i : Fin 768), wp o i = x9 (ix2 o (⟨i.val, by omega⟩ : Fin 896)))
    (hwq : ∀ (o : Fin 768) (i : Fin 128), wq o i = x9 (ix2 o (⟨768 + i.val, by omega⟩ : Fin 896)))
    (r : Fin 257) (g : Fin 2047) (hg : g.val + 1 = 256 * t.val + r.val) (o : Fin 768) :
    mT a d c wd wc wl wr wp wq r o = mm x0 x1 x2 x3 x4 x5 x6 x7 x8 x9 b g o := by
  have h1 : a (⟨r.val, by omega⟩ : Fin 258) = su x0 x3 x6 b (⟨g.val, by omega⟩ : Fin 2048) :=
    ha _ _ (by show g.val + 1 = 256 * t.val + r.val; exact hg)
  have h2 : a (⟨r.val + 1, by omega⟩ : Fin 258) = su x0 x3 x6 b (⟨g.val + 1, by omega⟩ : Fin 2048) :=
    ha _ _ (by show g.val + 1 + 1 = 256 * t.val + (r.val + 1); omega)
  have h3 : d r = de x1 x4 b g := hd r g hg
  have h4 : c r = ce x2 x5 b g := hc r g hg
  obtain rfl : wd = fun o i => x7 (ix2 o (⟨i.val, by omega⟩ : Fin 256)) := funext fun o => funext fun i => hwd o i
  obtain rfl : wc = fun o i => x7 (ix2 o (⟨128 + i.val, by omega⟩ : Fin 256)) := funext fun o => funext fun i => hwc o i
  obtain rfl : wl = fun o i => x8 (ix2 o (⟨i.val, by omega⟩ : Fin 1536)) := funext fun o => funext fun i => hwl o i
  obtain rfl : wr = fun o i => x8 (ix2 o (⟨768 + i.val, by omega⟩ : Fin 1536)) := funext fun o => funext fun i => hwr o i
  obtain rfl : wp = fun o i => x9 (ix2 o (⟨i.val, by omega⟩ : Fin 896)) := funext fun o => funext fun i => hwp o i
  obtain rfl : wq = fun o i => x9 (ix2 o (⟨768 + i.val, by omega⟩ : Fin 896)) := funext fun o => funext fun i => hwq o i
  unfold mT phT dcT mm ph dc
  rw [h1, h2, h3, h4]

/-- Row p of tile t's result is global row 256 t + p of the specification. -/
theorem outT_eq_out
    (x0 : A3 16 2048 768 → EReal) (x1 x2 : A2 16 2047 → BitVec 32) (x3 : A2 16 2048 → BitVec 32)
    (x4 x5 : A2 512 128 → EReal) (x6 : A2 50000 768 → EReal) (x7 : A2 128 256 → EReal)
    (x8 : A2 768 1536 → EReal) (x9 : A2 768 896 → EReal)
    (b : Fin 16) (t : Fin 8)
    (a : Fin 258 → Fin 768 → EReal) (d c : Fin 257 → Fin 128 → EReal)
    (wd wc : Fin 128 → Fin 128 → EReal) (wl wr wp : Fin 768 → Fin 768 → EReal) (wq : Fin 768 → Fin 128 → EReal)
    (ha : ∀ (r : Fin 258) (g : Fin 2048), g.val + 1 = 256 * t.val + r.val → a r = su x0 x3 x6 b g)
    (hd : ∀ (r : Fin 257) (g : Fin 2047), g.val + 1 = 256 * t.val + r.val → d r = de x1 x4 b g)
    (hc : ∀ (r : Fin 257) (g : Fin 2047), g.val + 1 = 256 * t.val + r.val → c r = ce x2 x5 b g)
    (hwd : ∀ (o i : Fin 128), wd o i = x7 (ix2 o (⟨i.val, by omega⟩ : Fin 256)))
    (hwc : ∀ (o i : Fin 128), wc o i = x7 (ix2 o (⟨128 + i.val, by omega⟩ : Fin 256)))
    (hwl : ∀ (o i : Fin 768), wl o i = x8 (ix2 o (⟨i.val, by omega⟩ : Fin 1536)))
    (hwr : ∀ (o i : Fin 768), wr o i = x8 (ix2 o (⟨768 + i.val, by omega⟩ : Fin 1536)))
    (hwp : ∀ (o i : Fin 768), wp o i = x9 (ix2 o (⟨i.val, by omega⟩ : Fin 896)))
    (hwq : ∀ (o : Fin 768) (i : Fin 128), wq o i = x9 (ix2 o (⟨768 + i.val, by omega⟩ : Fin 896)))
    (p : Fin 256) (q : Fin 768) :
    outT a d c wd wc wl wr wp wq (ltOf t) (geOf t) p q
      = out x0 x1 x2 x3 x4 x5 x6 x7 x8 x9 b (⟨256 * t.val + p.val, by omega⟩ : Fin 2048) q := by
  have hA : a (⟨p.val + 1, by omega⟩ : Fin 258) = su x0 x3 x6 b (⟨256 * t.val + p.val, by omega⟩ : Fin 2048) :=
    ha _ _ (by show 256 * t.val + p.val + 1 = 256 * t.val + (p.val + 1); omega)
  have e1 : ltOf t p * mT a d c wd wc wl wr wp wq (⟨p.val + 1, by omega⟩ : Fin 257) q
      = if hr : 256 * t.val + p.val < 2047 then mm x0 x1 x2 x3 x4 x5 x6 x7 x8 x9 b ⟨256 * t.val + p.val, hr⟩ q else 0 := by
    unfold ltOf
    by_cases h : 256 * t.val + p.val < 2047
    · rw [if_pos (show t.val * 256 + p.val < 2047 by omega), dif_pos h, one_mul]
      exact mT_eq_mm x0 x1 x2 x3 x4 x5 x6 x7 x8 x9 b t a d c wd wc wl wr wp wq ha hd hc hwd hwc hwl hwr hwp hwq
        (⟨p.val + 1, by omega⟩ : Fin 257) ⟨256 * t.val + p.val, h⟩
        (by show 256 * t.val + p.val + 1 = 256 * t.val + (p.val + 1); omega) q
    · rw [if_neg (show ¬t.val * 256 + p.val < 2047 by omega), dif_neg h, zero_mul]
  have e2 : geOf t p * mT a d c wd wc wl wr wp wq (⟨p.val, by omega⟩ : Fin 257) q
      = if hr : 2 ≤ 256 * t.val + p.val then
          mm x0 x1 x2 x3 x4 x5 x6 x7 x8 x9 b (⟨256 * t.val + p.val - 1, by omega⟩ : Fin 2047) q else 0 := by
    unfold geOf
    by_cases h : 2 ≤ 256 * t.val + p.val
    · rw [if_pos (show 2 ≤ t.val * 256 + p.val by omega), dif_pos h, one_mul]
      exact mT_eq_mm x0 x1 x2 x3 x4 x5 x6 x7 x8 x9 b t a d c wd wc wl wr wp wq ha hd hc hwd hwc hwl hwr hwp hwq
        (⟨p.val, by omega⟩ : Fin 257) (⟨256 * t.val + p.val - 1, by omega⟩ : Fin 2047)
        (by show 256 * t.val + p.val - 1 + 1 = 256 * t.val + p.val; omega) q
    · rw [if_neg (show ¬2 ≤ t.val * 256 + p.val by omega), dif_neg h, zero_mul]
  unfold outT
  rw [e1, e2, hA]
  rfl

end Cert.TileSpec

end
-- ==== Proof.ValueKI.lean ====
/-
  What the region leaves in the result array: the specification, entry by entry.

  At point t = (b, s) the tile's 258 rows of su are the global rows 256 s − 1 … 256 s + 256 of batch b wherever those
  exist, its 257 rows of the small embeddings the global rows 256 s − 1 … 256 s + 255, and its weight blocks the column
  blocks of the weight matrices; so what the body stores is rows 256 s … 256 s + 255 of the specification for batch b.
  The 128 output tiles cover the result array, which therefore ends at the specification.
-/
import proofs.«124179_j78331613544613_1_alg».proof.Proof.BlocksKI
import proofs.«124179_j78331613544613_1_alg».proof.Proof.PayTile
import proofs.«124179_j78331613544613_1_alg».proof.Proof.TileSpec

set_option maxRecDepth 16384

noncomputable section

namespace Cert.KernelIdeal.HValue

open Cert.KernelIdeal Cert.KernelIdeal.Gen Cert.KernelIdeal.HFrame
open Idealize.ShloMosaic Idealize.ShloMosaic.TcCoe Idealize.SL.Sem Idealize.ShloMosaic.ValueIdx
open Idealize.ShloMosaic.Pipeline (Dat Cfg Window)
open Cert.Spec

variable (m : (ℓ : Loc nD τ sig) → Buf (Elt Ideal) ℓ) (ρ : Dev nD → PrngReg)

/-! ## The tile's rows are the global rows -/

theorem rows_a (c : Dev nD) (t : Fin cfg0.N) (r : Fin 258) (g : Fin 2048) (hg : g.val + 1 = 256 * (ts t).val + r.val) :
    Cert.Tile.aOf (View.ld (Val := Elt Ideal) (S := S1x256x768) (e' := .f32) (iblk m c 0 t) rMain768) (View.ld (Val := Elt Ideal) (S := S1x256x768) (e' := .f32) (iblk m c 3 t) rMain768) (View.ld (Val := Elt Ideal) (S := S1x8x768) (e' := .f32) (iblk m c 1 t) rB768) (View.ld (Val := Elt Ideal) (S := S1x8x768) (e' := .f32) (iblk m c 4 t) rB768) (View.ld (Val := Elt Ideal) (S := S1x8x768) (e' := .f32) (iblk m c 2 t) rA768) (View.ld (Val := Elt Ideal) (S := S1x8x768) (e' := .f32) (iblk m c 5 t) rA768) r = su (X0 m c) (X3 m c) (X6 m c) (tb t) g := by
  funext h
  unfold Cert.Tile.aOf
  by_cases h0 : r.val = 0
  · rw [if_pos h0, ld_B768, ld_B768, blk1, blk4]
    have eg : gBefore (ts t) = g := Fin.ext (by
      show (if (ts t).val = 0 then 7 else 256 * (ts t).val - 1) = g.val
      split <;> omega)
    rw [eg, V_v22, V_main_arg0]; rfl
  · rw [if_neg h0]
    by_cases h1 : r.val ≤ 256
    · rw [dif_pos h1, View.ld_unit_zero (S := S1x256x768) hz3, View.ld_unit_zero (S := S1x256x768) hz3, blk0, blk3]
      have eg : gRow (ts t) (⟨r.val - 1, by omega⟩ : Fin 256) = g := Fin.ext (by
        show 256 * (ts t).val + (r.val - 1) = g.val
        omega)
      rw [eg, V_v22, V_main_arg0]; rfl
    · rw [dif_neg h1, ld_A768, ld_A768, blk2, blk5]
      have eg : gAfter (ts t) = g := Fin.ext (by
        show (if (ts t).val = 7 then 2040 else 256 * ((ts t).val + 1)) = g.val
        have := r.isLt; have := g.isLt
        split <;> omega)
      rw [eg, V_v22, V_main_arg0]; rfl

theorem rows_d (c : Dev nD) (t : Fin cfg0.N) (r : Fin 257) (g : Fin 2047) (hg : g.val + 1 = 256 * (ts t).val + r.val) :
    Cert.Tile.dOf (View.ld (Val := Elt Ideal) (S := S1x256x128) (e' := .f32) (iblk m c 6 t) rMain128) (View.ld (Val := Elt Ideal) (S := S1x8x128) (e' := .f32) (iblk m c 7 t) rB128) r = de (X1 m c) (X4 m c) (tb t) g := by
  funext i
  unfold Cert.Tile.dOf
  by_cases h0 : r.val = 0
  · rw [dif_pos h0, ld_B128, blk7]
    have eg : gBefore (ts t) = (⟨g.val, by omega⟩ : Fin 2048) := Fin.ext (by
      show (if (ts t).val = 0 then 7 else 256 * (ts t).val - 1) = g.val
      split <;> omega)
    rw [eg]; exact V_v8 m c (tb t) g i
  · rw [dif_neg h0, View.ld_unit_zero (S := S1x256x128) hz3, blk6]
    have eg : gRow (ts t) (⟨r.val - 1, by omega⟩ : Fin 256) = (⟨g.val, by omega⟩ : Fin 2048) := Fin.ext (by
      show 256 * (ts t).val + (r.val - 1) = g.val
      omega)
    rw [eg]; exact V_v8 m c (tb t) g i

theorem rows_c (c : Dev nD) (t : Fin cfg0.N) (r : Fin 257) (g : Fin 2047) (hg : g.val + 1 = 256 * (ts t).val + r.val) :
    Cert.Tile.dOf (View.ld (Val := Elt Ideal) (S := S1x256x128) (e' := .f32) (iblk m c 8 t) rMain128) (View.ld (Val := Elt Ideal) (S := S1x8x128) (e' := .f32) (iblk m c 9 t) rB128) r = ce (X2 m c) (X5 m c) (tb t) g := by
  funext i
  unfold Cert.Tile.dOf
  by_cases h0 : r.val = 0
  · rw [dif_pos h0, ld_B128, blk9]
    have eg : gBefore (ts t) = (⟨g.val, by omega⟩ : Fin 2048) := Fin.ext (by
      show (if (ts t).val = 0 then 7 else 256 * (ts t).val - 1) = g.val
      split <;> omega)
    rw [eg]; exact V_v15 m c (tb t) g i
  · rw [dif_neg h0, View.ld_unit_zero (S := S1x256x128) hz3, blk8]
    have eg : gRow (ts t) (⟨r.val - 1, by omega⟩ : Fin 256) = (⟨g.val, by omega⟩ : Fin 2048) := Fin.ext (by
      show 256 * (ts t).val + (r.val - 1) = g.val
      omega)
    rw [eg]; exact V_v15 m c (tb t) g i

theorem wt10 (c : Dev nD) (t : Fin cfg0.N) (o : Fin 128) (i : Fin 128) :
    View.ld (Val := Elt Ideal) (S := S128x128) (e' := .bf16) (iblk m c 10 t) rW128 (ix2 o i) = X7 m c (ix2 o (⟨i.val, by omega⟩ : Fin 256)) := by
  rw [View.ld_unit_zero (S := S128x128) hz2, blk10, V_v24]

theorem wt11 (c : Dev nD) (t : Fin cfg0.N) (o : Fin 128) (i : Fin 128) :
    View.ld (Val := Elt Ideal) (S := S128x128) (e' := .bf16) (iblk m c 11 t) rW128 (ix2 o i) = X7 m c (ix2 o (⟨128 + i.val, by omega⟩ : Fin 256)) := by
  rw [View.ld_unit_zero (S := S128x128) hz2, blk11, V_v26]

theorem wt12 (c : Dev nD) (t : Fin cfg0.N) (o : Fin 768) (i : Fin 768) :
    View.ld (Val := Elt Ideal) (S := S768x768) (e' := .bf16) (iblk m c 12 t) rW768 (ix2 o i) = X8 m c (ix2 o (⟨i.val, by omega⟩ : Fin 1536)) := by
  rw [View.ld_unit_zero (S := S768x768) hz2, blk12, V_v28]

theorem wt13 (c : Dev nD) (t : Fin cfg0.N) (o : Fin 768) (i : Fin 768) :
    View.ld (Val := Elt Ideal) (S := S768x768) (e' := .bf16) (iblk m c 13 t) rW768 (ix2 o i) = X8 m c (ix2 o (⟨768 + i.val, by omega⟩ : Fin 1536)) := by
  rw [View.ld_unit_zero (S := S768x768) hz2, blk13, V_v30]

theorem wt14 (c : Dev nD) (t : Fin cfg0.N) (o : Fin 768) (i : Fin 768) :
    View.ld (Val := Elt Ideal) (S := S768x768) (e' := .bf16) (iblk m c 14 t) rW768 (ix2 o i) = X9 m c (ix2 o (⟨i.val, by omega⟩ : Fin 896)) := by
  rw [View.ld_unit_zero (S := S768x768) hz2, blk14, V_v32]

theorem wt15 (c : Dev nD) (t : Fin cfg0.N) (o : Fin 768) (i : Fin 128) :
    View.ld (Val := Elt Ideal) (S := S768x128) (e' := .bf16) (iblk m c 15 t) rW768x128 (ix2 o i) = X9 m c (ix2 o (⟨768 + i.val, by omega⟩ : Fin 896)) := by
  rw [View.ld_unit_zero (S := S768x128) hz2, blk15, V_v34]

/-! ## What a point writes back -/

set_option maxHeartbeats 1000000 in
/-- Point `t` writes back block `t` of the specification. -/
theorem flushed_eq (c : Dev nD) (t : Fin cfg0.N) :
    (dats m 0 c).flushed 16 t = ((cfg0.win 16).blk t).view.read (Elt Ideal) (G (X0 m c) (X1 m c) (X2 m c) (X3 m c) (X4 m c) (X5 m c) (X6 m c) (X7 m c) (X8 m c) (X9 m c)) := by
  show (cfg0.win 16).cut (grid0.coords t) ((dats m 0 c).after 16 t) = _
  rw [after16]
  unfold out16
  rw [View.canon_unit_zero hz3]
  have hco : (grid0.coords t (1 : Fin 2)).val = (ts t).val := (idx_facts t).2.2.2.2.2.2.2.2.2.2.2.2.2.2.2.2.2.2.2.2.2.2.2
  rw [hco]
  funext j
  obtain ⟨p, q, rfl⟩ : ∃ (p : Fin 256) (q : Fin 768), j = ix3 (0 : Fin 1) p q :=
    ⟨j 1, j 2, funext fun a => match a with
      | ⟨0, h0⟩ => Fin.ext (by
          have hj : (j ⟨0, h0⟩).val < 1 := (j ⟨0, h0⟩).isLt
          show (j ⟨0, h0⟩).val = 0
          omega)
      | ⟨1, _⟩ => rfl
      | ⟨2, _⟩ => rfl⟩
  show k0_pay1 (F := Ideal) _ _ _ _ (ix3 (0 : Fin 1) p q) = G (X0 m c) (X1 m c) (X2 m c) (X3 m c) (X4 m c) (X5 m c) (X6 m c) (X7 m c) (X8 m c) (X9 m c) (((cfg0.win 16).blk t).view.emb (ix3 (0 : Fin 1) p q))
  rw [Cert.PayTile.pay_eq (ts t)]
  rw [Cert.TileSpec.outT_eq_out (X0 m c) (X1 m c) (X2 m c) (X3 m c) (X4 m c) (X5 m c) (X6 m c) (X7 m c) (X8 m c) (X9 m c) (tb t) (ts t) _ _ _ _ _ _ _ _ _
    (rows_a m c t) (rows_d m c t) (rows_c m c t) (wt10 m c t) (wt11 m c t) (wt12 m c t) (wt13 m c t) (wt14 m c t) (wt15 m c t) p q]
  obtain ⟨e0, e1, e2, -⟩ := idx_facts t
  unfold G
  congr 1
  · apply Fin.ext
    show t.val / 8 = win0_16.index t (0 : Fin 3) * 1 + 1 * 0
    omega
  · apply Fin.ext
    show 256 * (t.val % 8) + p.val = win0_16.index t (1 : Fin 3) * 256 + 1 * p.val
    omega
  · apply Fin.ext
    show q.val = win0_16.index t (2 : Fin 3) * 768 + 1 * q.val
    omega

/-! ## The tiles cover the result array -/

theorem mem_blk (t : Fin cfg0.N) (i : S16x2048x768.Idx) :
    i ∈ ((cfg0.win 16).blk t).view.set ↔ ∀ a : Fin 3, win0_16.index t a * S1x256x768.size a ≤ (i a).val ∧ (i a).val < win0_16.index t a * S1x256x768.size a + S1x256x768.size a := by
  show i ∈ ((View.whole main_v35).slice (win0_16.rect t)).set ↔ _
  rw [View.set_slice_whole, Rect.mem_set_unit]
  exact Iff.rfl

theorem cover (i : S16x2048x768.Idx) :
    ∃ t : Fin cfg0.N, (cfg0.win 16).flush t = true ∧ i ∈ ((cfg0.win 16).blk t).view.set := by
  have h0 : (i 0).val < 16 := (i 0).isLt
  have h1 : (i 1).val < 2048 := (i 1).isLt
  have h2 : (i 2).val < 768 := (i 2).isLt
  let t : Fin cfg0.N := ⟨8 * (i 0).val + (i 1).val / 256, lt_of_lt_of_eq (by omega : 8 * (i 0).val + (i 1).val / 256 < 128) N_0.symm⟩
  have tv : t.val = 8 * (i 0).val + (i 1).val / 256 := rfl
  obtain ⟨e0, e1, e2, -⟩ := idx_facts t
  refine ⟨t, flush0_16 t, ?_⟩
  rw [mem_blk]
  intro a
  match a with
  | ⟨0, _⟩ =>
    show win0_16.index t (0 : Fin 3) * 1 ≤ (i 0).val ∧ (i 0).val < win0_16.index t (0 : Fin 3) * 1 + 1
    omega
  | ⟨1, _⟩ =>
    show win0_16.index t (1 : Fin 3) * 256 ≤ (i 1).val ∧ (i 1).val < win0_16.index t (1 : Fin 3) * 256 + 256
    omega
  | ⟨2, _⟩ =>
    show win0_16.index t (2 : Fin 3) * 768 ≤ (i 2).val ∧ (i 2).val < win0_16.index t (2 : Fin 3) * 768 + 768
    omega

/-- The result array after the run is the specification of the argument arrays. -/
theorem final (c : Dev nD) : (dats m 0 c).arrAt 16 cfg0.N = G (X0 m c) (X1 m c) (X2 m c) (X3 m c) (X4 m c) (X5 m c) (X6 m c) (X7 m c) (X8 m c) (X9 m c) :=
  (dats m 0 c).arrAt_eq_of_cover 16 (G (X0 m c) (X1 m c) (X2 m c) (X3 m c) (X4 m c) (X5 m c) (X6 m c) (X7 m c) (X8 m c) (X9 m c)) (fun t _ => flushed_eq m c t) cover

/-! ## The run, read -/

/-- Every weakly fair execution terminates with the result array at the specification and the arguments unchanged. -/
theorem run : θ_run defs (onTc (τ := τ) (main (F := Ideal))) ⟨m, fun _ => 0, ρ⟩ fun r => ∀ c : Dev nD,
      r.2.mem ((c.tc : Thread nD τ).loc main_v35) = G (X0 m c) (X1 m c) (X2 m c) (X3 m c) (X4 m c) (X5 m c) (X6 m c) (X7 m c) (X8 m c) (X9 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨((h c).1 16).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩)
    (run_main m ρ)

end Cert.KernelIdeal.HValue

end
-- ==== Proof.RefSum.lean ====
/-
  A sum over the first m + n naturals, split into the first m and the last n.
-/
import Mathlib.Algebra.BigOperators.Fin

namespace Cert.RefSum

/-- The sum over Fin N, N = m + n, is the sum over the first m indices plus the sum over the last n. -/
theorem sum_split {M : Type} [AddCommMonoid M] (m n N : Nat) (hN : N = m + n) (F : Fin N → M) :
    ∑ k : Fin N, F k
      = (∑ i : Fin m, F (⟨i.val, by have := i.isLt; omega⟩ : Fin N))
        + ∑ i : Fin n, F (⟨m + i.val, by have := i.isLt; omega⟩ : Fin N) := by
  subst hN
  rw [Fin.sum_univ_add]
  rfl

end Cert.RefSum
-- ==== Proof.RefStages.lean ====
/-
  The reference's stages, read at an index, are the specification's functions.

  Each gather reads the table's row that the index word names (a negative word counted from the end, then read signed
  and clamped); each matrix product over a joined row splits into the sum over the first piece plus the sum over the
  second; each rectifier is the maximum with the zero word.
-/
import proofs.«124179_j78331613544613_1_alg».proof.Proof.ReadRefP
import proofs.«124179_j78331613544613_1_alg».proof.Proof.Spec
import proofs.«124179_j78331613544613_1_alg».proof.Proof.LibGatherRows
import proofs.«124179_j78331613544613_1_alg».proof.Proof.RefSum

noncomputable section

namespace Cert.RefStages

open Cert.ReferenceIdeal Cert.ReferenceIdeal.Gen Cert.ReferenceIdeal.ReadP Idealize.ShloMosaic Idealize.ShloMosaic.ValueIdx
open Cert.Lib.GatherRows

variable (x0 : (⟨S16x2048x768, .f32⟩ : BufTy).Contents (Elt Ideal)) (x1 x2 : (⟨S16x2047, .i32⟩ : BufTy).Contents (Elt Ideal))
  (x3 : (⟨S16x2048, .i32⟩ : BufTy).Contents (Elt Ideal)) (x4 x5 : (⟨S512x128, .f32⟩ : BufTy).Contents (Elt Ideal))
  (x6 : (⟨S50000x768, .f32⟩ : BufTy).Contents (Elt Ideal)) (x7 : (⟨S128x256, .f32⟩ : BufTy).Contents (Elt Ideal))
  (x8 : (⟨S768x1536, .f32⟩ : BufTy).Contents (Elt Ideal)) (x9 : (⟨S768x896, .f32⟩ : BufTy).Contents (Elt Ideal))

/-! ## The indices the layout operations read -/

theorem idx5 (b : Fin 16) (s : Fin 2047) (k : Fin 1) : idx_main_v5 (ix3 b s k) = ix2 b s :=
  funext fun a => match a with | ⟨0, _⟩ => rfl | ⟨1, _⟩ => rfl
theorem idx12 (b : Fin 16) (s : Fin 2047) (k : Fin 1) : idx_main_v12 (ix3 b s k) = ix2 b s :=
  funext fun a => match a with | ⟨0, _⟩ => rfl | ⟨1, _⟩ => rfl
theorem idx19 (b : Fin 16) (s : Fin 2048) (k : Fin 1) : idx_main_v19 (ix3 b s k) = ix2 b s :=
  funext fun a => match a with | ⟨0, _⟩ => rfl | ⟨1, _⟩ => rfl
theorem idx25 (b : Fin 16) (s : Fin 2047) (i : Fin 768) :
    idx_main_v25 (ix3 b s i) = ix3 b (⟨s.val, by omega⟩ : Fin 2048) i :=
  funext fun a => match a with | ⟨0, _⟩ => rfl | ⟨1, _⟩ => rfl | ⟨2, _⟩ => rfl
theorem idx26 (b : Fin 16) (s : Fin 2047) (i : Fin 768) :
    idx_main_v26 (ix3 b s i) = ix3 b (⟨s.val + 1, by omega⟩ : Fin 2048) i :=
  funext fun a => match a with | ⟨0, _⟩ => rfl | ⟨1, _⟩ => Fin.ext (Nat.add_comm 1 s.val) | ⟨2, _⟩ => rfl
theorem lidx23 (b : Fin 16) (s : Fin 2047) (o : Fin 128) (k : Fin 256) : lidx_main_v23 (ix3 b s o) k = ix3 b s k :=
  funext fun a => match a with | ⟨0, _⟩ => rfl | ⟨1, _⟩ => rfl | ⟨2, _⟩ => rfl
theorem ridx23 (b : Fin 16) (s : Fin 2047) (o : Fin 128) (k : Fin 256) : ridx_main_v23 (ix3 b s o) k = ix2 o k :=
  funext fun a => match a with | ⟨0, _⟩ => rfl | ⟨1, _⟩ => rfl
theorem lidx28 (b : Fin 16) (s : Fin 2047) (o : Fin 768) (k : Fin 1536) : lidx_main_v28 (ix3 b s o) k = ix3 b s k :=
  funext fun a => match a with | ⟨0, _⟩ => rfl | ⟨1, _⟩ => rfl | ⟨2, _⟩ => rfl
theorem ridx28 (b : Fin 16) (s : Fin 2047) (o : Fin 768) (k : Fin 1536) : ridx_main_v28 (ix3 b s o) k = ix2 o k :=
  funext fun a => match a with | ⟨0, _⟩ => rfl | ⟨1, _⟩ => rfl
theorem lidx31 (b : Fin 16) (s : Fin 2047) (o : Fin 768) (k : Fin 896) : lidx_main_v31 (ix3 b s o) k = ix3 b s k :=
  funext fun a => match a with | ⟨0, _⟩ => rfl | ⟨1, _⟩ => rfl | ⟨2, _⟩ => rfl
theorem ridx31 (b : Fin 16) (s : Fin 2047) (o : Fin 768) (k : Fin 896) : ridx_main_v31 (ix3 b s o) k = ix2 o k :=
  funext fun a => match a with | ⟨0, _⟩ => rfl | ⟨1, _⟩ => rfl

/-! ## The three gathers -/

/-- A table read at the row an index word names depends on the word only. -/
theorem row_congr {N D : Nat} (hN : 0 < N) (x : (⟨2, ![N, D]⟩ : Shape).Idx → EReal) (w w' : BitVec 32) (h : w = w')
    (d : Fin D) :
    x (ix2 (⟨min w.toInt.toNat (N - 1), by omega⟩ : Fin N) d) = x (ix2 (⟨min w'.toInt.toNat (N - 1), by omega⟩ : Fin N) d) := by
  subst h; rfl

/-- The index word of the first small table at (b, s). -/
theorem word5 (b : Fin 16) (s : Fin 2047) :
    val_main_v5 (F := Ideal) x1 (ix3 b s (0 : Fin 1))
      = Scalar.select (IntOp.cmpi .slt (x1 (ix2 b s)) 0#32) (IntOp.addi (x1 (ix2 b s)) 512#32) (x1 (ix2 b s)) := by
  rw [val_main_v5_apply, idx5, val_main_v4_apply, val_main_v1_apply, val_main_v0_apply, val_main_c_apply,
    val_main_v3_apply, val_main_v2_apply, val_main_c_0_apply]

/-- The index word of the second small table at (b, s). -/
theorem word12 (b : Fin 16) (s : Fin 2047) :
    val_main_v12 (F := Ideal) x2 (ix3 b s (0 : Fin 1))
      = Scalar.select (IntOp.cmpi .slt (x2 (ix2 b s)) 0#32) (IntOp.addi (x2 (ix2 b s)) 512#32) (x2 (ix2 b s)) := by
  rw [val_main_v12_apply, idx12, val_main_v11_apply, val_main_v8_apply, val_main_v7_apply, val_main_c_1_apply,
    val_main_v10_apply, val_main_v9_apply, val_main_c_2_apply]

/-- The index word of the token table at (b, s). -/
theorem word19 (b : Fin 16) (s : Fin 2048) :
    val_main_v19 (F := Ideal) x3 (ix3 b s (0 : Fin 1))
      = Scalar.select (IntOp.cmpi .slt (x3 (ix2 b s)) 0#32) (IntOp.addi (x3 (ix2 b s)) 50000#32) (x3 (ix2 b s)) := by
  rw [val_main_v19_apply, idx19, val_main_v18_apply, val_main_v15_apply, val_main_v14_apply, val_main_c_3_apply,
    val_main_v17_apply, val_main_v16_apply, val_main_c_4_apply]

theorem de_eq (b : Fin 16) (s : Fin 2047) (i : Fin 128) :
    val_main_v6 (F := Ideal) x1 x4 (ix3 b s i) = Spec.de x1 x4 b s i :=
  (gather_rows_apply (N := 512) (D := 128) (R := 16) (C := 2047) (by decide)
      Facts₀.gather_S512x128_S16x2047x1_S16x2047x128_2_0_n_n_0_2_1128_wf x4 (val_main_v5 (F := Ideal) x1) b s i).trans
    (row_congr (by decide) x4 _ _ (word5 x1 b s) i)

theorem ce_eq (b : Fin 16) (s : Fin 2047) (i : Fin 128) :
    val_main_v13 (F := Ideal) x2 x5 (ix3 b s i) = Spec.ce x2 x5 b s i :=
  (gather_rows_apply (N := 512) (D := 128) (R := 16) (C := 2047) (by decide)
      Facts₀.gather_S512x128_S16x2047x1_S16x2047x128_2_0_n_n_0_2_1128_wf x5 (val_main_v12 (F := Ideal) x2) b s i).trans
    (row_congr (by decide) x5 _ _ (word12 x2 b s) i)

theorem v20_eq (b : Fin 16) (s : Fin 2048) (h : Fin 768) :
    val_main_v20 (F := Ideal) x3 x6 (ix3 b s h) = x6 (ix2 (Spec.rowOf 50000 (by decide) 50000#32 (x3 (ix2 b s))) h) :=
  (gather_rows_apply (N := 50000) (D := 768) (R := 16) (C := 2048) (by decide)
      Facts₀.gather_S50000x768_S16x2048x1_S16x2048x768_2_0_n_n_0_2_1768_wf x6 (val_main_v19 (F := Ideal) x3) b s h).trans
    (row_congr (by decide) x6 _ _ (word19 x3 b s) h)

theorem su_eq (b : Fin 16) (s : Fin 2048) (h : Fin 768) :
    val_main_v21 (F := Ideal) x0 x3 x6 (ix3 b s h) = Spec.su x0 x3 x6 b s h := by
  rw [val_main_v21_apply, v20_eq]
  rfl

/-! ## The three joins along the last axis -/

theorem v22_left (b : Fin 16) (s : Fin 2047) (i : Fin 128) :
    val_main_v22 (F := Ideal) x1 x2 x4 x5 (ix3 b s (⟨i.val, by omega⟩ : Fin 256)) = val_main_v6 (F := Ideal) x1 x4 (ix3 b s i) := by
  unfold val_main_v22
  exact concatenate_pair_apply_left (t := S16x2047x256) (s₁ := S16x2047x128) (s₂ := S16x2047x128) 2 _ _ _ (ix3 b s (⟨i.val, by omega⟩ : Fin 256)) rfl (ix3 b s i) (fun a => match a with | ⟨0, _⟩ => rfl | ⟨1, _⟩ => rfl | ⟨2, _⟩ => rfl)

theorem v22_right (b : Fin 16) (s : Fin 2047) (i : Fin 128) :
    val_main_v22 (F := Ideal) x1 x2 x4 x5 (ix3 b s (⟨128 + i.val, by omega⟩ : Fin 256)) = val_main_v13 (F := Ideal) x2 x5 (ix3 b s i) := by
  unfold val_main_v22
  exact concatenate_pair_apply_right (t := S16x2047x256) (s₁ := S16x2047x128) (s₂ := S16x2047x128) 2 _ _ _ (ix3 b s (⟨128 + i.val, by omega⟩ : Fin 256)) rfl rfl (ix3 b s i)
    (fun a ha => match a, ha with | ⟨0, _⟩, _ => rfl | ⟨1, _⟩, _ => rfl | ⟨2, _⟩, ha => absurd rfl ha)
    (Nat.add_comm i.val 128)

theorem v27_left (b : Fin 16) (s : Fin 2047) (i : Fin 768) :
    val_main_v27 (F := Ideal) x0 x3 x6 (ix3 b s (⟨i.val, by omega⟩ : Fin 1536)) = val_main_v25 (F := Ideal) x0 x3 x6 (ix3 b s i) := by
  unfold val_main_v27
  exact concatenate_pair_apply_left (t := S16x2047x1536) (s₁ := S16x2047x768) (s₂ := S16x2047x768) 2 _ _ _ (ix3 b s (⟨i.val, by omega⟩ : Fin 1536)) rfl (ix3 b s i) (fun a => match a with | ⟨0, _⟩ => rfl | ⟨1, _⟩ => rfl | ⟨2, _⟩ => rfl)

theorem v27_right (b : Fin 16) (s : Fin 2047) (i : Fin 768) :
    val_main_v27 (F := Ideal) x0 x3 x6 (ix3 b s (⟨768 + i.val, by omega⟩ : Fin 1536)) = val_main_v26 (F := Ideal) x0 x3 x6 (ix3 b s i) := by
  unfold val_main_v27
  exact concatenate_pair_apply_right (t := S16x2047x1536) (s₁ := S16x2047x768) (s₂ := S16x2047x768) 2 _ _ _ (ix3 b s (⟨768 + i.val, by omega⟩ : Fin 1536)) rfl rfl (ix3 b s i)
    (fun a ha => match a, ha with | ⟨0, _⟩, _ => rfl | ⟨1, _⟩, _ => rfl | ⟨2, _⟩, ha => absurd rfl ha)
    (Nat.add_comm i.val 768)

theorem v30_left (b : Fin 16) (s : Fin 2047) (i : Fin 768) :
    val_main_v30 (F := Ideal) x0 x1 x2 x3 x4 x5 x6 x7 x8 (ix3 b s (⟨i.val, by omega⟩ : Fin 896))
      = val_main_v29 (F := Ideal) x0 x3 x6 x8 (ix3 b s i) := by
  unfold val_main_v30
  exact concatenate_pair_apply_left (t := S16x2047x896) (s₁ := S16x2047x768) (s₂ := S16x2047x128) 2 _ _ _ (ix3 b s (⟨i.val, by omega⟩ : Fin 896)) rfl (ix3 b s i) (fun a => match a with | ⟨0, _⟩ => rfl | ⟨1, _⟩ => rfl | ⟨2, _⟩ => rfl)

theorem v30_right (b : Fin 16) (s : Fin 2047) (i : Fin 128) :
    val_main_v30 (F := Ideal) x0 x1 x2 x3 x4 x5 x6 x7 x8 (ix3 b s (⟨768 + i.val, by omega⟩ : Fin 896))
      = val_main_v24 (F := Ideal) x1 x2 x4 x5 x7 (ix3 b s i) := by
  unfold val_main_v30
  exact concatenate_pair_apply_right (t := S16x2047x896) (s₁ := S16x2047x768) (s₂ := S16x2047x128) 2 _ _ _ (ix3 b s (⟨768 + i.val, by omega⟩ : Fin 896)) rfl rfl (ix3 b s i)
    (fun a ha => match a, ha with | ⟨0, _⟩, _ => rfl | ⟨1, _⟩, _ => rfl | ⟨2, _⟩, ha => absurd rfl ha)
    (Nat.add_comm i.val 768)

/-! ## The three rectified matrix products -/

theorem dc_eq (b : Fin 16) (s : Fin 2047) (o : Fin 128) :
    val_main_v24 (F := Ideal) x1 x2 x4 x5 x7 (ix3 b s o) = Spec.dc x1 x2 x4 x5 x7 b s o := by
  rw [val_main_v24_apply, val_main_call0_v0_apply, val_main_call0_cst_apply, val_main_v23_apply]
  unfold Spec.dc Spec.relu
  show max _ (Ideal.ofBits .f32 0x00000000#32) = max _ (Ideal.ofBits .f32 0x00000000#32)
  congr 1
  rw [Cert.RefSum.sum_split 128 128 256 rfl]
  congr 1
  · refine Finset.sum_congr rfl fun i _ => ?_
    beta_reduce
    rw [lidx23, ridx23, v22_left, de_eq]
  · refine Finset.sum_congr rfl fun i _ => ?_
    beta_reduce
    rw [lidx23, ridx23, v22_right, ce_eq]

theorem ph_eq (b : Fin 16) (s : Fin 2047) (o : Fin 768) :
    val_main_v29 (F := Ideal) x0 x3 x6 x8 (ix3 b s o) = Spec.ph x0 x3 x6 x8 b s o := by
  rw [val_main_v29_apply, val_main_call1_v0_apply, val_main_call1_cst_apply, val_main_v28_apply]
  unfold Spec.ph Spec.relu
  show max _ (Ideal.ofBits .f32 0x00000000#32) = max _ (Ideal.ofBits .f32 0x00000000#32)
  congr 1
  rw [Cert.RefSum.sum_split 768 768 1536 rfl]
  congr 1
  · refine Finset.sum_congr rfl fun i _ => ?_
    beta_reduce
    rw [lidx28, ridx28, v27_left, val_main_v25_apply, idx25, su_eq]
  · refine Finset.sum_congr rfl fun i _ => ?_
    beta_reduce
    rw [lidx28, ridx28, v27_right, val_main_v26_apply, idx26, su_eq]

theorem mm_eq (b : Fin 16) (s : Fin 2047) (o : Fin 768) :
    val_main_v32 (F := Ideal) x0 x1 x2 x3 x4 x5 x6 x7 x8 x9 (ix3 b s o) = Spec.mm x0 x1 x2 x3 x4 x5 x6 x7 x8 x9 b s o := by
  rw [val_main_v32_apply, val_main_call2_v0_apply, val_main_call2_cst_apply, val_main_v31_apply]
  unfold Spec.mm Spec.relu
  show max _ (Ideal.ofBits .f32 0x00000000#32) = max _ (Ideal.ofBits .f32 0x00000000#32)
  congr 1
  rw [Cert.RefSum.sum_split 768 128 896 rfl]
  congr 1
  · refine Finset.sum_congr rfl fun i _ => ?_
    beta_reduce
    rw [lidx31, ridx31, v30_left, ph_eq]
  · refine Finset.sum_congr rfl fun i _ => ?_
    beta_reduce
    rw [lidx31, ridx31, v30_right, dc_eq]

end Cert.RefStages

end
-- ==== Proof.RefScatter.lean ====
/-
  A scatter, read at an index, when every element of the operand is met by at most one update.

  The host's scatter is a left fold over the update indices: each update whose result index lies inside the operand
  replaces the element there by the body applied to that element and the update.  When no update lands on an element,
  the fold leaves it; when exactly one update lands on it, the element is the body applied to the operand's element
  and that update.  Below, first for the fold over any list, then for the scatter.
-/
import Idealize.ShloMosaic.PureOps.Ideal
import Idealize.ShloMosaic.Lib.ValueIdx

noncomputable section

namespace Cert.RefScatter

open Idealize.ShloMosaic Idealize.ShloMosaic.ValueIdx

section Fold

variable {ι κ α : Type} [DecidableEq κ]

/-- One step of the fold: the update n lands at g n (or nowhere). -/
def step (g : ι → Option κ) (f : α → α → α) (upd : ι → α) (r : κ → α) (n : ι) : κ → α :=
  match g n with
  | some k => fun i' => if i' = k then f (r k) (upd n) else r i'
  | none => r

theorem step_of_ne (g : ι → Option κ) (f : α → α → α) (upd : ι → α) (r : κ → α) (n : ι) (i : κ)
    (h : g n ≠ some i) : step g f upd r n i = r i := by
  unfold step
  cases hg : g n with
  | none => rfl
  | some k =>
    have hik : i ≠ k := fun e => h (by rw [hg, e])
    show (if i = k then f (r k) (upd n) else r i) = r i
    rw [if_neg hik]

theorem step_of_eq (g : ι → Option κ) (f : α → α → α) (upd : ι → α) (r : κ → α) (n : ι) (i : κ)
    (h : g n = some i) : step g f upd r n i = f (r i) (upd n) := by
  unfold step
  rw [h]
  show (if i = i then f (r i) (upd n) else r i) = f (r i) (upd n)
  rw [if_pos rfl]

/-- No update of the list lands on i: the fold leaves the element. -/
theorem foldl_miss (g : ι → Option κ) (f : α → α → α) (upd : ι → α) (i : κ) :
    ∀ (L : List ι) (x : κ → α), (∀ n ∈ L, g n ≠ some i) → (L.foldl (step g f upd) x) i = x i
  | [], _, _ => rfl
  | a :: L, x, h => by
    rw [List.foldl_cons, foldl_miss g f upd i L _ (fun n hn => h n (List.mem_cons_of_mem a hn)),
      step_of_ne g f upd x a i (h a List.mem_cons_self)]

/-- Exactly one update of a list without repeats lands on i: the element is the body applied to it and that update. -/
theorem foldl_hit (g : ι → Option κ) (f : α → α → α) (upd : ι → α) (i : κ) (n : ι) (hn : g n = some i) :
    ∀ (L : List ι) (x : κ → α), L.Nodup → n ∈ L → (∀ m ∈ L, g m = some i → m = n) →
      (L.foldl (step g f upd) x) i = f (x i) (upd n)
  | [], _, _, hm, _ => absurd hm List.not_mem_nil
  | a :: L, x, hnd, hm, hu => by
    rw [List.foldl_cons]
    have hnd' := List.nodup_cons.mp hnd
    by_cases ha : a = n
    · subst ha
      rw [foldl_miss g f upd i L _ (fun m hmL hgm => hnd'.1 (by rw [← hu m (List.mem_cons_of_mem a hmL) hgm]; exact hmL)),
        step_of_eq g f upd x a i hn]
    · have hnL : n ∈ L := by
        rcases List.mem_cons.mp hm with e | e
        · exact absurd e.symm ha
        · exact e
      rw [foldl_hit g f upd i n hn L _ hnd'.2 hnL (fun m hmL => hu m (List.mem_cons_of_mem a hmL)),
        step_of_ne g f upd x a i (fun e => ha (hu a List.mem_cons_self e))]

end Fold

variable {α : Type} {s si u : Shape} {w : Nat}

/-- The scatter is the fold of the step over the update indices in row-major order. -/
theorem scatter_eq_foldl (d : ScatterDims s si u) (f : α → α → α) (x : s.Idx → α) (idx : IVec si w) (upd : u.Idx → α) :
    Host.scatter d f x idx upd
      = (List.finRange u.numel).foldl
          (step (fun n => d.resultIdx? (u.rowMajor.symm n) idx) f (fun n => upd (u.rowMajor.symm n))) x := by
  unfold Host.scatter
  congr 1
  funext r n
  unfold step
  beta_reduce
  generalize d.resultIdx? (u.rowMajor.symm n) idx = o
  cases o <;> rfl

/-- No update lands on i: the scatter leaves the operand's element. -/
theorem scatter_apply_of_miss (d : ScatterDims s si u) (f : α → α → α) (x : s.Idx → α) (idx : IVec si w) (upd : u.Idx → α)
    (i : s.Idx) (h : ∀ j, d.resultIdx? j idx ≠ some i) : Host.scatter d f x idx upd i = x i := by
  rw [scatter_eq_foldl]
  exact foldl_miss _ f _ i _ x (fun n _ => h _)

/-- Exactly one update, j, lands on i: the element is the body applied to the operand's element and that update. -/
theorem scatter_apply_of_hit (d : ScatterDims s si u) (f : α → α → α) (x : s.Idx → α) (idx : IVec si w) (upd : u.Idx → α)
    (i : s.Idx) (j : u.Idx) (hj : d.resultIdx? j idx = some i) (hu : ∀ j', d.resultIdx? j' idx = some i → j' = j) :
    Host.scatter d f x idx upd i = f (x i) (upd j) := by
  rw [scatter_eq_foldl]
  have e := foldl_hit (fun n => d.resultIdx? (u.rowMajor.symm n) idx) f (fun n => upd (u.rowMajor.symm n)) i
    (u.rowMajor j) (by show d.resultIdx? (u.rowMajor.symm (u.rowMajor j)) idx = some i; rw [Equiv.symm_apply_apply]; exact hj)
    (List.finRange u.numel) x (List.nodup_finRange _) (List.mem_finRange _)
    (fun m _ hm => by
      have := hu _ hm
      rw [← this, Equiv.apply_symm_apply])
  rw [e]
  show f (x i) (upd (u.rowMajor.symm (u.rowMajor j))) = f (x i) (upd j)
  rw [Equiv.symm_apply_apply]

/-! ## A window of whole rows written at one row offset

  Operand [B, R, H], one scatter index (a vector of one word, naming the row axis), updates [B, R', H] all of whose
  axes are window axes: update (b, r, h) lands at (b, off + r, h), where off is the index word read signed.  When the
  window fits (off + R' ≤ R) every update lands inside, distinct updates land on distinct elements, and the elements
  of rows off ≤ r < off + R' are exactly the ones met. -/

section Rows

variable {α : Type} {B R R' H w : Nat}

/-- The dimension numbers: all three update axes are window axes, none inserted, the index names operand axis 1. -/
abbrev rowWin (B R R' H : Nat)
    (wf : ScatterDims.WF ⟨3, ![B, R, H]⟩ ⟨1, ![1]⟩ ⟨3, ![B, R', H]⟩ [0, 1, 2] [] [1] 0) :
    ScatterDims ⟨3, ![B, R, H]⟩ ⟨1, ![1]⟩ ⟨3, ![B, R', H]⟩ where
  updateWindowDims := [0, 1, 2]
  insertedWindowDims := []
  scatterDimsToOperandDims := [1]
  indexVectorDim := 0
  wf := wf

variable (wf : ScatterDims.WF ⟨3, ![B, R, H]⟩ ⟨1, ![1]⟩ ⟨3, ![B, R', H]⟩ [0, 1, 2] [] [1] 0)
  (idx : IVec ⟨1, ![1]⟩ w) (off : Nat) (hoff : ∀ k, (idx k).toInt = (off : Int))

include hoff in
theorem rowWin_start (j : (⟨3, ![B, R', H]⟩ : Shape).Idx) :
    (rowWin B R R' H wf).start j idx 0 = 0 ∧ (rowWin B R R' H wf).start j idx 1 = (off : Int)
      ∧ (rowWin B R R' H wf).start j idx 2 = 0 := by
  refine ⟨?_, ?_, ?_⟩
  · unfold ScatterDims.start
    rw [dif_neg (show ¬(0 : Fin 3) ∈ (rowWin B R R' H wf).scatterDimsToOperandDims from
      (by decide : ¬(0 : Fin 3) ∈ [(1 : Fin 3)]))]
  · unfold ScatterDims.start
    rw [dif_pos (show (1 : Fin 3) ∈ (rowWin B R R' H wf).scatterDimsToOperandDims from List.mem_singleton.mpr rfl)]
    exact hoff _
  · unfold ScatterDims.start
    rw [dif_neg (show ¬(2 : Fin 3) ∈ (rowWin B R R' H wf).scatterDimsToOperandDims from
      (by decide : ¬(2 : Fin 3) ∈ [(1 : Fin 3)]))]

theorem rowWin_window (b : Fin B) (r : Fin R') (h : Fin H) :
    (rowWin B R R' H wf).window (ix3 b r h) 0 = b.val ∧ (rowWin B R R' H wf).window (ix3 b r h) 1 = r.val
      ∧ (rowWin B R R' H wf).window (ix3 b r h) 2 = h.val := by
  refine ⟨?_, ?_, ?_⟩
  · unfold ScatterDims.window
    rw [dif_pos (show (0 : Fin 3) ∈ (rowWin B R R' H wf).sKept from
      (by decide : (0 : Fin 3) ∈ (List.finRange 3).filter (fun a => a ∉ ([] : List (Fin 3)))))]
    rfl
  · unfold ScatterDims.window
    rw [dif_pos (show (1 : Fin 3) ∈ (rowWin B R R' H wf).sKept from
      (by decide : (1 : Fin 3) ∈ (List.finRange 3).filter (fun a => a ∉ ([] : List (Fin 3)))))]
    rfl
  · unfold ScatterDims.window
    rw [dif_pos (show (2 : Fin 3) ∈ (rowWin B R R' H wf).sKept from
      (by decide : (2 : Fin 3) ∈ (List.finRange 3).filter (fun a => a ∉ ([] : List (Fin 3)))))]
    rfl

theorem lt_of_fit {off R R' : Nat} (hfit : off + R' ≤ R) (r : Fin R') : off + r.val < R := by
  have := r.isLt; omega

include hoff in
/-- WHERE AN UPDATE LANDS: update (b, r, h) lands at (b, off + r, h). -/
theorem rowWin_resultIdx (hfit : off + R' ≤ R) (b : Fin B) (r : Fin R') (h : Fin H) :
    (rowWin B R R' H wf).resultIdx? (ix3 b r h) idx = some (ix3 b (⟨off + r.val, by omega⟩ : Fin R) h) := by
  obtain ⟨s0, s1, s2⟩ := rowWin_start wf idx off hoff (ix3 b r h)
  obtain ⟨w0, w1, w2⟩ := rowWin_window (R := R) wf b r h
  have hall : ∀ a, 0 ≤ (rowWin B R R' H wf).start (ix3 b r h) idx a + (rowWin B R R' H wf).window (ix3 b r h) a ∧
      (rowWin B R R' H wf).start (ix3 b r h) idx a + (rowWin B R R' H wf).window (ix3 b r h) a
        < (⟨3, ![B, R, H]⟩ : Shape).size a := fun a => by
    match a with
    | ⟨0, _⟩ =>
      show 0 ≤ (rowWin B R R' H wf).start (ix3 b r h) idx 0 + ((rowWin B R R' H wf).window (ix3 b r h) 0 : Nat) ∧
        (rowWin B R R' H wf).start (ix3 b r h) idx 0 + ((rowWin B R R' H wf).window (ix3 b r h) 0 : Nat) < (B : Int)
      rw [s0, w0]; have := b.isLt; omega
    | ⟨1, _⟩ =>
      show 0 ≤ (rowWin B R R' H wf).start (ix3 b r h) idx 1 + ((rowWin B R R' H wf).window (ix3 b r h) 1 : Nat) ∧
        (rowWin B R R' H wf).start (ix3 b r h) idx 1 + ((rowWin B R R' H wf).window (ix3 b r h) 1 : Nat) < (R : Int)
      rw [s1, w1]; have := r.isLt; omega
    | ⟨2, _⟩ =>
      show 0 ≤ (rowWin B R R' H wf).start (ix3 b r h) idx 2 + ((rowWin B R R' H wf).window (ix3 b r h) 2 : Nat) ∧
        (rowWin B R R' H wf).start (ix3 b r h) idx 2 + ((rowWin B R R' H wf).window (ix3 b r h) 2 : Nat) < (H : Int)
      rw [s2, w2]; have := h.isLt; omega
  unfold ScatterDims.resultIdx?
  rw [dif_pos hall]
  refine congrArg some (funext fun a => Fin.ext ?_)
  match a with
  | ⟨0, _⟩ =>
    show ((rowWin B R R' H wf).start (ix3 b r h) idx 0 + ((rowWin B R R' H wf).window (ix3 b r h) 0 : Nat)).toNat = b.val
    rw [s0, w0]; omega
  | ⟨1, _⟩ =>
    show ((rowWin B R R' H wf).start (ix3 b r h) idx 1 + ((rowWin B R R' H wf).window (ix3 b r h) 1 : Nat)).toNat = off + r.val
    rw [s1, w1]; omega
  | ⟨2, _⟩ =>
    show ((rowWin B R R' H wf).start (ix3 b r h) idx 2 + ((rowWin B R R' H wf).window (ix3 b r h) 2 : Nat)).toNat = h.val
    rw [s2, w2]; omega

include hoff in
/-- THE SCATTER READ INSIDE THE WINDOW: at row off + r the element is the body applied to the operand's element and
    update (b, r, h). -/
theorem rowWin_apply_inside (f : α → α → α) (x : (⟨3, ![B, R, H]⟩ : Shape).Idx → α)
    (upd : (⟨3, ![B, R', H]⟩ : Shape).Idx → α) (hfit : off + R' ≤ R) (b : Fin B) (r : Fin R') (h : Fin H)
    (q : Fin R) (hq : q.val = off + r.val) :
    Host.scatter (rowWin B R R' H wf) f x idx upd (ix3 b q h) = f (x (ix3 b q h)) (upd (ix3 b r h)) := by
  have eq : q = (⟨off + r.val, lt_of_fit hfit r⟩ : Fin R) := Fin.ext hq
  subst eq
  refine scatter_apply_of_hit _ f x idx upd _ (ix3 b r h) (rowWin_resultIdx wf idx off hoff hfit b r h) (fun j' hj' => ?_)
  obtain ⟨b', r', h', rfl⟩ : ∃ b' r' h', j' = ix3 b' r' h' := ⟨j' 0, j' 1, j' 2, eq_ix3 j'⟩
  rw [rowWin_resultIdx wf idx off hoff hfit b' r' h'] at hj'
  have e := Option.some.inj hj'
  have e0 : b' = b := congrFun e 0
  have e1 : (⟨off + r'.val, by omega⟩ : Fin R) = ⟨off + r.val, by omega⟩ := congrFun e 1
  have e2 : h' = h := congrFun e 2
  have e1' : r' = r := Fin.ext (by have := congrArg Fin.val e1; simp only at this; omega)
  rw [e0, e1', e2]

include hoff in
/-- THE SCATTER READ OUTSIDE THE WINDOW: a row below off or from off + R' on keeps the operand's element. -/
theorem rowWin_apply_outside (f : α → α → α) (x : (⟨3, ![B, R, H]⟩ : Shape).Idx → α)
    (upd : (⟨3, ![B, R', H]⟩ : Shape).Idx → α) (hfit : off + R' ≤ R) (b : Fin B) (q : Fin R) (h : Fin H)
    (hq : q.val < off ∨ off + R' ≤ q.val) :
    Host.scatter (rowWin B R R' H wf) f x idx upd (ix3 b q h) = x (ix3 b q h) := by
  refine scatter_apply_of_miss _ f x idx upd _ (fun j' hj' => ?_)
  obtain ⟨b', r', h', rfl⟩ : ∃ b' r' h', j' = ix3 b' r' h' := ⟨j' 0, j' 1, j' 2, eq_ix3 j'⟩
  rw [rowWin_resultIdx wf idx off hoff hfit b' r' h'] at hj'
  have e := Option.some.inj hj'
  have e1 : (⟨off + r'.val, by omega⟩ : Fin R) = q := congrFun e 1
  have := congrArg Fin.val e1
  have := r'.isLt
  simp only at *
  omega

end Rows

end Cert.RefScatter

end
-- ==== Proof.RefSpec.lean ====
/-
  The reference computes the specification.

  The two scatters each add a block of whole rows at one row offset (0, then 2): inside the block an element gains the
  update's element, outside it is left as it was.  Row r of the result is therefore the embedded row r, plus the pair
  contribution of row r when r < 2047, plus the pair contribution of row r - 1 when 2 ≤ r.
-/
import proofs.«124179_j78331613544613_1_alg».proof.Proof.RefStages
import proofs.«124179_j78331613544613_1_alg».proof.Proof.RefScatter

noncomputable section

namespace Cert.RefSpec

open Cert.ReferenceIdeal Cert.ReferenceIdeal.Gen Cert.ReferenceIdeal.ReadP Idealize.ShloMosaic Idealize.ShloMosaic.ValueIdx
open Cert.RefStages Cert.RefScatter

variable (x0 : (⟨S16x2048x768, .f32⟩ : BufTy).Contents (Elt Ideal)) (x1 x2 : (⟨S16x2047, .i32⟩ : BufTy).Contents (Elt Ideal))
  (x3 : (⟨S16x2048, .i32⟩ : BufTy).Contents (Elt Ideal)) (x4 x5 : (⟨S512x128, .f32⟩ : BufTy).Contents (Elt Ideal))
  (x6 : (⟨S50000x768, .f32⟩ : BufTy).Contents (Elt Ideal)) (x7 : (⟨S128x256, .f32⟩ : BufTy).Contents (Elt Ideal))
  (x8 : (⟨S768x1536, .f32⟩ : BufTy).Contents (Elt Ideal)) (x9 : (⟨S768x896, .f32⟩ : BufTy).Contents (Elt Ideal))

set_option maxRecDepth 8000 in
/-- The first scatter's dimension numbers are a window of whole rows at one row offset. -/
theorem dims34 : scatter_S16x2048x768_S1_S16x2047x768_012_n_1_0
    = rowWin 16 2048 2047 768 Facts₀.scatter_S16x2048x768_S1_S16x2047x768_012_n_1_0_wf := rfl

set_option maxRecDepth 8000 in
/-- So are the second scatter's. -/
theorem dims37 : scatter_S16x2048x768_S1_S16x2046x768_012_n_1_0
    = rowWin 16 2048 2046 768 Facts₀.scatter_S16x2048x768_S1_S16x2046x768_012_n_1_0_wf := rfl

/-- The first scatter's index word is 0. -/
theorem off33 : ∀ k, ((val_main_v33 (F := Ideal)) k).toInt = ((0 : Nat) : Int) := fun k => by
  rw [val_main_v33_apply, val_main_c_5_apply]; rfl

/-- The second scatter's index word is 2. -/
theorem off36 : ∀ k, ((val_main_v36 (F := Ideal)) k).toInt = ((2 : Nat) : Int) := fun k => by
  rw [val_main_v36_apply, val_main_c_6_apply]; rfl

/-- The second scatter's updates: the pair contributions from the second pair on. -/
theorem v35_eq (b : Fin 16) (r : Fin 2046) (h : Fin 768) :
    val_main_v35 (F := Ideal) x0 x1 x2 x3 x4 x5 x6 x7 x8 x9 (ix3 b r h)
      = Spec.mm x0 x1 x2 x3 x4 x5 x6 x7 x8 x9 b (⟨r.val + 1, by omega⟩ : Fin 2047) h := by
  have e : idx_main_v35 (ix3 b r h) = ix3 b (⟨r.val + 1, by omega⟩ : Fin 2047) h :=
    funext fun a => match a with | ⟨0, _⟩ => rfl | ⟨1, _⟩ => Fin.ext (Nat.add_comm 1 r.val) | ⟨2, _⟩ => rfl
  rw [val_main_v35_apply, e, mm_eq]

/-- After the first scatter: the embedded row plus, below the last row, its pair contribution. -/
theorem v34_eq (b : Fin 16) (r : Fin 2048) (h : Fin 768) :
    val_main_v34 (F := Ideal) x0 x1 x2 x3 x4 x5 x6 x7 x8 x9 (ix3 b r h)
      = Spec.su x0 x3 x6 b r h + (if hr : r.val < 2047 then Spec.mm x0 x1 x2 x3 x4 x5 x6 x7 x8 x9 b ⟨r.val, hr⟩ h else 0) := by
  unfold val_main_v34
  rw [dims34]
  by_cases hr : r.val < 2047
  · rw [dif_pos hr, rowWin_apply_inside _ _ 0 off33 _ _ _ (by decide) b (⟨r.val, hr⟩ : Fin 2047) h r (Nat.zero_add _).symm,
      su_eq, mm_eq]
    all_goals rfl
  · rw [dif_neg hr, rowWin_apply_outside _ _ 0 off33 _ _ _ (by decide) b r h (Or.inr (by omega)), su_eq, add_zero]

/-- After the second scatter: the specification's row. -/
theorem v37_eq (b : Fin 16) (r : Fin 2048) (h : Fin 768) :
    val_main_v37 (F := Ideal) x0 x1 x2 x3 x4 x5 x6 x7 x8 x9 (ix3 b r h) = Spec.out x0 x1 x2 x3 x4 x5 x6 x7 x8 x9 b r h := by
  unfold val_main_v37
  rw [dims37]
  unfold Spec.out
  by_cases hr : 2 ≤ r.val
  · have e : (⟨r.val - 2 + 1, by omega⟩ : Fin 2047) = ⟨r.val - 1, by omega⟩ := Fin.ext (by show r.val - 2 + 1 = r.val - 1; omega)
    rw [dif_pos hr, rowWin_apply_inside _ _ 2 off36 _ _ _ (by decide) b (⟨r.val - 2, by omega⟩ : Fin 2046) h r (by show r.val = 2 + (r.val - 2); omega),
      v34_eq, v35_eq]
    show _ + Spec.mm x0 x1 x2 x3 x4 x5 x6 x7 x8 x9 b (⟨r.val - 2 + 1, _⟩ : Fin 2047) h = _
    rw [e]
  · rw [dif_neg hr, rowWin_apply_outside _ _ 2 off36 _ _ _ (by decide) b r h (Or.inl (by omega)), v34_eq, add_zero]

/-- THE REFERENCE IS THE SPECIFICATION. -/
theorem ref_eq :
    Cert.ReferenceIdeal.ReadP.val_main_v37 (F := Ideal) x0 x1 x2 x3 x4 x5 x6 x7 x8 x9 = Cert.Spec.G x0 x1 x2 x3 x4 x5 x6 x7 x8 x9 := by
  funext j
  obtain ⟨b, r, h, rfl⟩ : ∃ b r h, j = ix3 b r h := ⟨j 0, j 1, j 2, eq_ix3 j⟩
  exact v37_eq x0 x1 x2 x3 x4 x5 x6 x7 x8 x9 b r h

end Cert.RefSpec

end
-- ==== Proof.lean ====
/-
  The certificate of the windowed pair-mix kernel against its reference.

  Both programs compute, for every batch b and position r, the row
      su[b, r] + (mm[b, r] if r < 2047) + (mm[b, r − 1] if r ≥ 2),
  where su = seqs + E_u[u] and mm[b, s] is the rectified mix of the adjacent pair (su[b, s], su[b, s + 1]) with the two
  small embeddings of position s (Proof/Spec.lean).  The reference computes it whole: three gathers, three matrix
  products over joined rows, two shifted accumulations (Proof/RefStages.lean, Proof/RefSpec.lean, over its run).  The
  kernel computes it tile by tile on a 16 × 8 grid, each tile reading its 256 rows, the row before and the row after
  through three windows on one array; the junk rows it reads at the two ends of the sequence are multiplied by a zero
  mask (Proof/Tile.lean, Proof/PayTile.lean, Proof/TileSpec.lean), and the tiles cover the result (Proof/ValueKI.lean).
  On the extended reals a change of float format is the identity, a sum over a joined row splits into the sums over its
  pieces, and 1 · x = x, 0 · x = 0, x + 0 = x: no finiteness is used.  The kernel's frame — at the word level and
  idealized — is the library's launch for input windows sharing an array (Proof/LibSharedFrame.lean), the body run by
  symbolic execution (Proof/FrameK.lean, Proof/FrameKI.lean, Proof/RunK.lean, Proof/RunKI.lean).  The idealization
  rewrote nothing, so there is nothing to preserve.
-/
import proofs.«124179_j78331613544613_1_alg».proof.Defs
import proofs.«124179_j78331613544613_1_alg».proof.Proof.Gen.Kernel
import proofs.«124179_j78331613544613_1_alg».proof.Proof.Gen.KernelIdeal
import proofs.«124179_j78331613544613_1_alg».proof.Proof.Gen.ReferenceIdeal
import proofs.«124179_j78331613544613_1_alg».proof.Proof.Gen.Pre_finite_inputs
import proofs.«124179_j78331613544613_1_alg».proof.Proof.RunK
import proofs.«124179_j78331613544613_1_alg».proof.Proof.ValueKI
import proofs.«124179_j78331613544613_1_alg».proof.Proof.RefSpec
import proofs.«124179_j78331613544613_1_alg».proof.Proof.RunRefP
import Idealize.ShloMosaic.Adequacy
import Idealize.ShloMosaic.Init

noncomputable section

namespace Cert.Proof

open Idealize.ShloMosaic Idealize.ShloMosaic.TcCoe Idealize.SL.Sem

/-- The word-level kernel runs to the end, faults nowhere, and leaves its arguments unchanged. -/
theorem frame_k : Cert.frame_Kernel := fun m ρ _ => Cert.Kernel.HFrame.frame m ρ

/-- So does the idealized kernel. -/
theorem frame_ki : Cert.frame_KernelIdeal := fun m ρ _ => Cert.KernelIdeal.HFrame.frame m ρ

/-- So does the reference: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories agreeing on the arguments both programs end with the specification of those arguments. -/
theorem algebraic : Cert.algebraic_KernelIdeal_ReferenceIdeal := by
  intro m ρ m' ρ' _ hagree
  refine ⟨fun (c : Dev Cert.KernelIdeal.nD) => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    Cert.KernelIdeal.HValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ValueP.val_main_v37_eq, Cert.RefSpec.ref_eq]
  obtain ⟨h0, h1, h2, h3, h4, h5, h6, h7, h8, h9⟩ := hagree c
  rw [h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
